-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.named_const.Statement Cert.KernelIdeal.κ "inv_2000" .f32 0x3A03126F#32 ((1 / 2000 : ℝ) : EReal)
  ∧ IdealRules.named_const.Statement Cert.KernelIdeal.κ "inv_2000" .f32 0x3A03126F#32 ((1 / 2000 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S256x47 .f32) (main_arg13 : FVec F S256x47 .f32) (main_arg14 : FVec F S47 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x47 .f32 := Host.absf main_arg12
  let main_cst_20 : FVec F S_ .f32 := constant S_ .f32 0x7F800000#32
  let main_v55 : FVec F S256x47 .f32 := broadcastInDim S256x47 ![] bcast_S_S256x47 main_cst_20
  let main_v56 : IVec S256x47 1 := cmpf .olt main_v54 main_v55
  let main_c_21 : IVec S_ 1 := constantI S_ 1 1#1
  let main_v57 : IVec S_ 1 := (fun x v => Host.reduce IntOp.andi x v reducesTo_S256x47_S_d0_1 h_S_) main_v56 main_c_21
  let main_v58 : IVec S_ 1 := andi main_v53 main_v57
  let main_v59 : FVec F S256x47 .f32 := Host.absf main_arg13
  let main_cst_22 : FVec F S_ .f32 := constant S_ .f32 0x7F800000#32
  let main_v60 : FVec F S256x47 .f32 := broadcastInDim S256x47 ![] bcast_S_S256x47 main_cst_22
  let main_v61 : IVec S256x47 1 := cmpf .olt main_v59 main_v60
  let main_c_23 : IVec S_ 1 := constantI S_ 1 1#1
  let main_v62 : IVec S_ 1 := (fun x v => Host.reduce IntOp.andi x v reducesTo_S256x47_S_d0_1 h_S_) main_v61 main_c_23
  let main_v63 : IVec S_ 1 := andi main_v58 main_v62
  let main_v64 : FVec F S47 .f32 := Host.absf main_arg14
  let main_cst_24 : FVec F S_ .f32 := constant S_ .f32 0x7F800000#32
  let main_v65 : FVec F S47 .f32 := broadcastInDim S47 ![] bcast_S_S47 main_cst_24
  let main_v66 : IVec S47 1 := cmpf .olt main_v64 main_v65
  let main_c_25 : IVec S_ 1 := constantI S_ 1 1#1
  let main_v67 : IVec S_ 1 := (fun x v => Host.reduce IntOp.andi x v reducesTo_S47_S_d0 h_S_) main_v66 main_c_25
  fn_part4 (F := F) main_v63 main_v67

def fn_part2 {F : FTy → Type} [FloatOps F] (main_arg8 : FVec F S256x256 .f32) (main_arg9 : FVec F S256 .f32) (main_arg10 : FVec F S256 .f32) (main_arg11 : FVec F S256 .f32) (main_arg12 : FVec F S256x47 .f32) (main_arg13 : FVec F S256x47 .f32) (main_arg14 : FVec F S47 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_v48 main_v49 main_v50

def fn_part1 {F : FTy → Type} [FloatOps F] (main_arg5 : FVec F S256 .f32) (main_arg6 : FVec F S256 .f32) (main_arg7 : FVec F S256x256 .f32) (main_arg8 : FVec F S256x256 .f32) (main_arg9 : FVec F S256 .f32) (main_arg10 : FVec F S256 .f32) (main_arg11 : FVec F S256 .f32) (main_arg12 : FVec F S256x47 .f32) (main_arg13 : FVec F S256x47 .f32) (main_arg14 : FVec F S47 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x800000 32) (main_arg2 : FVec F S128x256 .f32) (main_arg3 : FVec F S128x256 .f32) (main_arg4 : FVec F S256 .f32) (main_arg5 : FVec F S256 .f32) (main_arg6 : FVec F S256 .f32) (main_arg7 : FVec F S256x256 .f32) (main_arg8 : FVec F S256x256 .f32) (main_arg9 : FVec F S256 .f32) (main_arg10 : FVec F S256 .f32) (main_arg11 : FVec F S256 .f32) (main_arg12 : FVec F S256x47 .f32) (main_arg13 : FVec F S256x47 .f32) (main_arg14 : FVec F S47 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S25x1x256 : Shape := ⟨3, ![25, 1, 256]⟩
abbrev S2000x128 : Shape := ⟨2, ![2000, 128]⟩
abbrev S2000x1 : Shape := ⟨2, ![2000, 1]⟩
abbrev S2000x256 : Shape := ⟨2, ![2000, 256]⟩
abbrev S1x1x256 : Shape := ⟨3, ![1, 1, 256]⟩
abbrev S25x256 : Shape := ⟨2, ![25, 256]⟩
abbrev S800000x256 : Shape := ⟨2, ![800000, 256]⟩
abbrev S256x128 : Shape := ⟨2, ![256, 128]⟩
abbrev S128 : Shape := ⟨1, ![128]⟩
abbrev S1x128 : Shape := ⟨2, ![1, 128]⟩
abbrev S2000 : Shape := ⟨1, ![2000]⟩
abbrev S50000x47 : Shape := ⟨2, ![50000, 47]⟩

abbrev nBuf : Space → Nat
  | .hbm => 151
  | .vmem => 57
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S128x256, .f32⟩
  | 4 => ⟨S256, .f32⟩
  | 5 => ⟨S256, .f32⟩
  | 6 => ⟨S256, .f32⟩
  | 7 => ⟨S256x256, .f32⟩
  | 8 => ⟨S256x256, .f32⟩
  | 9 => ⟨S256, .f32⟩
  | 10 => ⟨S256, .f32⟩
  | 11 => ⟨S256, .f32⟩
  | 12 => ⟨S256x47, .f32⟩
  | 13 => ⟨S256x47, .f32⟩
  | 14 => ⟨S47, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S_, .f32⟩
  | 29 => ⟨S50000, .f32⟩
  | 30 => ⟨S50000, .f32⟩
  | 31 => ⟨S50000x1, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S1x256, .f32⟩
  | 46 => ⟨S50000x256, .f32⟩
  | 47 => ⟨S25x1x256, .f32⟩
  | 48 => ⟨S25x1x256, .f32⟩
  | 49 => ⟨S25x256, .f32⟩
  | 50 => ⟨S25x256, .f32⟩
  | 51 => ⟨S_, .f32⟩
  | 52 => ⟨S256, .f32⟩
  | 53 => ⟨S1x256, .f32⟩
  | 54 => ⟨S_, .f32⟩
  | 55 => ⟨S1x256, .f32⟩
  | 56 => ⟨S1x256, .f32⟩
  | 57 => ⟨S25x256, .f32⟩
  | 58 => ⟨S25x256, .f32⟩
  | 59 => ⟨S_, .f32⟩
  | 60 => ⟨S256, .f32⟩
  | 61 => ⟨S1x256, .f32⟩
  | 62 => ⟨S25x256, .f32⟩
  | 63 => ⟨S_, .f32⟩
  | 64 => ⟨S256, .f32⟩
  | 65 => ⟨S1x256, .f32⟩
  | 66 => ⟨S_, .f32⟩
  | 67 => ⟨S1x256, .f32⟩
  | 68 => ⟨S1x256, .f32⟩
  | 69 => ⟨S1x256, .f32⟩
  | 70 => ⟨S_, .f32⟩
  | 71 => ⟨S1x256, .f32⟩
  | 72 => ⟨S1x256, .f32⟩
  | 73 => ⟨S_, .f32⟩
  | 74 => ⟨S1x256, .f32⟩
  | 75 => ⟨S1x256, .f32⟩
  | 76 => ⟨S1x256, .f32⟩
  | 77 => ⟨S1x256, .f32⟩
  | 78 => ⟨S50000x256, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x256, .f32⟩
  | 88 => ⟨S_, .f32⟩
  | 89 => ⟨S50000x256, .f32⟩
  | 90 => ⟨S800000x1, .i32⟩
  | 91 => ⟨S50000x256, .f32⟩
  | 92 => ⟨S1x256, .f32⟩
  | 93 => ⟨S50000x256, .f32⟩
  | 94 => ⟨S25x1x256, .f32⟩
  | 95 => ⟨S25x1x256, .f32⟩
  | 96 => ⟨S25x256, .f32⟩
  | 97 => ⟨S25x256, .f32⟩
  | 98 => ⟨S_, .f32⟩
  | 99 => ⟨S256, .f32⟩
  | 100 => ⟨S1x256, .f32⟩
  | 101 => ⟨S_, .f32⟩
  | 102 => ⟨S1x256, .f32⟩
  | 103 => ⟨S1x256, .f32⟩
  | 104 => ⟨S25x256, .f32⟩
  | 105 => ⟨S25x256, .f32⟩
  | 106 => ⟨S_, .f32⟩
  | 107 => ⟨S256, .f32⟩
  | 108 => ⟨S1x256, .f32⟩
  | 109 => ⟨S25x256, .f32⟩
  | 110 => ⟨S_, .f32⟩
  | 111 => ⟨S256, .f32⟩
  | 112 => ⟨S1x256, .f32⟩
  | 113 => ⟨S_, .f32⟩
  | 114 => ⟨S1x256, .f32⟩
  | 115 => ⟨S1x256, .f32⟩
  | 116 => ⟨S1x256, .f32⟩
  | 117 => ⟨S_, .f32⟩
  | 118 => ⟨S1x256, .f32⟩
  | 119 => ⟨S1x256, .f32⟩
  | 120 => ⟨S_, .f32⟩
  | 121 => ⟨S1x256, .f32⟩
  | 122 => ⟨S1x256, .f32⟩
  | 123 => ⟨S1x256, .f32⟩
  | 124 => ⟨S1x256, .f32⟩
  | 125 => ⟨S50000x256, .f32⟩
  | 126 => ⟨S_, .i32⟩
  | 127 => ⟨S800000, .i32⟩
  | _ => ⟨S50000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x256, .f32⟩
  | 7 => ⟨S_, .f32⟩
  | 8 => ⟨S50000x256, .f32⟩
  | 9 => ⟨S800000x1, .i32⟩
  | 10 => ⟨S50000x256, .f32⟩
  | 11 => ⟨S_, .i32⟩
  | 12 => ⟨S_, .f32⟩
  | 13 => ⟨S256x128, .f32⟩
  | 14 => ⟨S_, .i32⟩
  | 15 => ⟨S_, .f32⟩
  | 16 => ⟨S256x128, .f32⟩
  | 17 => ⟨S_, .i32⟩
  | 18 => ⟨S_, .f32⟩
  | 19 => ⟨S128, .f32⟩
  | 20 => ⟨S1x128, .f32⟩
  | 21 => ⟨S50000x128, .f32⟩
  | 22 => ⟨S50000x47, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S2000x256, .f32⟩
  | .local _ .vmem, ⟨16, _⟩ => ⟨S2000x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x1, .f32⟩
  | .local _ .vmem, ⟨28, _⟩ => ⟨S2000x1, .f32⟩
  | .local _ .vmem, ⟨29, _⟩ => ⟨S256x256, .f32⟩
  | .local _ .vmem, ⟨30, _⟩ => ⟨S256x256, .f32⟩
  | .local _ .vmem, ⟨31, _⟩ => ⟨S1x256, .f32⟩
  | .local _ .vmem, ⟨32, _⟩ => ⟨S2000x256, .f32⟩
  | .local _ .vmem, ⟨33, _⟩ => ⟨S2000x256, .f32⟩
  | .local _ .vmem, ⟨34, _⟩ => ⟨S1x1x256, .f32⟩
  | .local _ .vmem, ⟨35, _⟩ => ⟨S1x1x256, .f32⟩
  | .local _ .vmem, ⟨36, _⟩ => ⟨S1x1x256, .f32⟩
  | .local _ .vmem, ⟨37, _⟩ => ⟨S1x1x256, .f32⟩
  | .local _ .vmem, ⟨38, _⟩ => ⟨S2000x256, .f32⟩
  | .local _ .vmem, ⟨39, _⟩ => ⟨S2000x256, .f32⟩
  | .local _ .vmem, ⟨40, _⟩ => ⟨S1x256, .f32⟩
  | .local _ .vmem, ⟨41, _⟩ => ⟨S1x256, .f32⟩
  | .local _ .vmem, ⟨42, _⟩ => ⟨S1x256, .f32⟩
  | .local _ .vmem, ⟨43, _⟩ => ⟨S1x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | .local _ .vmem, ⟨50, _⟩ => ⟨S2000x1, .f32⟩
  | .local _ .vmem, ⟨51, _⟩ => ⟨S2000x1, .f32⟩
  | .local _ .vmem, ⟨52, _⟩ => ⟨S256x128, .f32⟩
  | .local _ .vmem, ⟨53, _⟩ => ⟨S256x128, .f32⟩
  | .local _ .vmem, ⟨54, _⟩ => ⟨S1x128, .f32⟩
  | .local _ .vmem, ⟨55, _⟩ => ⟨S2000x128, .f32⟩
  | .local _ .vmem, ⟨56, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24_0 : Ref sig .tc := ⟨.hbm, 46, rfl⟩
abbrev main_v24_1 : Ref sig .tc := ⟨.hbm, 47, rfl⟩
abbrev main_v24_2 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_cst_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_8 : Ref sig .tc := ⟨.hbm, 63, rfl⟩
abbrev main_v36 : Ref sig .tc := ⟨.hbm, 64, rfl⟩
abbrev main_v37 : Ref sig .tc := ⟨.hbm, 65, rfl⟩
abbrev main_cst_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_10 : Ref sig .tc := ⟨.hbm, 70, rfl⟩
abbrev main_v41 : Ref sig .tc := ⟨.hbm, 71, rfl⟩
abbrev main_v42 : Ref sig .tc := ⟨.hbm, 72, rfl⟩
abbrev main_cst_11 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_12 : Ref sig .tc := ⟨.hbm, 79, rfl⟩
abbrev main_v48 : Ref sig .tc := ⟨.hbm, 80, rfl⟩
abbrev main_v49 : Ref sig .tc := ⟨.hbm, 81, rfl⟩
abbrev main_c_13 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_14 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59_0 : Ref sig .tc := ⟨.hbm, 93, rfl⟩
abbrev main_v59_1 : Ref sig .tc := ⟨.hbm, 94, rfl⟩
abbrev main_v59_2 : Ref sig .tc := ⟨.hbm, 95, rfl⟩
abbrev main_v60 : Ref sig .tc := ⟨.hbm, 96, rfl⟩
abbrev main_v61 : Ref sig .tc := ⟨.hbm, 97, rfl⟩
abbrev main_cst_15 : Ref sig .tc := ⟨.hbm, 98, rfl⟩
abbrev main_v62 : Ref sig .tc := ⟨.hbm, 99, rfl⟩
abbrev main_v63 : Ref sig .tc := ⟨.hbm, 100, rfl⟩
abbrev main_cst_16 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_17 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_18 : Ref sig .tc := ⟨.hbm, 110, rfl⟩
abbrev main_v71 : Ref sig .tc := ⟨.hbm, 111, rfl⟩
abbrev main_v72 : Ref sig .tc := ⟨.hbm, 112, rfl⟩
abbrev main_cst_19 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_20 : Ref sig .tc := ⟨.hbm, 117, rfl⟩
abbrev main_v76 : Ref sig .tc := ⟨.hbm, 118, rfl⟩
abbrev main_v77 : Ref sig .tc := ⟨.hbm, 119, rfl⟩
abbrev main_cst_21 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_c_22 : Ref sig .tc := ⟨.hbm, 126, rfl⟩
abbrev main_v83 : Ref sig .tc := ⟨.hbm, 127, rfl⟩
abbrev main_v84 : Ref sig .tc := ⟨.hbm, 128, rfl⟩
abbrev main_c_23 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_24 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_c_25 : Ref sig .tc := ⟨.hbm, 139, rfl⟩
abbrev main_call0_v0 : Ref sig .tc := ⟨.hbm, 140, rfl⟩
abbrev main_v93 : Ref sig .tc := ⟨.hbm, 141, rfl⟩
abbrev main_c_26 : Ref sig .tc := ⟨.hbm, 142, rfl⟩
abbrev main_call1_v0 : Ref sig .tc := ⟨.hbm, 143, rfl⟩
abbrev main_v94 : Ref sig .tc := ⟨.hbm, 144, rfl⟩
abbrev main_c_27 : Ref sig .tc := ⟨.hbm, 145, rfl⟩
abbrev main_call2_v0 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg8_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg6_1 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35
abbrev cc2_sem8_0 : DmaSem sig := 36
abbrev cc2_sem8_1 : DmaSem sig := 37
abbrev cc3_sem0_0 : DmaSem sig := 38
abbrev cc3_sem0_1 : DmaSem sig := 39
abbrev cc3_sem1_0 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem5_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem6_1 : DmaSem sig := 56

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  reduces_S2000x256_S256 : S2000x256.Reduces [0] S256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S25x1x256_S25x256 : S25x1x256.ShapeCasts S25x256
  reducesTo_S25x256_S256_d0 : S25x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  bcast_S1x256_S25x256_0_1 : S1x256.BroadcastsInDim S25x256 (![0, 1] : Fin 2 → Fin S25x256.rank)
  shapeCasts_S2000x256_S2000x256 : S2000x256.ShapeCasts S2000x256
  bcast_S_S50000x256 : S_.BroadcastsInDim S50000x256 (![] : Fin 0 → Fin S50000x256.rank)
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  pads_S256x47_S256x128_000_0810 : S256x47.Pads (![0, 0] : Fin 2 → Nat) ![0, 81] ![0, 0] S256x128
  pads_S47_S128_0810 : S47.Pads (![0] : Fin 1 → Nat) ![81] ![0] S128
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  iota_S2000x128_d1_w32 : S2000x128.Iotas .tc 32 [1]
  reduces_S2000x128_S2000 : S2000x128.Reduces [1] S2000
  shapeCasts_S2000_S2000x1 : S2000.ShapeCasts S2000x1
  slices_S50000x128_S50000x47_0_0 : S50000x128.Slices ![0, 0] S50000x47
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S25x1x256.size a
  hwx0_7 : ∀ i : grid0.Coords, EltTy.bits .f32 = 32 ∨ (Rect.block (s := S25x1x256) S1x1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x256.size a ≤ S25x1x256.size a
  hwx0_8 : ∀ i : grid0.Coords, EltTy.bits .f32 = 32 ∨ (Rect.block (s := S25x1x256) S1x1x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S50000x256.size a
  hwx2_6 : ∀ i : grid2.Coords, EltTy.bits .f32 = 32 ∨ (Rect.block (s := S50000x256) S2000x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1x256.size a ≤ S25x1x256.size a
  hwx2_7 : ∀ i : grid2.Coords, EltTy.bits .f32 = 32 ∨ (Rect.block (s := S25x1x256) S1x1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x1x256.size a ≤ S25x1x256.size a
  hwx2_8 : ∀ i : grid2.Coords, EltTy.bits .f32 = 32 ∨ (Rect.block (s := S25x1x256) S1x1x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S256x128.size a
  hwx4_3 : ∀ i : grid4.Coords, EltTy.bits .f32 = 32 ∨ (Rect.block (s := S256x128) S256x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x128.size a ≤ S256x128.size a
  hwx4_4 : ∀ i : grid4.Coords, EltTy.bits .f32 = 32 ∨ (Rect.block (s := S256x128) S256x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S2000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S1x1x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_2) S1x1x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v24_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59_0) S2000x256.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v59_1) S1x1x256.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v59_2) S1x1x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v59_0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v82) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v92) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v82) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v93) S256x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v94) S256x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v96) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v97) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S50000x47 : Shape := ⟨2, ![50000, 47]⟩
abbrev S1x47 : Shape := ⟨2, ![1, 47]⟩

abbrev nBuf : Space → Nat
  | .hbm => 206
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S128x256, .f32⟩
  | 4 => ⟨S256, .f32⟩
  | 5 => ⟨S256, .f32⟩
  | 6 => ⟨S256, .f32⟩
  | 7 => ⟨S256x256, .f32⟩
  | 8 => ⟨S256x256, .f32⟩
  | 9 => ⟨S256, .f32⟩
  | 10 => ⟨S256, .f32⟩
  | 11 => ⟨S256, .f32⟩
  | 12 => ⟨S256x47, .f32⟩
  | 13 => ⟨S256x47, .f32⟩
  | 14 => ⟨S47, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S_, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S50000x1, .f32⟩
  | 45 => ⟨S50000x128, .f32⟩
  | 46 => ⟨S50000x128, .f32⟩
  | 47 => ⟨S50000x256, .f32⟩
  | 48 => ⟨S50000x256, .f32⟩
  | 49 => ⟨S50000x256, .f32⟩
  | 50 => ⟨S1x256, .f32⟩
  | 51 => ⟨S50000x256, .f32⟩
  | 52 => ⟨S50000x256, .f32⟩
  | 53 => ⟨S_, .f32⟩
  | 54 => ⟨S256, .f32⟩
  | 55 => ⟨S_, .f32⟩
  | 56 => ⟨S256, .f32⟩
  | 57 => ⟨S256, .f32⟩
  | 58 => ⟨S_, .i32⟩
  | 59 => ⟨S_, .f32⟩
  | 60 => ⟨S256, .f32⟩
  | 61 => ⟨S1x256, .f32⟩
  | 62 => ⟨S_, .f32⟩
  | 63 => ⟨S1x256, .f32⟩
  | 64 => ⟨S1x256, .f32⟩
  | 65 => ⟨S50000x256, .f32⟩
  | 66 => ⟨S50000x256, .f32⟩
  | 67 => ⟨S50000x256, .f32⟩
  | 68 => ⟨S_, .f32⟩
  | 69 => ⟨S_, .f32⟩
  | 70 => ⟨S_, .f32⟩
  | 71 => ⟨S_, .f32⟩
  | 72 => ⟨S256, .f32⟩
  | 73 => ⟨S256, .f32⟩
  | 74 => ⟨S256, .f32⟩
  | 75 => ⟨S_, .f32⟩
  | 76 => ⟨S_, .i1⟩
  | 77 => ⟨S_, .f32⟩
  | 78 => ⟨S_, .f32⟩
  | 79 => ⟨S256, .f32⟩
  | 80 => ⟨S256, .f32⟩
  | 81 => ⟨S1x256, .f32⟩
  | 82 => ⟨S50000x256, .f32⟩
  | 83 => ⟨S50000x256, .f32⟩
  | 84 => ⟨S1x256, .f32⟩
  | 85 => ⟨S50000x256, .f32⟩
  | 86 => ⟨S50000x256, .f32⟩
  | 87 => ⟨S_, .f32⟩
  | 88 => ⟨S256, .f32⟩
  | 89 => ⟨S256, .f32⟩
  | 90 => ⟨S256, .f32⟩
  | 91 => ⟨S1x256, .f32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S_, .f32⟩
  | 98 => ⟨S50000x256, .f32⟩
  | 99 => ⟨S50000x256, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x256, .f32⟩
  | 109 => ⟨S_, .f32⟩
  | 110 => ⟨S50000x256, .f32⟩
  | 111 => ⟨S800000x1, .i32⟩
  | 112 => ⟨S50000x256, .f32⟩
  | 113 => ⟨S50000x1, .f32⟩
  | 114 => ⟨S50000x256, .f32⟩
  | 115 => ⟨S50000x256, .f32⟩
  | 116 => ⟨S50000x256, .f32⟩
  | 117 => ⟨S50000x256, .f32⟩
  | 118 => ⟨S50000x256, .f32⟩
  | 119 => ⟨S1x256, .f32⟩
  | 120 => ⟨S50000x256, .f32⟩
  | 121 => ⟨S50000x256, .f32⟩
  | 122 => ⟨S_, .f32⟩
  | 123 => ⟨S256, .f32⟩
  | 124 => ⟨S_, .f32⟩
  | 125 => ⟨S256, .f32⟩
  | 126 => ⟨S256, .f32⟩
  | 127 => ⟨S_, .i32⟩
  | _ => ⟨S50000x128, .f32⟩

abbrev hbmTy0_1 (i : Nat) : BufTy := match i % 128 with
  | 0 => ⟨S_, .f32⟩
  | 1 => ⟨S256, .f32⟩
  | 2 => ⟨S1x256, .f32⟩
  | 3 => ⟨S_, .f32⟩
  | 4 => ⟨S1x256, .f32⟩
  | 5 => ⟨S1x256, .f32⟩
  | 6 => ⟨S50000x256, .f32⟩
  | 7 => ⟨S50000x256, .f32⟩
  | 8 => ⟨S50000x256, .f32⟩
  | 9 => ⟨S_, .f32⟩
  | 10 => ⟨S_, .f32⟩
  | 11 => ⟨S_, .f32⟩
  | 12 => ⟨S_, .f32⟩
  | 13 => ⟨S256, .f32⟩
  | 14 => ⟨S256, .f32⟩
  | 15 => ⟨S256, .f32⟩
  | 16 => ⟨S_, .f32⟩
  | 17 => ⟨S_, .i1⟩
  | 18 => ⟨S_, .f32⟩
  | 19 => ⟨S_, .f32⟩
  | 20 => ⟨S256, .f32⟩
  | 21 => ⟨S256, .f32⟩
  | 22 => ⟨S1x256, .f32⟩
  | 23 => ⟨S50000x256, .f32⟩
  | 24 => ⟨S50000x256, .f32⟩
  | 25 => ⟨S1x256, .f32⟩
  | 26 => ⟨S50000x256, .f32⟩
  | 27 => ⟨S50000x256, .f32⟩
  | 28 => ⟨S_, .f32⟩
  | 29 => ⟨S256, .f32⟩
  | 30 => ⟨S256, .f32⟩
  | 31 => ⟨S256, .f32⟩
  | 32 => ⟨S1x256, .f32⟩
  | 33 => ⟨S50000x256, .f32⟩
  | 34 => ⟨S50000x256, .f32⟩
  | 35 => ⟨S1x256, .f32⟩
  | 36 => ⟨S50000x256, .f32⟩
  | 37 => ⟨S50000x256, .f32⟩
  | 38 => ⟨S_, .f32⟩
  | 39 => ⟨S50000x256, .f32⟩
  | 40 => ⟨S50000x256, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x256, .f32⟩
  | 50 => ⟨S_, .f32⟩
  | 51 => ⟨S50000x256, .f32⟩
  | 52 => ⟨S800000x1, .i32⟩
  | 53 => ⟨S50000x256, .f32⟩
  | 54 => ⟨S50000x1, .f32⟩
  | 55 => ⟨S50000x256, .f32⟩
  | 56 => ⟨S50000x256, .f32⟩
  | 57 => ⟨S50000x47, .f32⟩
  | 58 => ⟨S50000x47, .f32⟩
  | 59 => ⟨S50000x47, .f32⟩
  | 60 => ⟨S1x47, .f32⟩
  | 61 => ⟨S50000x47, .f32⟩
  | 62 => ⟨S50000x47, .f32⟩
  | 63 => ⟨S_, .f32⟩
  | 64 => ⟨S50000, .f32⟩
  | 65 => ⟨S_, .f32⟩
  | 66 => ⟨S50000, .f32⟩
  | 67 => ⟨S50000, .f32⟩
  | 68 => ⟨S50000x1, .f32⟩
  | 69 => ⟨S50000x47, .f32⟩
  | 70 => ⟨S50000x47, .f32⟩
  | 71 => ⟨S50000x47, .f32⟩
  | 72 => ⟨S_, .f32⟩
  | 73 => ⟨S50000, .f32⟩
  | 74 => ⟨S50000x1, .f32⟩
  | 75 => ⟨S50000x1, .f32⟩
  | 76 => ⟨S50000x47, .f32⟩
  | 77 => ⟨S50000x47, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_cst_1 : Ref sig .tc := ⟨.hbm, 69, rfl⟩
abbrev main_call0_v8 : Ref sig .tc := ⟨.hbm, 70, rfl⟩
abbrev main_call0_cst_2 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_cst_3 : Ref sig .tc := ⟨.hbm, 75, rfl⟩
abbrev main_call0_v12 : Ref sig .tc := ⟨.hbm, 76, rfl⟩
abbrev main_call0_cst_4 : Ref sig .tc := ⟨.hbm, 77, rfl⟩
abbrev main_call0_call0_v0 : Ref sig .tc := ⟨.hbm, 78, rfl⟩
abbrev main_call0_call0_v1 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_8 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_call1_cst : Ref sig .tc := ⟨.hbm, 97, rfl⟩
abbrev main_call1_v0 : Ref sig .tc := ⟨.hbm, 98, rfl⟩
abbrev main_v50 : Ref sig .tc := ⟨.hbm, 99, rfl⟩
abbrev main_c_9 : Ref sig .tc := ⟨.hbm, 100, rfl⟩
abbrev main_v51 : Ref sig .tc := ⟨.hbm, 101, rfl⟩
abbrev main_v52 : Ref sig .tc := ⟨.hbm, 102, rfl⟩
abbrev main_c_10 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_11 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_cst_12 : Ref sig .tc := ⟨.hbm, 122, rfl⟩
abbrev main_v70 : Ref sig .tc := ⟨.hbm, 123, rfl⟩
abbrev main_cst_13 : Ref sig .tc := ⟨.hbm, 124, rfl⟩
abbrev main_v71 : Ref sig .tc := ⟨.hbm, 125, rfl⟩
abbrev main_v72 : Ref sig .tc := ⟨.hbm, 126, rfl⟩
abbrev main_c_14 : Ref sig .tc := ⟨.hbm, 127, rfl⟩
abbrev main_call2_cst : Ref sig .tc := ⟨.hbm, 128, rfl⟩
abbrev main_call2_v0 : Ref sig .tc := ⟨.hbm, 129, rfl⟩
abbrev main_call2_v1 : Ref sig .tc := ⟨.hbm, 130, rfl⟩
abbrev main_call2_cst_0 : Ref sig .tc := ⟨.hbm, 131, rfl⟩
abbrev main_call2_v2 : Ref sig .tc := ⟨.hbm, 132, rfl⟩
abbrev main_call2_v3 : Ref sig .tc := ⟨.hbm, 133, rfl⟩
abbrev main_call2_v4 : Ref sig .tc := ⟨.hbm, 134, rfl⟩
abbrev main_call2_v5 : Ref sig .tc := ⟨.hbm, 135, rfl⟩
abbrev main_call2_v6 : Ref sig .tc := ⟨.hbm, 136, rfl⟩
abbrev main_call2_v7 : Ref sig .tc := ⟨.hbm, 137, rfl⟩
abbrev main_call2_cst_1 : Ref sig .tc := ⟨.hbm, 138, rfl⟩
abbrev main_call2_v8 : Ref sig .tc := ⟨.hbm, 139, rfl⟩
abbrev main_call2_cst_2 : Ref sig .tc := ⟨.hbm, 140, rfl⟩
abbrev main_call2_v9 : Ref sig .tc := ⟨.hbm, 141, rfl⟩
abbrev main_call2_v10 : Ref sig .tc := ⟨.hbm, 142, rfl⟩
abbrev main_call2_v11 : Ref sig .tc := ⟨.hbm, 143, rfl⟩
abbrev main_call2_cst_3 : Ref sig .tc := ⟨.hbm, 144, rfl⟩
abbrev main_call2_v12 : Ref sig .tc := ⟨.hbm, 145, rfl⟩
abbrev main_call2_cst_4 : Ref sig .tc := ⟨.hbm, 146, rfl⟩
abbrev main_call2_call0_v0 : Ref sig .tc := ⟨.hbm, 147, rfl⟩
abbrev main_call2_call0_v1 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_cst_15 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_call3_cst : Ref sig .tc := ⟨.hbm, 166, rfl⟩
abbrev main_call3_v0 : Ref sig .tc := ⟨.hbm, 167, rfl⟩
abbrev main_v89 : Ref sig .tc := ⟨.hbm, 168, rfl⟩
abbrev main_c_16 : Ref sig .tc := ⟨.hbm, 169, rfl⟩
abbrev main_v90 : Ref sig .tc := ⟨.hbm, 170, rfl⟩
abbrev main_v91 : Ref sig .tc := ⟨.hbm, 171, rfl⟩
abbrev main_c_17 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_cst_18 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_call4_cst : Ref sig .tc := ⟨.hbm, 191, rfl⟩
abbrev main_call4_v0 : Ref sig .tc := ⟨.hbm, 192, rfl⟩
abbrev main_call4_cst_0 : Ref sig .tc := ⟨.hbm, 193, rfl⟩
abbrev main_call4_v1 : Ref sig .tc := ⟨.hbm, 194, rfl⟩
abbrev main_call4_v2 : Ref sig .tc := ⟨.hbm, 195, rfl⟩
abbrev main_call4_v3 : Ref sig .tc := ⟨.hbm, 196, rfl⟩
abbrev main_call4_v4 : Ref sig .tc := ⟨.hbm, 197, rfl⟩
abbrev main_call4_v5 : Ref sig .tc := ⟨.hbm, 198, rfl⟩
abbrev main_call4_v6 : Ref sig .tc := ⟨.hbm, 199, rfl⟩
abbrev main_call4_cst_1 : Ref sig .tc := ⟨.hbm, 200, rfl⟩
abbrev main_call4_v7 : Ref sig .tc := ⟨.hbm, 201, rfl⟩
abbrev main_call4_v8 : Ref sig .tc := ⟨.hbm, 202, rfl⟩
abbrev main_call4_v9 : Ref sig .tc := ⟨.hbm, 203, rfl⟩
abbrev main_call4_v10 : Ref sig .tc := ⟨.hbm, 204, rfl⟩
abbrev main_v109 : Ref sig .tc := ⟨.hbm, 205, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  reducesTo_S50000x47_S50000_d1 : S50000x47.ReducesTo [1] S50000
  bcast_S50000x1_S50000x47_0_1 : S50000x1.BroadcastsInDim S50000x47 (![0, 1] : Fin 2 → Fin S50000x47.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x47_S50000x47_1_0_0_1_n_n_wf : DotDims.WF S50000x256 S256x47 S50000x47 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x47_S50000x47_1_0_0_1_n_n : DotDims S50000x256 S256x47 S50000x47 where
  lhsContracting := [1]
  rhsContracting := [0]
  lhsNonContracting := [0]
  rhsNonContracting := [1]
  lhsBatch := []
  rhsBatch := []
  wf := dot_S50000x256_S256x47_S50000x47_1_0_0_1_n_n_wf

class Facts : Prop extends Facts₀ where

variable [Facts]
-- ==== Proof.KernelRun.lean ====
/-
  The idealized kernel program's run, with its final buffer contents kept.

  The program is five kernel regions among stretches of host operations.  Its buffer contents at the boundaries
  of these segments form a chain: a host stretch maps the contents it starts from to the fold of its operations'
  results, a region rewrites the arrays of its output windows by the blocks its grid points write back and leaves
  every other buffer alone.  Every weakly fair execution terminates without fault, and in its final state every
  buffer that is not scoped holds the last contents of that chain.  In particular the result buffer does, and
  the fifteen argument arrays end as they were launched.
-/
import proofs.«165127_j7773890805925_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every unscoped buffer of every
    core ends at the last boundary's contents: the launch of the seventeen segments, with the last thread state
    read against the final state and nothing forgotten. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c => h c)

/-- The run with the result buffer named: it ends at the last boundary's contents of that buffer, and each
    argument array ends as launched (no host operation and no region writes one). -/
theorem run_result : θ_run defs (onTc (τ := τ) (main (F := F))) ⟨m, fun _ => 0, ρ⟩ (fun r => ∀ c : Dev nD,
      r.2.mem ((c.tc : Thread nD τ).loc main_v98) = W17 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun s h c =>
      ⟨h c _ (mem_uc main_v98 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c)⟩)
    (run_all m ρ)

end Cert.KernelIdeal.RunValue

end
-- ==== Proof.RefOps.lean ====
/-
  The reference program's host operations, listed: cut into eight consecutive stages (each window of its entry function is a concatenation of stages), in program order,
  each function it calls (the variance, the rectifier, the selection inside the variance, the log-softmax) written
  out at its call site over that call's own buffers.  Beside each list, that every operation touches only
  buffers of the core it runs on.  Nothing is proved about the lists here beyond that.
-/
import proofs.«165127_j7773890805925_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- Stage sA (38 operations): the degrees, the first aggregation and the first layer's linear map. -/
abbrev sA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (maximumf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x3F800000#32),
    StableHlo.unary main_cst_2 main_v10 (broadcastInDim S50000 ![] bcast_S_S50000 : (⟨S_, .f32⟩ : BufTy).Contents (Elt F) → (⟨S50000, .f32⟩ : BufTy).Contents (Elt F)),
    StableHlo.binary main_v10 main_v9 main_v11 (Host.divf : (⟨S50000, .f32⟩ : BufTy).Contents (Elt F) → (⟨S50000, .f32⟩ : BufTy).Contents (Elt F) → (⟨S50000, .f32⟩ : BufTy).Contents (Elt F)),
    StableHlo.nullary main_c (constantI S_ 32 0#32),
    StableHlo.unary main_c main_v12 (broadcastInDim S800000 ![] bcast_S_S800000 : (⟨S_, .i32⟩ : BufTy).Contents (Elt F) → (⟨S800000, .i32⟩ : BufTy).Contents (Elt F)),
    StableHlo.binary main_v1 main_v12 main_v13 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v14 (broadcastInDim S800000 ![] bcast_S_S800000 : (⟨S_, .i32⟩ : BufTy).Contents (Elt F) → (⟨S800000, .i32⟩ : BufTy).Contents (Elt F)),
    StableHlo.binary main_v1 main_v14 main_v15 (addi : (⟨S800000, .i32⟩ : BufTy).Contents (Elt F) → (⟨S800000, .i32⟩ : BufTy).Contents (Elt F) → (⟨S800000, .i32⟩ : BufTy).Contents (Elt F)),
    StableHlo.ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v16 main_v17 (broadcastInDim S800000x1 ![0] bcast_S800000_S800000x1_0 : (⟨S800000, .i32⟩ : BufTy).Contents (Elt F) → (⟨S800000x1, .i32⟩ : BufTy).Contents (Elt F)),
    StableHlo.binary main_arg0 main_v17 main_v18 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_4 (constant S_ .f32 0x00000000#32),
    StableHlo.unary main_cst_4 main_v19 (broadcastInDim S50000x128 ![] bcast_S_S50000x128 : (⟨S_, .f32⟩ : BufTy).Contents (Elt F) → (⟨S50000x128, .f32⟩ : BufTy).Contents (Elt F)),
    StableHlo.unary main_v3 main_v20 (broadcastInDim S800000x1 ![0] bcast_S800000_S800000x1_0 : (⟨S800000, .i32⟩ : BufTy).Contents (Elt F) → (⟨S800000x1, .i32⟩ : BufTy).Contents (Elt F)),
    StableHlo.ternary main_v19 main_v20 main_v18 main_v21 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v11 main_v22 (broadcastInDim S50000x1 ![0] bcast_S50000_S50000x1_0 : (⟨S50000, .f32⟩ : BufTy).Contents (Elt F) → (⟨S50000x1, .f32⟩ : BufTy).Contents (Elt F)),
    StableHlo.unary main_v22 main_v23 (broadcastInDim S50000x128 ![0, 1] bcast_S50000x1_S50000x128_0_1 : (⟨S50000x1, .f32⟩ : BufTy).Contents (Elt F) → (⟨S50000x128, .f32⟩ : BufTy).Contents (Elt F)),
    StableHlo.binary main_v21 main_v23 main_v24 (mulf : (⟨S50000x128, .f32⟩ : BufTy).Contents (Elt F) → (⟨S50000x128, .f32⟩ : BufTy).Contents (Elt F) → (⟨S50000x128, .f32⟩ : BufTy).Contents (Elt F)),
    StableHlo.binary main_v24 main_arg2 main_v25 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.binary main_arg0 main_arg3 main_v26 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.binary main_v25 main_v26 main_v27 (addf : (⟨S50000x256, .f32⟩ : BufTy).Contents (Elt F) → (⟨S50000x256, .f32⟩ : BufTy).Contents (Elt F) → (⟨S50000x256, .f32⟩ : BufTy).Contents (Elt F)),
    StableHlo.unary main_arg4 main_v28 (broadcastInDim S1x256 ![1] bcast_S256_S1x256_1 : (⟨S256, .f32⟩ : BufTy).Contents (Elt F) → (⟨S1x256, .f32⟩ : BufTy).Contents (Elt F)),
    StableHlo.unary main_v28 main_v29 (broadcastInDim S50000x256 ![0, 1] bcast_S1x256_S50000x256_0_1 : (⟨S1x256, .f32⟩ : BufTy).Contents (Elt F) → (⟨S50000x256, .f32⟩ : BufTy).Contents (Elt F)),
    StableHlo.binary main_v27 main_v29 main_v30 (addf : (⟨S50000x256, .f32⟩ : BufTy).Contents (Elt F) → (⟨S50000x256, .f32⟩ : BufTy).Contents (Elt F) → (⟨S50000x256, .f32⟩ : BufTy).Contents (Elt F)) ]
/-- Each of them touches only buffers of its own core. -/
theorem sA_sub : (sA : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub ..⟩

/-- Stage sB0 (43 operations): the first layer's statistics and normalisation, up to the end of window 0. -/
abbrev sB0 : List (HloOp τ sig (Elt F)) :=
  [ StableHlo.nullary main_cst_5 (constant S_ .f32 0x00000000#32),
    StableHlo.binary main_v30 main_cst_5 main_v31 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_6 (constant S_ .f32 0x47435000#32),
    StableHlo.unary main_cst_6 main_v32 (broadcastInDim S256 ![] bcast_S_S256 : (⟨S_, .f32⟩ : BufTy).Contents (Elt F) → (⟨S256, .f32⟩ : BufTy).Contents (Elt F)),
    StableHlo.binary main_v31 main_v32 main_v33 (Host.divf : (⟨S256, .f32⟩ : BufTy).Contents (Elt F) → (⟨S256, .f32⟩ : BufTy).Contents (Elt F) → (⟨S256, .f32⟩ : BufTy).Contents (Elt F)),
    StableHlo.nullary main_c_7 (constantI S_ 32 0#32),
    StableHlo.TRef.nullary main_call0.cst (constant S_ .f32 0x00000000#32),
    StableHlo.TRef.binary (.of main_v30 : StableHlo.TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v30 : StableHlo.TRef sig ⟨S50000x256, .f32⟩) main_call0.v4 main_call0.v5 subf,
    StableHlo.TRef.binary main_call0.v5 main_call0.v5 main_call0.v6 mulf,
    StableHlo.TRef.unary (.of main_c_7 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v33 main_v35 (broadcastInDim S1x256 ![1] bcast_S256_S1x256_1 : (⟨S256, .f32⟩ : BufTy).Contents (Elt F) → (⟨S1x256, .f32⟩ : BufTy).Contents (Elt F)),
    StableHlo.unary main_v35 main_v36 (broadcastInDim S50000x256 ![0, 1] bcast_S1x256_S50000x256_0_1 : (⟨S1x256, .f32⟩ : BufTy).Contents (Elt F) → (⟨S50000x256, .f32⟩ : BufTy).Contents (Elt F)),
    StableHlo.binary main_v30 main_v36 main_v37 (subf : (⟨S50000x256, .f32⟩ : BufTy).Contents (Elt F) → (⟨S50000x256, .f32⟩ : BufTy).Contents (Elt F) → (⟨S50000x256, .f32⟩ : BufTy).Contents (Elt F)),
    StableHlo.unary main_arg5 main_v38 (broadcastInDim S1x256 ![1] bcast_S256_S1x256_1 : (⟨S256, .f32⟩ : BufTy).Contents (Elt F) → (⟨S1x256, .f32⟩ : BufTy).Contents (Elt F)),
    StableHlo.unary main_v38 main_v39 (broadcastInDim S50000x256 ![0, 1] bcast_S1x256_S50000x256_0_1 : (⟨S1x256, .f32⟩ : BufTy).Contents (Elt F) → (⟨S50000x256, .f32⟩ : BufTy).Contents (Elt F)),
    StableHlo.binary main_v39 main_v37 main_v40 (mulf : (⟨S50000x256, .f32⟩ : BufTy).Contents (Elt F) → (⟨S50000x256, .f32⟩ : BufTy).Contents (Elt F) → (⟨S50000x256, .f32⟩ : BufTy).Contents (Elt F)),
    StableHlo.nullary main_cst_8 (constant S_ .f32 0x3727C5AC#32),
    StableHlo.unary main_cst_8 main_v41 (broadcastInDim S256 ![] bcast_S_S256 : (⟨S_, .f32⟩ : BufTy).Contents (Elt F) → (⟨S256, .f32⟩ : BufTy).Contents (Elt F)),
    StableHlo.binary main_v34 main_v41 main_v42 (addf : (⟨S256, .f32⟩ : BufTy).Contents (Elt F) → (⟨S256, .f32⟩ : BufTy).Contents (Elt F) → (⟨S256, .f32⟩ : BufTy).Contents (Elt F)),
    StableHlo.unary main_v42 main_v43 (Host.rsqrt : (⟨S256, .f32⟩ : BufTy).Contents (Elt F) → (⟨S256, .f32⟩ : BufTy).Contents (Elt F)),
    StableHlo.unary main_v43 main_v44 (broadcastInDim S1x256 ![1] bcast_S256_S1x256_1 : (⟨S256, .f32⟩ : BufTy).Contents (Elt F) → (⟨S1x256, .f32⟩ : BufTy).Contents (Elt F)),
    StableHlo.unary main_v44 main_v45 (broadcastInDim S50000x256 ![0, 1] bcast_S1x256_S50000x256_0_1 : (⟨S1x256, .f32⟩ : BufTy).Contents (Elt F) → (⟨S50000x256, .f32⟩ : BufTy).Contents (Elt F)),
    StableHlo.binary main_v40 main_v45 main_v46 (mulf : (⟨S50000x256, .f32⟩ : BufTy).Contents (Elt F) → (⟨S50000x256, .f32⟩ : BufTy).Contents (Elt F) → (⟨S50000x256, .f32⟩ : BufTy).Contents (Elt F)),
    StableHlo.unary main_arg6 main_v47 (broadcastInDim S1x256 ![1] bcast_S256_S1x256_1 : (⟨S256, .f32⟩ : BufTy).Contents (Elt F) → (⟨S1x256, .f32⟩ : BufTy).Contents (Elt F)),
    StableHlo.unary main_v47 main_v48 (broadcastInDim S50000x256 ![0, 1] bcast_S1x256_S50000x256_0_1 : (⟨S1x256, .f32⟩ : BufTy).Contents (Elt F) → (⟨S50000x256, .f32⟩ : BufTy).Contents (Elt F)) ]
/-- Each of them touches only buffers of its own core. -/
theorem sB0_sub : (sB0 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub ..⟩

/-- Stage sB1 (4 operations): the shift and the rectifier closing the first layer. -/
abbrev sB1 : List (HloOp τ sig (Elt F)) :=
  [ StableHlo.binary main_v46 main_v48 main_v49 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v49 : StableHlo.TRef sig ⟨S50000x256, .f32⟩) main_call1.v0 main_call1.v1 maximumf ]
/-- Each of them touches only buffers of its own core. -/
theorem sB1_sub : (sB1 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub ..⟩

/-- Stage sC (22 operations): the second aggregation and the second layer's linear map. -/
abbrev sC : List (HloOp τ sig (Elt F)) :=
  [ StableHlo.nullary main_c_9 (constantI S_ 32 0#32),
    StableHlo.unary main_c_9 main_v51 (broadcastInDim S800000 ![] bcast_S_S800000 : (⟨S_, .i32⟩ : BufTy).Contents (Elt F) → (⟨S800000, .i32⟩ : BufTy).Contents (Elt F)),
    StableHlo.binary main_v1 main_v51 main_v52 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v53 (broadcastInDim S800000 ![] bcast_S_S800000 : (⟨S_, .i32⟩ : BufTy).Contents (Elt F) → (⟨S800000, .i32⟩ : BufTy).Contents (Elt F)),
    StableHlo.binary main_v1 main_v53 main_v54 (addi : (⟨S800000, .i32⟩ : BufTy).Contents (Elt F) → (⟨S800000, .i32⟩ : BufTy).Contents (Elt F) → (⟨S800000, .i32⟩ : BufTy).Contents (Elt F)),
    StableHlo.ternary main_v52 main_v54 main_v1 main_v55 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v55 main_v56 (broadcastInDim S800000x1 ![0] bcast_S800000_S800000x1_0 : (⟨S800000, .i32⟩ : BufTy).Contents (Elt F) → (⟨S800000x1, .i32⟩ : BufTy).Contents (Elt F)),
    StableHlo.binary main_v50 main_v56 main_v57 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_11 (constant S_ .f32 0x00000000#32),
    StableHlo.unary main_cst_11 main_v58 (broadcastInDim S50000x256 ![] bcast_S_S50000x256 : (⟨S_, .f32⟩ : BufTy).Contents (Elt F) → (⟨S50000x256, .f32⟩ : BufTy).Contents (Elt F)),
    StableHlo.unary main_v3 main_v59 (broadcastInDim S800000x1 ![0] bcast_S800000_S800000x1_0 : (⟨S800000, .i32⟩ : BufTy).Contents (Elt F) → (⟨S800000x1, .i32⟩ : BufTy).Contents (Elt F)),
    StableHlo.ternary main_v58 main_v59 main_v57 main_v60 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.unary main_v11 main_v61 (broadcastInDim S50000x1 ![0] bcast_S50000_S50000x1_0 : (⟨S50000, .f32⟩ : BufTy).Contents (Elt F) → (⟨S50000x1, .f32⟩ : BufTy).Contents (Elt F)),
    StableHlo.unary main_v61 main_v62 (broadcastInDim S50000x256 ![0, 1] bcast_S50000x1_S50000x256_0_1 : (⟨S50000x1, .f32⟩ : BufTy).Contents (Elt F) → (⟨S50000x256, .f32⟩ : BufTy).Contents (Elt F)),
    StableHlo.binary main_v60 main_v62 main_v63 (mulf : (⟨S50000x256, .f32⟩ : BufTy).Contents (Elt F) → (⟨S50000x256, .f32⟩ : BufTy).Contents (Elt F) → (⟨S50000x256, .f32⟩ : BufTy).Contents (Elt F)),
    StableHlo.binary main_v63 main_arg7 main_v64 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_v50 main_arg8 main_v65 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_v64 main_v65 main_v66 (addf : (⟨S50000x256, .f32⟩ : BufTy).Contents (Elt F) → (⟨S50000x256, .f32⟩ : BufTy).Contents (Elt F) → (⟨S50000x256, .f32⟩ : BufTy).Contents (Elt F)),
    StableHlo.unary main_arg9 main_v67 (broadcastInDim S1x256 ![1] bcast_S256_S1x256_1 : (⟨S256, .f32⟩ : BufTy).Contents (Elt F) → (⟨S1x256, .f32⟩ : BufTy).Contents (Elt F)),
    StableHlo.unary main_v67 main_v68 (broadcastInDim S50000x256 ![0, 1] bcast_S1x256_S50000x256_0_1 : (⟨S1x256, .f32⟩ : BufTy).Contents (Elt F) → (⟨S50000x256, .f32⟩ : BufTy).Contents (Elt F)),
    StableHlo.binary main_v66 main_v68 main_v69 (addf : (⟨S50000x256, .f32⟩ : BufTy).Contents (Elt F) → (⟨S50000x256, .f32⟩ : BufTy).Contents (Elt F) → (⟨S50000x256, .f32⟩ : BufTy).Contents (Elt F)) ]
/-- Each of them touches only buffers of its own core. -/
theorem sC_sub : (sC : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub ..⟩

/-- Stage sD (47 operations): the second layer's statistics, normalisation and rectifier. -/
abbrev sD : List (HloOp τ sig (Elt F)) :=
  [ StableHlo.nullary main_cst_12 (constant S_ .f32 0x00000000#32),
    StableHlo.binary main_v69 main_cst_12 main_v70 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_13 (constant S_ .f32 0x47435000#32),
    StableHlo.unary main_cst_13 main_v71 (broadcastInDim S256 ![] bcast_S_S256 : (⟨S_, .f32⟩ : BufTy).Contents (Elt F) → (⟨S256, .f32⟩ : BufTy).Contents (Elt F)),
    StableHlo.binary main_v70 main_v71 main_v72 (Host.divf : (⟨S256, .f32⟩ : BufTy).Contents (Elt F) → (⟨S256, .f32⟩ : BufTy).Contents (Elt F) → (⟨S256, .f32⟩ : BufTy).Contents (Elt F)),
    StableHlo.nullary main_c_14 (constantI S_ 32 0#32),
    StableHlo.TRef.nullary main_call2.cst (constant S_ .f32 0x00000000#32),
    StableHlo.TRef.binary (.of main_v69 : StableHlo.TRef sig ⟨S50000x256, .f32⟩) main_call2.cst main_call2.v0 (fun x v => Host.reduceAdd x v reducesTo_S50000x256_S256_d0 h_S_),
    StableHlo.TRef.unary main_call2.v0 main_call2.v1 (broadcastInDim S1x256 ![1] bcast_S256_S1x256_1),
    StableHlo.TRef.nullary main_call2.cst_0 (constant S_ .f32 0x47435000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S50000x256 ![0, 1] bcast_S1x256_S50000x256_0_1),
    StableHlo.TRef.binary (.of main_v69 : StableHlo.TRef sig ⟨S50000x256, .f32⟩) main_call2.v4 main_call2.v5 subf,
    StableHlo.TRef.binary main_call2.v5 main_call2.v5 main_call2.v6 mulf,
    StableHlo.TRef.unary (.of main_c_14 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v72 main_v74 (broadcastInDim S1x256 ![1] bcast_S256_S1x256_1 : (⟨S256, .f32⟩ : BufTy).Contents (Elt F) → (⟨S1x256, .f32⟩ : BufTy).Contents (Elt F)),
    StableHlo.unary main_v74 main_v75 (broadcastInDim S50000x256 ![0, 1] bcast_S1x256_S50000x256_0_1 : (⟨S1x256, .f32⟩ : BufTy).Contents (Elt F) → (⟨S50000x256, .f32⟩ : BufTy).Contents (Elt F)),
    StableHlo.binary main_v69 main_v75 main_v76 (subf : (⟨S50000x256, .f32⟩ : BufTy).Contents (Elt F) → (⟨S50000x256, .f32⟩ : BufTy).Contents (Elt F) → (⟨S50000x256, .f32⟩ : BufTy).Contents (Elt F)),
    StableHlo.unary main_arg10 main_v77 (broadcastInDim S1x256 ![1] bcast_S256_S1x256_1 : (⟨S256, .f32⟩ : BufTy).Contents (Elt F) → (⟨S1x256, .f32⟩ : BufTy).Contents (Elt F)),
    StableHlo.unary main_v77 main_v78 (broadcastInDim S50000x256 ![0, 1] bcast_S1x256_S50000x256_0_1 : (⟨S1x256, .f32⟩ : BufTy).Contents (Elt F) → (⟨S50000x256, .f32⟩ : BufTy).Contents (Elt F)),
    StableHlo.binary main_v78 main_v76 main_v79 (mulf : (⟨S50000x256, .f32⟩ : BufTy).Contents (Elt F) → (⟨S50000x256, .f32⟩ : BufTy).Contents (Elt F) → (⟨S50000x256, .f32⟩ : BufTy).Contents (Elt F)),
    StableHlo.nullary main_cst_15 (constant S_ .f32 0x3727C5AC#32),
    StableHlo.unary main_cst_15 main_v80 (broadcastInDim S256 ![] bcast_S_S256 : (⟨S_, .f32⟩ : BufTy).Contents (Elt F) → (⟨S256, .f32⟩ : BufTy).Contents (Elt F)),
    StableHlo.binary main_v73 main_v80 main_v81 (addf : (⟨S256, .f32⟩ : BufTy).Contents (Elt F) → (⟨S256, .f32⟩ : BufTy).Contents (Elt F) → (⟨S256, .f32⟩ : BufTy).Contents (Elt F)),
    StableHlo.unary main_v81 main_v82 (Host.rsqrt : (⟨S256, .f32⟩ : BufTy).Contents (Elt F) → (⟨S256, .f32⟩ : BufTy).Contents (Elt F)),
    StableHlo.unary main_v82 main_v83 (broadcastInDim S1x256 ![1] bcast_S256_S1x256_1 : (⟨S256, .f32⟩ : BufTy).Contents (Elt F) → (⟨S1x256, .f32⟩ : BufTy).Contents (Elt F)),
    StableHlo.unary main_v83 main_v84 (broadcastInDim S50000x256 ![0, 1] bcast_S1x256_S50000x256_0_1 : (⟨S1x256, .f32⟩ : BufTy).Contents (Elt F) → (⟨S50000x256, .f32⟩ : BufTy).Contents (Elt F)),
    StableHlo.binary main_v79 main_v84 main_v85 (mulf : (⟨S50000x256, .f32⟩ : BufTy).Contents (Elt F) → (⟨S50000x256, .f32⟩ : BufTy).Contents (Elt F) → (⟨S50000x256, .f32⟩ : BufTy).Contents (Elt F)),
    StableHlo.unary main_arg11 main_v86 (broadcastInDim S1x256 ![1] bcast_S256_S1x256_1 : (⟨S256, .f32⟩ : BufTy).Contents (Elt F) → (⟨S1x256, .f32⟩ : BufTy).Contents (Elt F)),
    StableHlo.unary main_v86 main_v87 (broadcastInDim S50000x256 ![0, 1] bcast_S1x256_S50000x256_0_1 : (⟨S1x256, .f32⟩ : BufTy).Contents (Elt F) → (⟨S50000x256, .f32⟩ : BufTy).Contents (Elt F)),
    StableHlo.binary main_v85 main_v87 main_v88 (addf : (⟨S50000x256, .f32⟩ : BufTy).Contents (Elt F) → (⟨S50000x256, .f32⟩ : BufTy).Contents (Elt F) → (⟨S50000x256, .f32⟩ : BufTy).Contents (Elt F)),
    StableHlo.TRef.nullary main_call3.cst (constant S_ .f32 0x00000000#32),
    StableHlo.TRef.unary main_call3.cst main_call3.v0 (broadcastInDim S50000x256 ![] bcast_S_S50000x256),
    StableHlo.TRef.binary (.of main_v88 : StableHlo.TRef sig ⟨S50000x256, .f32⟩) main_call3.v0 main_call3.v1 maximumf ]
/-- Each of them touches only buffers of its own core. -/
theorem sD_sub : (sD : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Stage sE0 (12 operations): the gather of the third aggregation, up to the end of window 1. -/
abbrev sE0 : List (HloOp τ sig (Elt F)) :=
  [ StableHlo.nullary main_c_16 (constantI S_ 32 0#32),
    StableHlo.unary main_c_16 main_v90 (broadcastInDim S800000 ![] bcast_S_S800000 : (⟨S_, .i32⟩ : BufTy).Contents (Elt F) → (⟨S800000, .i32⟩ : BufTy).Contents (Elt F)),
    StableHlo.binary main_v1 main_v90 main_v91 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v92 (broadcastInDim S800000 ![] bcast_S_S800000 : (⟨S_, .i32⟩ : BufTy).Contents (Elt F) → (⟨S800000, .i32⟩ : BufTy).Contents (Elt F)),
    StableHlo.binary main_v1 main_v92 main_v93 (addi : (⟨S800000, .i32⟩ : BufTy).Contents (Elt F) → (⟨S800000, .i32⟩ : BufTy).Contents (Elt F) → (⟨S800000, .i32⟩ : BufTy).Contents (Elt F)),
    StableHlo.ternary main_v91 main_v93 main_v1 main_v94 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v94 main_v95 (broadcastInDim S800000x1 ![0] bcast_S800000_S800000x1_0 : (⟨S800000, .i32⟩ : BufTy).Contents (Elt F) → (⟨S800000x1, .i32⟩ : BufTy).Contents (Elt F)),
    StableHlo.binary main_v89 main_v95 main_v96 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_18 (constant S_ .f32 0x00000000#32),
    StableHlo.unary main_cst_18 main_v97 (broadcastInDim S50000x256 ![] bcast_S_S50000x256 : (⟨S_, .f32⟩ : BufTy).Contents (Elt F) → (⟨S50000x256, .f32⟩ : BufTy).Contents (Elt F)),
    StableHlo.unary main_v3 main_v98 (broadcastInDim S800000x1 ![0] bcast_S800000_S800000x1_0 : (⟨S800000, .i32⟩ : BufTy).Contents (Elt F) → (⟨S800000x1, .i32⟩ : BufTy).Contents (Elt F)) ]
/-- Each of them touches only buffers of its own core. -/
theorem sE0_sub : (sE0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub ..⟩

/-- Stage sE1 (10 operations): the third aggregation and the last linear map. -/
abbrev sE1 : List (HloOp τ sig (Elt F)) :=
  [ StableHlo.ternary main_v97 main_v98 main_v96 main_v99 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.unary main_v11 main_v100 (broadcastInDim S50000x1 ![0] bcast_S50000_S50000x1_0 : (⟨S50000, .f32⟩ : BufTy).Contents (Elt F) → (⟨S50000x1, .f32⟩ : BufTy).Contents (Elt F)),
    StableHlo.unary main_v100 main_v101 (broadcastInDim S50000x256 ![0, 1] bcast_S50000x1_S50000x256_0_1 : (⟨S50000x1, .f32⟩ : BufTy).Contents (Elt F) → (⟨S50000x256, .f32⟩ : BufTy).Contents (Elt F)),
    StableHlo.binary main_v99 main_v101 main_v102 (mulf : (⟨S50000x256, .f32⟩ : BufTy).Contents (Elt F) → (⟨S50000x256, .f32⟩ : BufTy).Contents (Elt F) → (⟨S50000x256, .f32⟩ : BufTy).Contents (Elt F)),
    StableHlo.binary main_v102 main_arg12 main_v103 ((fun l r => Host.dotGeneral dot_S50000x256_S256x47_S50000x47_1_0_0_1_n_n none l r) : (⟨S50000x256, .f32⟩ : BufTy).Contents (Elt F) → (⟨S256x47, .f32⟩ : BufTy).Contents (Elt F) → (⟨S50000x47, .f32⟩ : BufTy).Contents (Elt F)),
    StableHlo.binary main_v89 main_arg13 main_v104 ((fun l r => Host.dotGeneral dot_S50000x256_S256x47_S50000x47_1_0_0_1_n_n none l r) : (⟨S50000x256, .f32⟩ : BufTy).Contents (Elt F) → (⟨S256x47, .f32⟩ : BufTy).Contents (Elt F) → (⟨S50000x47, .f32⟩ : BufTy).Contents (Elt F)),
    StableHlo.binary main_v103 main_v104 main_v105 (addf : (⟨S50000x47, .f32⟩ : BufTy).Contents (Elt F) → (⟨S50000x47, .f32⟩ : BufTy).Contents (Elt F) → (⟨S50000x47, .f32⟩ : BufTy).Contents (Elt F)),
    StableHlo.unary main_arg14 main_v106 (broadcastInDim S1x47 ![1] bcast_S47_S1x47_1 : (⟨S47, .f32⟩ : BufTy).Contents (Elt F) → (⟨S1x47, .f32⟩ : BufTy).Contents (Elt F)),
    StableHlo.unary main_v106 main_v107 (broadcastInDim S50000x47 ![0, 1] bcast_S1x47_S50000x47_0_1 : (⟨S1x47, .f32⟩ : BufTy).Contents (Elt F) → (⟨S50000x47, .f32⟩ : BufTy).Contents (Elt F)),
    StableHlo.binary main_v105 main_v107 main_v108 (addf : (⟨S50000x47, .f32⟩ : BufTy).Contents (Elt F) → (⟨S50000x47, .f32⟩ : BufTy).Contents (Elt F) → (⟨S50000x47, .f32⟩ : BufTy).Contents (Elt F)) ]
/-- Each of them touches only buffers of its own core. -/
theorem sE1_sub : (sE1 : List (HloOp τ sig (Elt F))).Forall fun op => op.bufs ⊆ StableHlo.tcRefs τ sig :=
  ⟨StableHlo.ternary_bufs_sub .., StableHlo.unary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub ..⟩

/-- Stage sF (15 operations): the log-softmax. -/
abbrev sF : List (HloOp τ sig (Elt F)) :=
  [ StableHlo.TRef.nullary main_call4.cst (constant S_ .f32 0xFF800000#32),
    StableHlo.TRef.binary (.of main_v108 : StableHlo.TRef sig ⟨S50000x47, .f32⟩) main_call4.cst main_call4.v0 (fun x v => Host.reduce FloatOps.maximumf x v reducesTo_S50000x47_S50000_d1 h_S_),
    StableHlo.TRef.nullary main_call4.cst_0 (constant S_ .f32 0xFF800000#32),
    StableHlo.TRef.unary main_call4.cst_0 main_call4.v1 (broadcastInDim S50000 ![] bcast_S_S50000),
    StableHlo.TRef.binary main_call4.v1 main_call4.v0 main_call4.v2 maximumf,
    StableHlo.TRef.unary main_call4.v2 main_call4.v3 (broadcastInDim S50000x1 ![0] bcast_S50000_S50000x1_0),
    StableHlo.TRef.unary main_call4.v3 main_call4.v4 (broadcastInDim S50000x47 ![0, 1] bcast_S50000x1_S50000x47_0_1),
    StableHlo.TRef.binary (.of main_v108 : StableHlo.TRef sig ⟨S50000x47, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S50000x47_S50000_d1 h_S_),
    StableHlo.TRef.unary main_call4.v7 main_call4.v8 (broadcastInDim S50000x1 ![0] bcast_S50000_S50000x1_0),
    StableHlo.TRef.unary main_call4.v8 main_call4.v9 Host.log,
    StableHlo.TRef.unary main_call4.v9 main_call4.v10 (broadcastInDim S50000x47 ![0, 1] bcast_S50000x1_S50000x47_0_1),
    StableHlo.TRef.binary main_call4.v5 main_call4.v10 main_call4.v11 subf ]
/-- Each of them touches only buffers of its own core. -/
theorem sF_sub : (sF : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩

/-- Window 0 of the entry function: stages sA, sB0. -/
abbrev ops0 : List (HloOp τ sig (Elt F)) := sA ++ sB0
/-- Window 1: stages sB1, sC, sD, sE0. -/
abbrev ops1 : List (HloOp τ sig (Elt F)) := sB1 ++ (sC ++ (sD ++ sE0))
/-- Window 2: stages sE1, sF. -/
abbrev ops2 : List (HloOp τ sig (Elt F)) := sE1 ++ sF

end Cert.ReferenceIdeal.RefRun

end
-- ==== Proof.LibAfterCut.lean ====
/-
  A line of host operations run in two parts.

  The contents of the buffers after a list of operations is a fold over the list, so the contents after a list cut at
  any position are the contents after its second part, started from the contents after its first part.  A buffer
  written in the first part and read in the second is thereby read from intermediate contents, so each part can be
  described by itself, as a function of the contents it starts from.
-/
import Idealize.ShloMosaic.Lib.StableHlo.Run

namespace Cert.Lib.AfterCut

open Idealize.ShloMosaic Idealize.ShloMosaic.StableHlo

variable {τ : Topo} {sig : RefSig} {Val : EltTy → Type}

/-- The contents after two lines, one after the other, are those after their concatenation. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line cut after its first `n` operations. -/
theorem after_cut (n : ℕ) (l : List (HloOp τ sig Val)) (V : Valuation τ sig Val) :
    after l V = after (l.drop n) (after (l.take n) V) := by
  rw [← after_append, List.take_append_drop]

end Cert.Lib.AfterCut
-- ==== Proof.RefRun.lean ====
/-
  The reference program's run.

  The reference is one straight line of host operations: its entry function is written in three windows, and the
  functions it calls (the variance over the nodes, the rectifier, the log-softmax) are straight lines themselves,
  so the whole program is the concatenation of lists of operations; here eight consecutive stages, one per step of
  the network (aggregate and map linearly; normalise and rectify; twice; then aggregate, map and take the
  log-softmax).  A straight line run from given buffer contents ends, on every core, with each buffer at the fold
  of the operations' results over those contents, and the fold over a concatenation is the fold over its second part
  started from the fold over its first.  No operation writes one of the fifteen argument arrays, so each ends as it
  was launched.
-/
import proofs.«165127_j7773890805925_2_alg».proof.Proof.RefOps
import proofs.«165127_j7773890805925_2_alg».proof.Proof.LibAfterCut

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.AfterCut

variable {F : FTy → Type} [FloatOps F]

/-- The whole program's operations: the three windows' lists, one after the other. -/
abbrev ops : List (HloOp τ sig (Elt F)) := ops0 ++ (ops1 ++ ops2)

set_option maxRecDepth 65536 in
/-- Window 0 of the entry function is the straight line of its list (the variance's operations at its call). -/
theorem part0_eq (c : Dev nD) : main_part0 (F := F) c = seq ops0 := rfl

set_option maxRecDepth 65536 in
/-- Window 1 likewise (the rectifier's and the second variance's operations at their calls). -/
theorem part1_eq (c : Dev nD) : main_part1 (F := F) c = seq ops1 := rfl

set_option maxRecDepth 65536 in
/-- Window 2 likewise (the log-softmax's operations at its call). -/
theorem part2_eq (c : Dev nD) : main_part2 (F := F) c = seq ops2 := rfl

/-- The entry function is the straight line of all the operations. -/
theorem main_eq (c : Dev nD) : main (F := F) c = seq ops := by
  show (main_part0 (F := F) c >>= fun _ => main_part1 (F := F) c >>= fun _ => main_part2 (F := F) c) = seq (ops0 ++ (ops1 ++ ops2))
  rw [part0_eq, part1_eq, part2_eq]
  exact ((seq_append ops0 (ops1 ++ ops2)).trans
    (congrArg (fun k => seq ops0 >>= fun _ => k) (seq_append ops1 ops2))).symm

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx => (List.mem_append.mp hx).elim
    (List.forall_iff_forall_mem.mp h₁ x) (List.forall_iff_forall_mem.mp h₂ x)

/-- Every operation touches only buffers of its own core. -/
theorem ops_sub : (ops : List (HloOp τ sig (Elt F))).Forall fun op => op.bufs ⊆ tcRefs τ sig :=
  forall_append (forall_append sA_sub sB0_sub)
    (forall_append (forall_append sB1_sub (forall_append sC_sub (forall_append sD_sub sE0_sub))) (forall_append sE1_sub sF_sub))

/-- No operation of stage sA allocates a buffer. -/
theorem sA_fresh : (sA : List (HloOp τ sig (Elt F))).Forall fun op => op.fresh = ∅ := by
  simp only [List.Forall]; repeat' constructor
/-- No operation of stage sB0 allocates a buffer. -/
theorem sB0_fresh : (sB0 : List (HloOp τ sig (Elt F))).Forall fun op => op.fresh = ∅ := by
  simp only [List.Forall]; repeat' constructor
/-- No operation of stage sB1 allocates a buffer. -/
theorem sB1_fresh : (sB1 : List (HloOp τ sig (Elt F))).Forall fun op => op.fresh = ∅ := by
  simp only [List.Forall]; repeat' constructor
/-- No operation of stage sC allocates a buffer. -/
theorem sC_fresh : (sC : List (HloOp τ sig (Elt F))).Forall fun op => op.fresh = ∅ := by
  simp only [List.Forall]; repeat' constructor
/-- No operation of stage sD allocates a buffer. -/
theorem sD_fresh : (sD : List (HloOp τ sig (Elt F))).Forall fun op => op.fresh = ∅ := by
  simp only [List.Forall]; repeat' constructor
/-- No operation of stage sE0 allocates a buffer. -/
theorem sE0_fresh : (sE0 : List (HloOp τ sig (Elt F))).Forall fun op => op.fresh = ∅ := by
  simp only [List.Forall]; repeat' constructor
/-- No operation of stage sE1 allocates a buffer. -/
theorem sE1_fresh : (sE1 : List (HloOp τ sig (Elt F))).Forall fun op => op.fresh = ∅ := by
  simp only [List.Forall]; repeat' constructor

/-- No operation of stage sF allocates a buffer. -/
theorem sF_fresh : (sF : List (HloOp τ sig (Elt F))).Forall fun op => op.fresh = ∅ := by
  simp only [List.Forall]; repeat' constructor

theorem ops_fresh : ∀ op ∈ (ops : List (HloOp τ sig (Elt F))), op.fresh = ∅ :=
  List.forall_iff_forall_mem.mp (forall_append (forall_append sA_fresh sB0_fresh)
    (forall_append (forall_append sB1_fresh (forall_append sC_fresh (forall_append sD_fresh sE0_fresh))) (forall_append sE1_fresh sF_fresh)))

/-- From any memory with zero counters every weakly fair execution of the reference terminates, and every final
    state has each buffer of each core at the fold of the operations' results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold over the whole line, stage by stage. -/
theorem after_ops (U : Valuation τ sig (Elt F)) :
    after (ops (F := F)) U = after sF (after sE1 (after sE0 (after sD (after sC (after sB1 (after sB0 (after sA U))))))) := by
  simp only [ops, ops0, ops1, ops2, after_append]

/-- The fifteen argument arrays. -/
abbrev args : List (Ref sig .tc) := [main_arg0, main_arg1, main_arg2, main_arg3, main_arg4, main_arg5, main_arg6, main_arg7, main_arg8, main_arg9, main_arg10, main_arg11, main_arg12, main_arg13, main_arg14]

/-- The argument arrays together with the edge endpoints and the inverse degrees, which only the first stage writes. -/
abbrev safe : List (Ref sig .tc) := [main_arg0, main_arg1, main_arg2, main_arg3, main_arg4, main_arg5, main_arg6, main_arg7, main_arg8, main_arg9, main_arg10, main_arg11, main_arg12, main_arg13, main_arg14, main_v1, main_v3, main_v11]

theorem args_sub_safe {r : Ref sig .tc} (hr : r ∈ args) : r ∈ safe := by
  have : safe = args ++ [main_v1, main_v3, main_v11] := rfl
  rw [this]; exact List.mem_append_left _ hr

/-- No operation of stage sA writes an argument array. -/
theorem kept_sA (V : Valuation τ sig (Elt F)) (r : Ref sig .tc) (hr : r ∈ args) :
    after (sA (F := F)) V (Proc.devRef .tc r) = V (Proc.devRef .tc r) :=
  after_of_forall_not_mem (b := Proc.devRef .tc r) _ _ (List.forall_iff_forall_mem.mp (by
    simp only [sA, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (fun e => absurd (e ▸ hr) (by decide))))

/-- No operation of stage sB0 writes an argument array, the edge endpoints or the inverse degrees. -/
theorem kept_sB0 (V : Valuation τ sig (Elt F)) (r : Ref sig .tc) (hr : r ∈ safe) :
    after (sB0 (F := F)) V (Proc.devRef .tc r) = V (Proc.devRef .tc r) :=
  after_of_forall_not_mem (b := Proc.devRef .tc r) _ _ (List.forall_iff_forall_mem.mp (by
    simp only [sB0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (fun e => absurd (e ▸ hr) (by decide))))

/-- No operation of stage sB1 writes an argument array, the edge endpoints or the inverse degrees. -/
theorem kept_sB1 (V : Valuation τ sig (Elt F)) (r : Ref sig .tc) (hr : r ∈ safe) :
    after (sB1 (F := F)) V (Proc.devRef .tc r) = V (Proc.devRef .tc r) :=
  after_of_forall_not_mem (b := Proc.devRef .tc r) _ _ (List.forall_iff_forall_mem.mp (by
    simp only [sB1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (fun e => absurd (e ▸ hr) (by decide))))

/-- No operation of stage sC writes an argument array, the edge endpoints or the inverse degrees. -/
theorem kept_sC (V : Valuation τ sig (Elt F)) (r : Ref sig .tc) (hr : r ∈ safe) :
    after (sC (F := F)) V (Proc.devRef .tc r) = V (Proc.devRef .tc r) :=
  after_of_forall_not_mem (b := Proc.devRef .tc r) _ _ (List.forall_iff_forall_mem.mp (by
    simp only [sC, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (fun e => absurd (e ▸ hr) (by decide))))

/-- No operation of stage sD writes an argument array, the edge endpoints or the inverse degrees. -/
theorem kept_sD (V : Valuation τ sig (Elt F)) (r : Ref sig .tc) (hr : r ∈ safe) :
    after (sD (F := F)) V (Proc.devRef .tc r) = V (Proc.devRef .tc r) :=
  after_of_forall_not_mem (b := Proc.devRef .tc r) _ _ (List.forall_iff_forall_mem.mp (by
    simp only [sD, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (fun e => absurd (e ▸ hr) (by decide))))

/-- No operation of stage sE0 writes an argument array, the edge endpoints or the inverse degrees. -/
theorem kept_sE0 (V : Valuation τ sig (Elt F)) (r : Ref sig .tc) (hr : r ∈ safe) :
    after (sE0 (F := F)) V (Proc.devRef .tc r) = V (Proc.devRef .tc r) :=
  after_of_forall_not_mem (b := Proc.devRef .tc r) _ _ (List.forall_iff_forall_mem.mp (by
    simp only [sE0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (fun e => absurd (e ▸ hr) (by decide))))

/-- No operation of stage sE1 writes an argument array, the edge endpoints or the inverse degrees. -/
theorem kept_sE1 (V : Valuation τ sig (Elt F)) (r : Ref sig .tc) (hr : r ∈ safe) :
    after (sE1 (F := F)) V (Proc.devRef .tc r) = V (Proc.devRef .tc r) :=
  after_of_forall_not_mem (b := Proc.devRef .tc r) _ _ (List.forall_iff_forall_mem.mp (by
    simp only [sE1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (fun e => absurd (e ▸ hr) (by decide))))

/-- No operation of stage sF writes an argument array, the edge endpoints or the inverse degrees. -/
theorem kept_sF (V : Valuation τ sig (Elt F)) (r : Ref sig .tc) (hr : r ∈ safe) :
    after (sF (F := F)) V (Proc.devRef .tc r) = V (Proc.devRef .tc r) :=
  after_of_forall_not_mem (b := Proc.devRef .tc r) _ _ (List.forall_iff_forall_mem.mp (by
    simp only [sF, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (fun e => absurd (e ▸ hr) (by decide))))

/-- So the whole line leaves every argument array as it found it. -/
theorem kept (V : Valuation τ sig (Elt F)) (r : Ref sig .tc) (hr : r ∈ args) :
    after (ops (F := F)) V (Proc.devRef .tc r) = V (Proc.devRef .tc r) := by
  have hs := args_sub_safe hr
  rw [after_ops, kept_sF _ r hs, kept_sE1 _ r hs, kept_sE0 _ r hs, kept_sD _ r hs, kept_sC _ r hs, kept_sB1 _ r hs, kept_sB0 _ r hs, kept_sA _ r hr]

end Cert.ReferenceIdeal.RefRun

end
-- ==== Proof.KTerms.lean ====
/-
  The kernel program's host stretches read back.

  Between its regions the kernel program runs short lines of host operations: the degrees and the aggregations
  (the same operations the reference runs), reshapes of the one-dimensional parameters into rows, the zero-padding
  of the last layer's weights and bias to 128 columns, the final slice of the first 47 lanes, and, after each
  statistics region, the combination of the per-tile statistics: the mean of the 25 tile means, and the sum of the
  tile sums of squares plus 2000 times the sum of the squared deviations of the tile means, divided by 50000 and
  clamped below at zero.  Each stretch, run from any buffer contents, leaves its key buffers at explicit terms of
  the buffers it reads and leaves alone the buffers it does not write; and the aggregation stretches compute, from
  equal inputs, what the reference's corresponding stages compute.
-/
import proofs.«165127_j7773890805925_2_alg».proof.Proof.KernelRun
import proofs.«165127_j7773890805925_2_alg».proof.Proof.RefRun
import Idealize.ShloMosaic.PureOps.Ideal

set_option maxRecDepth 16384
set_option maxHeartbeats 1600000

noncomputable section

namespace Cert.KernelIdeal.KTerms

open Cert.KernelIdeal Cert.KernelIdeal.Gen Idealize.ShloMosaic Idealize.ShloMosaic.TcCoe Idealize.SL.Sem Idealize.ShloMosaic.StableHlo
open Cert.Lib.AfterCut

/-- The mean of the 25 tile means, as a row. -/
def glueMeanT (meanp : FVec Ideal S25x1x256 .f32) : FVec Ideal S1x256 .f32 :=
  Host.divf (F := Ideal)
    (broadcastInDim S1x256 ![1] bcast_S256_S1x256_1
      (Host.reduceAdd (F := Ideal) (shapeCast S25x256 meanp shapeCasts_S25x1x256_S25x256) (constant (F := Ideal) S_ .f32 0x00000000#32) reducesTo_S25x256_S256_d0 h_S_))
    (broadcastInDim S1x256 ![] bcast_S_S1x256 (constant (F := Ideal) S_ .f32 0x41C80000#32))

/-- The deviations of the tile means about their mean. -/
def glueDiffT (meanp : FVec Ideal S25x1x256 .f32) : FVec Ideal S25x256 .f32 :=
  subf (shapeCast S25x256 meanp shapeCasts_S25x1x256_S25x256) (broadcastInDim S25x256 ![0, 1] bcast_S1x256_S25x256_0_1 (glueMeanT meanp))

/-- The combined variance, clamped below at zero, as a row. -/
def glueVarT (meanp m2p : FVec Ideal S25x1x256 .f32) : FVec Ideal S1x256 .f32 :=
  maximumf
    (Host.divf (F := Ideal)
      (addf
        (broadcastInDim S1x256 ![1] bcast_S256_S1x256_1
          (Host.reduceAdd (F := Ideal) (shapeCast S25x256 m2p shapeCasts_S25x1x256_S25x256) (constant (F := Ideal) S_ .f32 0x00000000#32) reducesTo_S25x256_S256_d0 h_S_))
        (mulf (broadcastInDim S1x256 ![] bcast_S_S1x256 (constant (F := Ideal) S_ .f32 0x44FA0000#32))
          (broadcastInDim S1x256 ![1] bcast_S256_S1x256_1
            (Host.reduceAdd (F := Ideal) (mulf (glueDiffT meanp) (glueDiffT meanp)) (constant (F := Ideal) S_ .f32 0x00000000#32) reducesTo_S25x256_S256_d0 h_S_))))
      (broadcastInDim S1x256 ![] bcast_S_S1x256 (constant (F := Ideal) S_ .f32 0x47435000#32)))
    (broadcastInDim S1x256 ![] bcast_S_S1x256 (constant (F := Ideal) S_ .f32 0x00000000#32))

/-- The host stretches between the fourth region and the last, as one line. -/
abbrev hostOps4all : List (HloOp τ sig (Elt Ideal)) :=
  hostOps4 ++ (hostOps4_1 ++ (hostOps4_2 ++ (hostOps4_3 ++ (hostOps4_4 ++ (hostOps4_5 ++ hostOps4_6)))))

variable (U : Valuation τ sig (Elt Ideal))

/-! ## What each stretch computes -/

/-- The inverse-degree column is the inverse-degree vector, reshaped. -/
theorem h0_inv : after (hostOps0 (F := Ideal)) U (Proc.devRef .tc main_v12)
    = shapeCast S50000x1 (after (hostOps0 (F := Ideal)) U (Proc.devRef .tc main_v11)) shapeCasts_S50000_S50000x1 := by
  after_results_simp
  try rfl

/-- The first bias row is the bias, reshaped. -/
theorem h0_b : after (hostOps0 (F := Ideal)) U (Proc.devRef .tc main_v23) = shapeCast S1x256 (U (Proc.devRef .tc main_arg4)) shapeCasts_S256_S1x256 := by
  after_results_simp
  try rfl

theorem h1_mean : after (hostOps1 (F := Ideal)) U (Proc.devRef .tc main_v30) = glueMeanT (U (Proc.devRef .tc main_v24_1)) := by
  unfold glueMeanT
  after_results_simp
  try rfl

theorem h1_var : after (hostOps1 (F := Ideal)) U (Proc.devRef .tc main_v44) = glueVarT (U (Proc.devRef .tc main_v24_1)) (U (Proc.devRef .tc main_v24_2)) := by
  unfold glueVarT glueDiffT glueMeanT
  after_results_simp
  try rfl

theorem h1_g : after (hostOps1 (F := Ideal)) U (Proc.devRef .tc main_v45) = shapeCast S1x256 (U (Proc.devRef .tc main_arg5)) shapeCasts_S256_S1x256 := by
  after_results_simp
  try rfl

theorem h1_be : after (hostOps1 (F := Ideal)) U (Proc.devRef .tc main_v46) = shapeCast S1x256 (U (Proc.devRef .tc main_arg6)) shapeCasts_S256_S1x256 := by
  after_results_simp
  try rfl

theorem h2_b : after (hostOps2 (F := Ideal)) U (Proc.devRef .tc main_v58) = shapeCast S1x256 (U (Proc.devRef .tc main_arg9)) shapeCasts_S256_S1x256 := by
  after_results_simp
  try rfl

theorem h3_mean : after (hostOps3 (F := Ideal)) U (Proc.devRef .tc main_v65) = glueMeanT (U (Proc.devRef .tc main_v59_1)) := by
  unfold glueMeanT
  after_results_simp
  try rfl

theorem h3_var : after (hostOps3 (F := Ideal)) U (Proc.devRef .tc main_v79) = glueVarT (U (Proc.devRef .tc main_v59_1)) (U (Proc.devRef .tc main_v59_2)) := by
  unfold glueVarT glueDiffT glueMeanT
  after_results_simp
  try rfl

theorem h3_g : after (hostOps3 (F := Ideal)) U (Proc.devRef .tc main_v80) = shapeCast S1x256 (U (Proc.devRef .tc main_arg10)) shapeCasts_S256_S1x256 := by
  after_results_simp
  try rfl

theorem h3_be : after (hostOps3 (F := Ideal)) U (Proc.devRef .tc main_v81) = shapeCast S1x256 (U (Proc.devRef .tc main_arg11)) shapeCasts_S256_S1x256 := by
  after_results_simp
  try rfl

/-- The left weights of the last layer, padded with zero columns. -/
theorem h4_wl : after hostOps4all U (Proc.devRef .tc main_v93)
    = pad S256x128 ![0, 0] ![0, 81] ![0, 0] (U (Proc.devRef .tc main_arg12)) (sitofp (F := Ideal) .f32 (constantI S_ 32 0#32)) pads_S256x47_S256x128_000_0810 h_S_ := by
  simp only [hostOps4all, hostOps4, hostOps4_1, hostOps4_2, hostOps4_3, hostOps4_4, hostOps4_5, hostOps4_6, List.cons_append, List.nil_append, List.append_nil]
  after_results_simp
  try rfl

/-- The right weights of the last layer, padded with zero columns. -/
theorem h4_wr : after hostOps4all U (Proc.devRef .tc main_v94)
    = pad S256x128 ![0, 0] ![0, 81] ![0, 0] (U (Proc.devRef .tc main_arg13)) (sitofp (F := Ideal) .f32 (constantI S_ 32 0#32)) pads_S256x47_S256x128_000_0810 h_S_ := by
  simp only [hostOps4all, hostOps4, hostOps4_1, hostOps4_2, hostOps4_3, hostOps4_4, hostOps4_5, hostOps4_6, List.cons_append, List.nil_append, List.append_nil]
  after_results_simp
  try rfl

/-- The bias of the last layer, padded with zeros, as a row. -/
theorem h4_b : after hostOps4all U (Proc.devRef .tc main_v96)
    = shapeCast S1x128 (pad S128 ![0] ![81] ![0] (U (Proc.devRef .tc main_arg14)) (sitofp (F := Ideal) .f32 (constantI S_ 32 0#32)) pads_S47_S128_0810 h_S_) shapeCasts_S128_S1x128 := by
  simp only [hostOps4all, hostOps4, hostOps4_1, hostOps4_2, hostOps4_3, hostOps4_4, hostOps4_5, hostOps4_6, List.cons_append, List.nil_append, List.append_nil]
  after_results_simp
  try rfl

/-- The result is the first 47 lanes of the last region's output. -/
theorem h5_out : after (hostOps5 (F := Ideal)) U (Proc.devRef .tc main_v98)
    = extractStridedSlice S50000x47 ![0, 0] (U (Proc.devRef .tc main_v97)) slices_S50000x128_S50000x47_0_0 := by
  after_results_simp
  try rfl

/-! ## What each stretch leaves alone -/

abbrev kept0_safe : List (Ref sig .tc) := [main_arg0, main_arg1, main_arg2, main_arg3, main_arg4, main_arg5, main_arg6, main_arg7, main_arg8, main_arg9, main_arg10, main_arg11, main_arg12, main_arg13, main_arg14]
abbrev kept1_safe : List (Ref sig .tc) := [main_arg0, main_arg1, main_arg2, main_arg3, main_arg4, main_arg5, main_arg6, main_arg7, main_arg8, main_arg9, main_arg10, main_arg11, main_arg12, main_arg13, main_arg14, main_v1, main_v3, main_v12, main_v24_0]
abbrev kept2_safe : List (Ref sig .tc) := [main_arg0, main_arg1, main_arg2, main_arg3, main_arg4, main_arg5, main_arg6, main_arg7, main_arg8, main_arg9, main_arg10, main_arg11, main_arg12, main_arg13, main_arg14, main_v1, main_v3, main_v12, main_v47]
abbrev kept3_safe : List (Ref sig .tc) := [main_arg0, main_arg1, main_arg2, main_arg3, main_arg4, main_arg5, main_arg6, main_arg7, main_arg8, main_arg9, main_arg10, main_arg11, main_arg12, main_arg13, main_arg14, main_v1, main_v3, main_v12, main_v59_0]
abbrev kept4_safe : List (Ref sig .tc) := [main_arg0, main_arg1, main_arg2, main_arg3, main_arg4, main_arg5, main_arg6, main_arg7, main_arg8, main_arg9, main_arg10, main_arg11, main_arg12, main_arg13, main_arg14, main_v1, main_v3, main_v12, main_v82]

/-- No operation of this stretch writes one of the buffers it is to leave alone. -/
theorem kept0 (U : Valuation τ sig (Elt Ideal)) (r : Ref sig .tc) (hr : r ∈ kept0_safe) :
    after (hostOps0 (F := Ideal)) U (Proc.devRef .tc r) = U (Proc.devRef .tc r) :=
  after_of_forall_not_mem (b := Proc.devRef .tc r) _ _ (List.forall_iff_forall_mem.mp (by
    simp only [hostOps0, List.cons_append, List.nil_append, List.append_nil, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (fun e => absurd (e ▸ hr) (by decide))))

/-- No operation of this stretch writes one of the buffers it is to leave alone. -/
theorem kept1 (U : Valuation τ sig (Elt Ideal)) (r : Ref sig .tc) (hr : r ∈ kept1_safe) :
    after (hostOps1 (F := Ideal)) U (Proc.devRef .tc r) = U (Proc.devRef .tc r) :=
  after_of_forall_not_mem (b := Proc.devRef .tc r) _ _ (List.forall_iff_forall_mem.mp (by
    simp only [hostOps1, List.cons_append, List.nil_append, List.append_nil, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (fun e => absurd (e ▸ hr) (by decide))))

/-- No operation of this stretch writes one of the buffers it is to leave alone. -/
theorem kept2 (U : Valuation τ sig (Elt Ideal)) (r : Ref sig .tc) (hr : r ∈ kept2_safe) :
    after (hostOps2 (F := Ideal)) U (Proc.devRef .tc r) = U (Proc.devRef .tc r) :=
  after_of_forall_not_mem (b := Proc.devRef .tc r) _ _ (List.forall_iff_forall_mem.mp (by
    simp only [hostOps2, List.cons_append, List.nil_append, List.append_nil, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (fun e => absurd (e ▸ hr) (by decide))))

/-- No operation of this stretch writes one of the buffers it is to leave alone. -/
theorem kept3 (U : Valuation τ sig (Elt Ideal)) (r : Ref sig .tc) (hr : r ∈ kept3_safe) :
    after (hostOps3 (F := Ideal)) U (Proc.devRef .tc r) = U (Proc.devRef .tc r) :=
  after_of_forall_not_mem (b := Proc.devRef .tc r) _ _ (List.forall_iff_forall_mem.mp (by
    simp only [hostOps3, List.cons_append, List.nil_append, List.append_nil, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (fun e => absurd (e ▸ hr) (by decide))))

/-- No operation of this stretch writes one of the buffers it is to leave alone. -/
theorem kept4 (U : Valuation τ sig (Elt Ideal)) (r : Ref sig .tc) (hr : r ∈ kept4_safe) :
    after hostOps4all U (Proc.devRef .tc r) = U (Proc.devRef .tc r) :=
  after_of_forall_not_mem (b := Proc.devRef .tc r) _ _ (List.forall_iff_forall_mem.mp (by
    simp only [hostOps4all, hostOps4, hostOps4_1, hostOps4_2, hostOps4_3, hostOps4_4, hostOps4_5, hostOps4_6, List.cons_append, List.nil_append, List.append_nil, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (fun e => absurd (e ▸ hr) (by decide))))

/-! ## The aggregations: the same operations as the reference's -/

variable (X : Valuation Cert.ReferenceIdeal.τ Cert.ReferenceIdeal.sig (Elt Ideal))

/-- From the same features and edge list: the same edge endpoints, inverse degrees and first aggregation. -/
theorem lock0 (h0 : X (Proc.devRef .tc Cert.ReferenceIdeal.main_arg0) = U (Proc.devRef .tc main_arg0)) (h1 : X (Proc.devRef .tc Cert.ReferenceIdeal.main_arg1) = U (Proc.devRef .tc main_arg1)) :
    after (Cert.ReferenceIdeal.RefRun.sA (F := Ideal)) X (Proc.devRef .tc Cert.ReferenceIdeal.main_v1) = after (hostOps0 (F := Ideal)) U (Proc.devRef .tc main_v1)
    ∧ after (Cert.ReferenceIdeal.RefRun.sA (F := Ideal)) X (Proc.devRef .tc Cert.ReferenceIdeal.main_v3) = after (hostOps0 (F := Ideal)) U (Proc.devRef .tc main_v3)
    ∧ after (Cert.ReferenceIdeal.RefRun.sA (F := Ideal)) X (Proc.devRef .tc Cert.ReferenceIdeal.main_v11) = after (hostOps0 (F := Ideal)) U (Proc.devRef .tc main_v11)
    ∧ after (Cert.ReferenceIdeal.RefRun.sA (F := Ideal)) X (Proc.devRef .tc Cert.ReferenceIdeal.main_v21) = after (hostOps0 (F := Ideal)) U (Proc.devRef .tc main_v22) := by
  refine ⟨?_, ?_, ?_, ?_⟩ <;> (after_results_simp; rw [h1] <;> try rw [h0]) <;> rfl

/-- From the same features and edge endpoints: the same second aggregation. -/
theorem lock2 (hh : X (Proc.devRef .tc Cert.ReferenceIdeal.main_v50) = U (Proc.devRef .tc main_v47)) (h1 : X (Proc.devRef .tc Cert.ReferenceIdeal.main_v1) = U (Proc.devRef .tc main_v1))
    (h3 : X (Proc.devRef .tc Cert.ReferenceIdeal.main_v3) = U (Proc.devRef .tc main_v3)) :
    after (Cert.ReferenceIdeal.RefRun.sC (F := Ideal)) X (Proc.devRef .tc Cert.ReferenceIdeal.main_v60) = after (hostOps2 (F := Ideal)) U (Proc.devRef .tc main_v57) := by
  after_results_simp
  rw [hh, h1, h3]
  rfl

/-- From the same features and edge endpoints: the same third aggregation. -/
theorem lock4 (hh : X (Proc.devRef .tc Cert.ReferenceIdeal.main_v89) = U (Proc.devRef .tc main_v82)) (h1 : X (Proc.devRef .tc Cert.ReferenceIdeal.main_v1) = U (Proc.devRef .tc main_v1))
    (h3 : X (Proc.devRef .tc Cert.ReferenceIdeal.main_v3) = U (Proc.devRef .tc main_v3)) :
    after (Cert.ReferenceIdeal.RefRun.sE1 (F := Ideal)) (after (Cert.ReferenceIdeal.RefRun.sE0 (F := Ideal)) X) (Proc.devRef .tc Cert.ReferenceIdeal.main_v99) = after hostOps4all U (Proc.devRef .tc main_v92) := by
  simp only [hostOps4all, hostOps4, hostOps4_1, hostOps4_2, hostOps4_3, hostOps4_4, hostOps4_5, hostOps4_6, List.cons_append, List.nil_append, List.append_nil]
  after_results_simp
  rw [hh, h1, h3]
  rfl

end Cert.KernelIdeal.KTerms

end
-- ==== Proof.RefTerms.lean ====
/-
  The reference's steps as whole-array terms, and each stage of its line read back as those terms.

  One step of the network on the host: the aggregated features scaled row-wise by the inverse degrees and multiplied
  into the left weights, plus the features multiplied into the right weights, plus the bias (three widths);
  the column means and the column variances over the 50000 nodes (the variance as the library function writes
  it: the mean squared deviation, selected against a not-a-number fill by a test on the constant divisor);
  the normalised and rectified features; the row-wise log-softmax.  Each stage of the reference's line, run from
  any buffer contents, leaves its key buffers at these terms of the buffers it reads.
-/
import proofs.«165127_j7773890805925_2_alg».proof.Proof.RefRun
import Idealize.ShloMosaic.PureOps.Ideal

set_option maxRecDepth 16384
set_option maxHeartbeats 1600000

noncomputable section

namespace Cert.ReferenceIdeal.RefTerms

open Cert.ReferenceIdeal Cert.ReferenceIdeal.Gen Idealize.ShloMosaic Idealize.ShloMosaic.TcCoe Idealize.SL.Sem Idealize.ShloMosaic.StableHlo
open Cert.ReferenceIdeal.RefRun

/-- The first layer's linear map (inner width 128). -/
def linT128 (agg x : FVec Ideal S50000x128 .f32) (inv : FVec Ideal S50000 .f32) (wl wr : FVec Ideal S128x256 .f32)
    (b : FVec Ideal S256 .f32) : FVec Ideal S50000x256 .f32 :=
  addf (addf
      (Host.dotGeneral (F := Ideal) dot_S50000x128_S128x256_S50000x256_1_0_0_1_n_n none
        (mulf agg (broadcastInDim S50000x128 ![0, 1] bcast_S50000x1_S50000x128_0_1 (broadcastInDim S50000x1 ![0] bcast_S50000_S50000x1_0 inv))) wl)
      (Host.dotGeneral (F := Ideal) dot_S50000x128_S128x256_S50000x256_1_0_0_1_n_n none x wr))
    (broadcastInDim S50000x256 ![0, 1] bcast_S1x256_S50000x256_0_1 (broadcastInDim S1x256 ![1] bcast_S256_S1x256_1 b))

/-- The second layer's linear map (inner width 256). -/
def linT256 (agg x : FVec Ideal S50000x256 .f32) (inv : FVec Ideal S50000 .f32) (wl wr : FVec Ideal S256x256 .f32)
    (b : FVec Ideal S256 .f32) : FVec Ideal S50000x256 .f32 :=
  addf (addf
      (Host.dotGeneral (F := Ideal) dot_S50000x256_S256x256_S50000x256_1_0_0_1_n_n none
        (mulf agg (broadcastInDim S50000x256 ![0, 1] bcast_S50000x1_S50000x256_0_1 (broadcastInDim S50000x1 ![0] bcast_S50000_S50000x1_0 inv))) wl)
      (Host.dotGeneral (F := Ideal) dot_S50000x256_S256x256_S50000x256_1_0_0_1_n_n none x wr))
    (broadcastInDim S50000x256 ![0, 1] bcast_S1x256_S50000x256_0_1 (broadcastInDim S1x256 ![1] bcast_S256_S1x256_1 b))

/-- The last layer's linear map (inner width 256, 47 outputs). -/
def linT47 (agg x : FVec Ideal S50000x256 .f32) (inv : FVec Ideal S50000 .f32) (wl wr : FVec Ideal S256x47 .f32)
    (b : FVec Ideal S47 .f32) : FVec Ideal S50000x47 .f32 :=
  addf (addf
      (Host.dotGeneral (F := Ideal) dot_S50000x256_S256x47_S50000x47_1_0_0_1_n_n none
        (mulf agg (broadcastInDim S50000x256 ![0, 1] bcast_S50000x1_S50000x256_0_1 (broadcastInDim S50000x1 ![0] bcast_S50000_S50000x1_0 inv))) wl)
      (Host.dotGeneral (F := Ideal) dot_S50000x256_S256x47_S50000x47_1_0_0_1_n_n none x wr))
    (broadcastInDim S50000x47 ![0, 1] bcast_S1x47_S50000x47_0_1 (broadcastInDim S1x47 ![1] bcast_S47_S1x47_1 b))

/-- The column means over the nodes. -/
def meanT (lin : FVec Ideal S50000x256 .f32) : FVec Ideal S256 .f32 :=
  Host.divf (F := Ideal) (Host.reduceAdd (F := Ideal) lin (constant (F := Ideal) S_ .f32 0x00000000#32) reducesTo_S50000x256_S256_d0 h_S_)
    (broadcastInDim S256 ![] bcast_S_S256 (constant (F := Ideal) S_ .f32 0x47435000#32))

/-- The divisor of the variance: the number of nodes minus the (zero) degrees-of-freedom correction. -/
def varDivT : FVec Ideal S_ .f32 :=
  subf (constant (F := Ideal) S_ .f32 0x47435000#32) (sitofp .f32 (constantI S_ 32 0#32))

/-- The column variances over the nodes, as the library function computes them. -/
def varT (lin : FVec Ideal S50000x256 .f32) : FVec Ideal S256 .f32 :=
  select (broadcastInDim S256 ![] bcast_S_S256 (cmpf .ogt varDivT (constant (F := Ideal) S_ .f32 0x00000000#32)))
    (Host.divf (F := Ideal)
      (Host.reduceAdd (F := Ideal)
        (mulf
          (subf lin (broadcastInDim S50000x256 ![0, 1] bcast_S1x256_S50000x256_0_1
            (Host.divf (F := Ideal)
              (broadcastInDim S1x256 ![1] bcast_S256_S1x256_1
                (Host.reduceAdd (F := Ideal) lin (constant (F := Ideal) S_ .f32 0x00000000#32) reducesTo_S50000x256_S256_d0 h_S_))
              (broadcastInDim S1x256 ![] bcast_S_S1x256 (constant (F := Ideal) S_ .f32 0x47435000#32)))))
          (subf lin (broadcastInDim S50000x256 ![0, 1] bcast_S1x256_S50000x256_0_1
            (Host.divf (F := Ideal)
              (broadcastInDim S1x256 ![1] bcast_S256_S1x256_1
                (Host.reduceAdd (F := Ideal) lin (constant (F := Ideal) S_ .f32 0x00000000#32) reducesTo_S50000x256_S256_d0 h_S_))
              (broadcastInDim S1x256 ![] bcast_S_S1x256 (constant (F := Ideal) S_ .f32 0x47435000#32))))))
        (constant (F := Ideal) S_ .f32 0x00000000#32) reducesTo_S50000x256_S256_d0 h_S_)
      (broadcastInDim S256 ![] bcast_S_S256 varDivT))
    (broadcastInDim S256 ![] bcast_S_S256 (id (constant (F := Ideal) S_ .f32 0x7FC00000#32)))

/-- The normalised features before the shift: scale times deviation times the reciprocal root. -/
def scaledT (lin : FVec Ideal S50000x256 .f32) (mean var g : FVec Ideal S256 .f32) : FVec Ideal S50000x256 .f32 :=
  mulf
    (mulf (broadcastInDim S50000x256 ![0, 1] bcast_S1x256_S50000x256_0_1 (broadcastInDim S1x256 ![1] bcast_S256_S1x256_1 g))
      (subf lin (broadcastInDim S50000x256 ![0, 1] bcast_S1x256_S50000x256_0_1 (broadcastInDim S1x256 ![1] bcast_S256_S1x256_1 mean))))
    (broadcastInDim S50000x256 ![0, 1] bcast_S1x256_S50000x256_0_1 (broadcastInDim S1x256 ![1] bcast_S256_S1x256_1
      (Host.rsqrt (F := Ideal) (addf var (broadcastInDim S256 ![] bcast_S_S256 (constant (F := Ideal) S_ .f32 0x3727C5AC#32))))))

/-- The normalised, shifted and rectified features. -/
def bnT (lin : FVec Ideal S50000x256 .f32) (mean var g be : FVec Ideal S256 .f32) : FVec Ideal S50000x256 .f32 :=
  maximumf
    (addf (scaledT lin mean var g)
      (broadcastInDim S50000x256 ![0, 1] bcast_S1x256_S50000x256_0_1 (broadcastInDim S1x256 ![1] bcast_S256_S1x256_1 be)))
    (broadcastInDim S50000x256 ![] bcast_S_S50000x256 (constant (F := Ideal) S_ .f32 0x00000000#32))

/-- The row maxima of the log-softmax. -/
def lsmMaxT (x : FVec Ideal S50000x47 .f32) : FVec Ideal S50000 .f32 :=
  maximumf (broadcastInDim S50000 ![] bcast_S_S50000 (constant (F := Ideal) S_ .f32 0xFF800000#32))
    (Host.reduce FloatOps.maximumf x (constant (F := Ideal) S_ .f32 0xFF800000#32) reducesTo_S50000x47_S50000_d1 h_S_)

/-- The rows shifted by their maxima. -/
def lsmShiftT (x : FVec Ideal S50000x47 .f32) : FVec Ideal S50000x47 .f32 :=
  subf x (broadcastInDim S50000x47 ![0, 1] bcast_S50000x1_S50000x47_0_1 (broadcastInDim S50000x1 ![0] bcast_S50000_S50000x1_0 (lsmMaxT x)))

/-- The row-wise log-softmax. -/
def lsmT (x : FVec Ideal S50000x47 .f32) : FVec Ideal S50000x47 .f32 :=
  subf (lsmShiftT x)
    (broadcastInDim S50000x47 ![0, 1] bcast_S50000x1_S50000x47_0_1
      (Host.log (F := Ideal) (broadcastInDim S50000x1 ![0] bcast_S50000_S50000x1_0
        (Host.reduceAdd (F := Ideal) (Host.exp (F := Ideal) (lsmShiftT x)) (constant (F := Ideal) S_ .f32 0x00000000#32) reducesTo_S50000x47_S50000_d1 h_S_))))

variable (X : Valuation τ sig (Elt Ideal))

/-- Stage sA: the first layer's linear output, from the stage's own aggregation and inverse degrees. -/
theorem sA_lin : after (sA (F := Ideal)) X (Proc.devRef .tc main_v30)
    = linT128 (after (sA (F := Ideal)) X (Proc.devRef .tc main_v21)) (X (Proc.devRef .tc main_arg0)) (after (sA (F := Ideal)) X (Proc.devRef .tc main_v11))
        (X (Proc.devRef .tc main_arg2)) (X (Proc.devRef .tc main_arg3)) (X (Proc.devRef .tc main_arg4)) := by
  unfold linT128
  after_results_simp

/-- Stages sB0, sB1: the first layer's normalised, rectified features, from the linear output they find. -/
theorem sB_h : after (sB1 (F := Ideal)) (after (sB0 (F := Ideal)) X) (Proc.devRef .tc main_v50)
    = bnT (X (Proc.devRef .tc main_v30)) (meanT (X (Proc.devRef .tc main_v30))) (varT (X (Proc.devRef .tc main_v30))) (X (Proc.devRef .tc main_arg5)) (X (Proc.devRef .tc main_arg6)) := by
  unfold bnT scaledT meanT varT varDivT
  after_results_simp
  try rfl

/-- Stage sC: the second layer's linear output, from the stage's own aggregation. -/
theorem sC_lin : after (sC (F := Ideal)) X (Proc.devRef .tc main_v69)
    = linT256 (after (sC (F := Ideal)) X (Proc.devRef .tc main_v60)) (X (Proc.devRef .tc main_v50)) (X (Proc.devRef .tc main_v11))
        (X (Proc.devRef .tc main_arg7)) (X (Proc.devRef .tc main_arg8)) (X (Proc.devRef .tc main_arg9)) := by
  unfold linT256
  after_results_simp

/-- Stage sD: the second layer's normalised, rectified features, from the linear output it finds. -/
theorem sD_h : after (sD (F := Ideal)) X (Proc.devRef .tc main_v89)
    = bnT (X (Proc.devRef .tc main_v69)) (meanT (X (Proc.devRef .tc main_v69))) (varT (X (Proc.devRef .tc main_v69))) (X (Proc.devRef .tc main_arg10)) (X (Proc.devRef .tc main_arg11)) := by
  unfold bnT scaledT meanT varT varDivT
  after_results_simp
  try rfl

/-- Stages sE0, sE1: the last linear output, from the stages' own aggregation. -/
theorem sE_lin : after (sE1 (F := Ideal)) (after (sE0 (F := Ideal)) X) (Proc.devRef .tc main_v108)
    = linT47 (after (sE1 (F := Ideal)) (after (sE0 (F := Ideal)) X) (Proc.devRef .tc main_v99)) (X (Proc.devRef .tc main_v89)) (X (Proc.devRef .tc main_v11))
        (X (Proc.devRef .tc main_arg12)) (X (Proc.devRef .tc main_arg13)) (X (Proc.devRef .tc main_arg14)) := by
  unfold linT47
  after_results_simp

end Cert.ReferenceIdeal.RefTerms

end
-- ==== Proof.LibChan.lean ====
/-
Combining per-tile statistics (Chan's parallel formula, equal tile sizes).

A population of `k * n` real numbers is split into `k` tiles of `n` entries each.  The mean of
the tile means is the population mean, and the sum of the tiles' sums of squared deviations
(each about its own tile mean) plus `n` times the sum of squared deviations of the tile means
about the overall mean is the population's sum of squared deviations about its mean.  The same
computation carried out in the extended reals on embedded real entries stays real at every step,
so it agrees with the population mean and variance computed in the extended reals, and the
variance is nonnegative, so clamping it at `0` changes nothing.  Finally a sum over
`Fin (a * b)` is re-indexed as a double sum over `a` tiles of `b` rows.
-/
import Mathlib.Data.EReal.Operations
import Mathlib.Data.EReal.Inv
import Mathlib.Algebra.BigOperators.Group.Finset.Basic
import Mathlib.Algebra.BigOperators.Fin
import Mathlib.Algebra.Order.BigOperators.Ring.Finset
import Mathlib.Logic.Equiv.Fin.Basic
import Mathlib.Tactic.Ring
import Mathlib.Tactic.FieldSimp
import Mathlib.Tactic.Positivity
import Idealize.ShloMosaic.PureOps.Ideal

noncomputable section

open Idealize.ShloMosaic
open scoped BigOperators

namespace Cert.LibChan

/-! ### The real identity -/

section Real
variable {T R : Type*} [Fintype T] [Fintype R]

/-- Mean of tile `t`: the tile's sum times `1 / n`. -/
def tileMean (f : T → R → ℝ) (n : ℝ) (t : T) : ℝ := (∑ r, f t r) * (1 / n)

/-- Mean of the `k` tile means. -/
def meanOfMeans (f : T → R → ℝ) (n k : ℝ) : ℝ := (∑ t, tileMean f n t) / k

/-- Population mean: the sum of all entries divided by `k * n`. -/
def popMean (f : T → R → ℝ) (n k : ℝ) : ℝ := (∑ t, ∑ r, f t r) / (k * n)

/-- Population variance: the sum of squared deviations about the population mean divided by
    `k * n`. -/
def popVar (f : T → R → ℝ) (n k : ℝ) : ℝ :=
  (∑ t, ∑ r, (f t r - popMean f n k) * (f t r - popMean f n k)) / (k * n)

/-- Shifting the centre of a sum of squares: if `n` is the number of entries and `n * μ` is
    their sum, the sum of squared deviations about any `m` is the sum of squared deviations about
    `μ` plus `n * (μ - m)²`. -/
theorem sum_sq_shift (g : R → ℝ) (n μ m : ℝ) (hn : (Fintype.card R : ℝ) = n)
    (hμ : n * μ = ∑ r, g r) :
    ∑ r, (g r - m) * (g r - m) = ∑ r, (g r - μ) * (g r - μ) + n * ((μ - m) * (μ - m)) := by
  have hdev : ∑ r, (g r - μ) = 0 := by
    rw [Finset.sum_sub_distrib, Finset.sum_const, Finset.card_univ, nsmul_eq_mul, hn, hμ, sub_self]
  have hexp : ∀ r, (g r - m) * (g r - m)
      = (g r - μ) * (g r - μ) + (2 * (μ - m)) * (g r - μ) + (μ - m) * (μ - m) := by
    intro r; ring
  rw [Finset.sum_congr rfl (fun r _ => hexp r), Finset.sum_add_distrib, Finset.sum_add_distrib,
    ← Finset.mul_sum, hdev, Finset.sum_const, Finset.card_univ, nsmul_eq_mul, hn]
  ring

/-- Chan's formula for `k` tiles of `n` entries: the mean of the tile means is the population
    mean, and the tiles' sums of squared deviations plus `n` times the squared deviations of the
    tile means about the overall mean add up to the population's sum of squared deviations. -/
theorem chan_real (f : T → R → ℝ) (n k : ℝ) (hn : (Fintype.card R : ℝ) = n)
    (_hk : (Fintype.card T : ℝ) = k) (hn0 : n ≠ 0) (hk0 : k ≠ 0) :
    meanOfMeans f n k = (∑ t, ∑ r, f t r) / (k * n)
    ∧ (∑ t, ∑ r, (f t r - tileMean f n t) * (f t r - tileMean f n t))
        + n * ∑ t, (tileMean f n t - meanOfMeans f n k) * (tileMean f n t - meanOfMeans f n k)
      = ∑ t, ∑ r, (f t r - meanOfMeans f n k) * (f t r - meanOfMeans f n k) := by
  constructor
  · unfold meanOfMeans tileMean
    rw [← Finset.sum_mul]
    field_simp
  · have h : ∀ t, ∑ r, (f t r - meanOfMeans f n k) * (f t r - meanOfMeans f n k)
        = ∑ r, (f t r - tileMean f n t) * (f t r - tileMean f n t)
          + n * ((tileMean f n t - meanOfMeans f n k) * (tileMean f n t - meanOfMeans f n k)) :=
      fun t => sum_sq_shift (f t) n (tileMean f n t) _ hn (by unfold tileMean; field_simp)
    rw [Finset.sum_congr rfl (fun t _ => h t), Finset.sum_add_distrib, ← Finset.mul_sum]

/-- The mean of the tile means is the population mean. -/
theorem meanOfMeans_eq_popMean (f : T → R → ℝ) (n k : ℝ) (hn : (Fintype.card R : ℝ) = n)
    (hk : (Fintype.card T : ℝ) = k) (hn0 : n ≠ 0) (hk0 : k ≠ 0) :
    meanOfMeans f n k = popMean f n k :=
  (chan_real f n k hn hk hn0 hk0).1

/-- The population variance is nonnegative: a sum of squares over a nonnegative count. -/
theorem popVar_nonneg (f : T → R → ℝ) (n k : ℝ) (hn : (Fintype.card R : ℝ) = n)
    (hk : (Fintype.card T : ℝ) = k) : 0 ≤ popVar f n k := by
  unfold popVar
  apply div_nonneg
  · exact Finset.sum_nonneg (fun t _ => Finset.sum_nonneg (fun r _ => mul_self_nonneg _))
  · rw [← hn, ← hk]
    positivity

end Real

/-! ### The same computation in the extended reals -/

section Lift

/-- A finite sum of embedded reals is the embedded real sum. -/
private theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Dividing an embedded real by a nonzero embedded real is the embedded real quotient. -/
private theorem div_coe_coe (a b : ℝ) (hb : b ≠ 0) :
    Ideal.div (a : EReal) (b : EReal) = ((a / b : ℝ) : EReal) := by
  rw [Ideal.div_coe hb, ← EReal.coe_mul, mul_one_div]

/-- The squared difference of two embedded reals is the embedded real squared difference. -/
private theorem sq_dev_coe (x y : ℝ) :
    ((x : EReal) - (y : EReal)) * ((x : EReal) - (y : EReal)) = (((x - y) * (x - y) : ℝ) : EReal) := by
  rw [← EReal.coe_sub, ← EReal.coe_mul]

end Lift

section EReal
variable {T R : Type*} [Fintype T] [Fintype R]

/-- Mean of tile `t` computed in the extended reals. -/
def tileMeanE (F : T → R → EReal) (n : ℝ) (t : T) : EReal :=
  (∑ r, F t r) * ((1 / n : ℝ) : EReal)

/-- Mean of the tile means computed in the extended reals. -/
def meanE (F : T → R → EReal) (n k : ℝ) : EReal :=
  Ideal.div (∑ t, tileMeanE F n t) ((k : ℝ) : EReal)

/-- Sum of squared deviations of tile `t` about its own mean, in the extended reals. -/
def tileM2E (F : T → R → EReal) (n : ℝ) (t : T) : EReal :=
  ∑ r, (F t r - tileMeanE F n t) * (F t r - tileMeanE F n t)

/-- Variance by the parallel combination, clamped below at `0`, in the extended reals. -/
def varE (F : T → R → EReal) (n k : ℝ) : EReal :=
  max (Ideal.div
        ((∑ t, tileM2E F n t)
          + ((n : ℝ) : EReal)
            * ∑ t, (tileMeanE F n t - meanE F n k) * (tileMeanE F n t - meanE F n k))
        ((k * n : ℝ) : EReal)) 0

/-- Population mean computed in the extended reals. -/
def muRef (F : T → R → EReal) (n k : ℝ) : EReal :=
  Ideal.div (∑ t, ∑ r, F t r) ((k * n : ℝ) : EReal)

/-- Population variance computed in the extended reals. -/
def varRef (F : T → R → EReal) (n k : ℝ) : EReal :=
  Ideal.div (∑ t, ∑ r, (F t r - muRef F n k) * (F t r - muRef F n k)) ((k * n : ℝ) : EReal)

variable (F : T → R → EReal) (f : T → R → ℝ) (n k : ℝ)

/-- On embedded real entries the extended-real tile mean is the embedded real tile mean. -/
theorem tileMeanE_coe (hF : ∀ t r, F t r = ((f t r : ℝ) : EReal)) (t : T) :
    tileMeanE F n t = ((tileMean f n t : ℝ) : EReal) := by
  unfold tileMeanE tileMean
  rw [Finset.sum_congr rfl (fun r _ => hF t r), coe_sum, ← EReal.coe_mul]

/-- On embedded real entries the extended-real mean of tile means is the embedded real one. -/
theorem meanE_coe (hF : ∀ t r, F t r = ((f t r : ℝ) : EReal)) (hk0 : k ≠ 0) :
    meanE F n k = ((meanOfMeans f n k : ℝ) : EReal) := by
  unfold meanE meanOfMeans
  rw [Finset.sum_congr rfl (fun t _ => tileMeanE_coe F f n hF t), coe_sum, div_coe_coe _ _ hk0]

/-- On embedded real entries a tile's extended-real sum of squared deviations is the embedded
    real one. -/
theorem tileM2E_coe (hF : ∀ t r, F t r = ((f t r : ℝ) : EReal)) (t : T) :
    tileM2E F n t
      = ((∑ r, (f t r - tileMean f n t) * (f t r - tileMean f n t) : ℝ) : EReal) := by
  unfold tileM2E
  rw [Finset.sum_congr rfl (fun r _ => show
        (F t r - tileMeanE F n t) * (F t r - tileMeanE F n t)
          = (((f t r - tileMean f n t) * (f t r - tileMean f n t) : ℝ) : EReal) by
        rw [hF t r, tileMeanE_coe F f n hF t, sq_dev_coe]),
    coe_sum]

/-- On embedded real entries the extended-real population mean is the embedded real population
    mean. -/
theorem muRef_coe (hF : ∀ t r, F t r = ((f t r : ℝ) : EReal)) (hn0 : n ≠ 0) (hk0 : k ≠ 0) :
    muRef F n k = ((popMean f n k : ℝ) : EReal) := by
  unfold muRef popMean
  have hrow : ∀ t, ∑ r, F t r = ((∑ r, f t r : ℝ) : EReal) := fun t => by
    rw [Finset.sum_congr rfl (fun r _ => hF t r), coe_sum]
  rw [Finset.sum_congr rfl (fun t _ => hrow t), coe_sum, div_coe_coe _ _ (mul_ne_zero hk0 hn0)]

/-- On embedded real entries the extended-real population variance is the embedded real
    population variance. -/
theorem varRef_coe (hF : ∀ t r, F t r = ((f t r : ℝ) : EReal)) (hn0 : n ≠ 0) (hk0 : k ≠ 0) :
    varRef F n k = ((popVar f n k : ℝ) : EReal) := by
  unfold varRef popVar
  have hrow : ∀ t, ∑ r, (F t r - muRef F n k) * (F t r - muRef F n k)
      = ((∑ r, (f t r - popMean f n k) * (f t r - popMean f n k) : ℝ) : EReal) := fun t => by
    rw [Finset.sum_congr rfl (fun r _ => show
          (F t r - muRef F n k) * (F t r - muRef F n k)
            = (((f t r - popMean f n k) * (f t r - popMean f n k) : ℝ) : EReal) by
          rw [hF t r, muRef_coe F f n k hF hn0 hk0, sq_dev_coe]),
      coe_sum]
  rw [Finset.sum_congr rfl (fun t _ => hrow t), coe_sum, div_coe_coe _ _ (mul_ne_zero hk0 hn0)]

/-- On embedded real entries the clamped parallel-combination variance is the embedded real
    population variance. -/
theorem varE_coe (hF : ∀ t r, F t r = ((f t r : ℝ) : EReal)) (hn : (Fintype.card R : ℝ) = n)
    (hk : (Fintype.card T : ℝ) = k) (hn0 : n ≠ 0) (hk0 : k ≠ 0) :
    varE F n k = ((popVar f n k : ℝ) : EReal) := by
  have hm2 : ∑ t, tileM2E F n t
      = ((∑ t, ∑ r, (f t r - tileMean f n t) * (f t r - tileMean f n t) : ℝ) : EReal) := by
    rw [Finset.sum_congr rfl (fun t _ => tileM2E_coe F f n hF t), coe_sum]
  have hbetween : ∑ t, (tileMeanE F n t - meanE F n k) * (tileMeanE F n t - meanE F n k)
      = ((∑ t, (tileMean f n t - meanOfMeans f n k) * (tileMean f n t - meanOfMeans f n k) : ℝ)
          : EReal) := by
    rw [Finset.sum_congr rfl (fun t _ => show
          (tileMeanE F n t - meanE F n k) * (tileMeanE F n t - meanE F n k)
            = (((tileMean f n t - meanOfMeans f n k) * (tileMean f n t - meanOfMeans f n k) : ℝ)
                : EReal) by
          rw [tileMeanE_coe F f n hF t, meanE_coe F f n k hF hk0, sq_dev_coe]),
      coe_sum]
  obtain ⟨hmean, hchan⟩ := chan_real f n k hn hk hn0 hk0
  have hmean' : meanOfMeans f n k = popMean f n k := hmean
  unfold varE
  rw [hm2, hbetween, ← EReal.coe_mul, ← EReal.coe_add, hchan, hmean',
    div_coe_coe _ _ (mul_ne_zero hk0 hn0)]
  exact max_eq_left (EReal.coe_nonneg.mpr (popVar_nonneg f n k hn hk))

/-- Chan's formula in the extended reals on embedded real entries: the mean of tile means is the
    population mean, the clamped combined variance is the population variance, and both are the
    embedded real population statistics, the variance being nonnegative. -/
theorem chan_ereal (hF : ∀ t r, F t r = ((f t r : ℝ) : EReal)) (hn : (Fintype.card R : ℝ) = n)
    (hk : (Fintype.card T : ℝ) = k) (hn0 : n ≠ 0) (hk0 : k ≠ 0) :
    meanE F n k = muRef F n k ∧ varE F n k = varRef F n k
    ∧ ∃ a v : ℝ, muRef F n k = ((a : ℝ) : EReal) ∧ varRef F n k = ((v : ℝ) : EReal) ∧ 0 ≤ v := by
  refine ⟨?_, ?_, popMean f n k, popVar f n k, muRef_coe F f n k hF hn0 hk0,
    varRef_coe F f n k hF hn0 hk0, popVar_nonneg f n k hn hk⟩
  · rw [meanE_coe F f n k hF hk0, muRef_coe F f n k hF hn0 hk0,
      meanOfMeans_eq_popMean f n k hn hk hn0 hk0]
  · rw [varE_coe F f n k hF hn hk hn0 hk0, varRef_coe F f n k hF hn0 hk0]

/-- The mean of tile means equals the population mean, with every expression written out. -/
theorem chan_ereal_mean (hF : ∀ t r, F t r = ((f t r : ℝ) : EReal))
    (hn : (Fintype.card R : ℝ) = n) (hk : (Fintype.card T : ℝ) = k) (hn0 : n ≠ 0) (hk0 : k ≠ 0) :
    Ideal.div (∑ t, (∑ r, F t r) * ((1 / n : ℝ) : EReal)) ((k : ℝ) : EReal)
      = Ideal.div (∑ t, ∑ r, F t r) ((k * n : ℝ) : EReal) :=
  (chan_ereal F f n k hF hn hk hn0 hk0).1

/-- The clamped combined variance equals the population variance, with every expression written
    out. -/
theorem chan_ereal_var (hF : ∀ t r, F t r = ((f t r : ℝ) : EReal))
    (hn : (Fintype.card R : ℝ) = n) (hk : (Fintype.card T : ℝ) = k) (hn0 : n ≠ 0) (hk0 : k ≠ 0) :
    max (Ideal.div
          ((∑ t, ∑ r, (F t r - (∑ r, F t r) * ((1 / n : ℝ) : EReal))
                      * (F t r - (∑ r, F t r) * ((1 / n : ℝ) : EReal)))
            + ((n : ℝ) : EReal)
              * ∑ t, ((∑ r, F t r) * ((1 / n : ℝ) : EReal)
                        - Ideal.div (∑ t, (∑ r, F t r) * ((1 / n : ℝ) : EReal)) ((k : ℝ) : EReal))
                    * ((∑ r, F t r) * ((1 / n : ℝ) : EReal)
                        - Ideal.div (∑ t, (∑ r, F t r) * ((1 / n : ℝ) : EReal)) ((k : ℝ) : EReal)))
          ((k * n : ℝ) : EReal)) 0
      = Ideal.div
          (∑ t, ∑ r, (F t r - Ideal.div (∑ t, ∑ r, F t r) ((k * n : ℝ) : EReal))
                      * (F t r - Ideal.div (∑ t, ∑ r, F t r) ((k * n : ℝ) : EReal)))
          ((k * n : ℝ) : EReal) :=
  (chan_ereal F f n k hF hn hk hn0 hk0).2.1

end EReal

/-! ### Re-indexing rows as tiles -/

/-- Row `r` of tile `t` (tiles of `b` rows) has index `t * b + r`, which is below `a * b`. -/
theorem tile_index_lt {a b : ℕ} (t : Fin a) (r : Fin b) : t.val * b + r.val < a * b :=
  calc t.val * b + r.val < t.val * b + b := Nat.add_lt_add_left r.isLt _
    _ = (t.val + 1) * b := (Nat.succ_mul _ _).symm
    _ ≤ a * b := Nat.mul_le_mul_right _ t.isLt

/-- A sum over `a * b` rows is the sum over `a` tiles of the sums over the `b` rows of each
    tile, row `r` of tile `t` being row `t * b + r`. -/
theorem sum_tiles {M : Type*} [AddCommMonoid M] (a b : ℕ) (g : Fin (a * b) → M) :
    ∑ i : Fin (a * b), g i
      = ∑ t : Fin a, ∑ r : Fin b, g ⟨t.val * b + r.val, tile_index_lt t r⟩ := by
  rw [← Fintype.sum_prod_type']
  symm
  apply Fintype.sum_equiv finProdFinEquiv
  intro p
  congr 1
  apply Fin.ext
  show p.1.val * b + p.2.val = p.2.val + b * p.1.val
  rw [Nat.mul_comm, Nat.add_comm]

end Cert.LibChan
-- ==== Proof.LibSoftmaxPad.lean ====
/-
Padding lanes of a row.

A row of extended reals of length `N` whose first `n` entries are a given row `v` and whose
remaining entries are the neutral element of an operation has the same reduction as `v`:
entries `-∞` do not change a maximum (taken with `-∞` as its starting value), entries `0` do
not change a sum, and since `exp (-∞ - M) = 0` for every `M` (because `-∞ + x = -∞` for every
extended real `x`), entries `-∞` do not change a sum of shifted exponentials either.  None of
these facts needs the entries to be finite.
-/
import Mathlib.Data.Finset.Fold
import Mathlib.Data.Fin.Embedding
import Mathlib.Algebra.BigOperators.Group.Finset.Basic
import Mathlib.Data.EReal.Operations
import Mathlib.Order.Fin.Basic
import Idealize.ShloMosaic.PureOps.Ideal

noncomputable section

open Idealize.ShloMosaic
open scoped BigOperators

namespace Cert.LibSoftmaxPad

/-- The exponential of `-∞ - M` is `0` for every extended real `M`, the infinities included,
    because `-∞ - M = -∞`. -/
theorem exp_bot_sub (M : EReal) : Ideal.exp (⊥ - M) = 0 := by
  rw [EReal.bot_sub, Ideal.exp_bot]

/-- A sum over `Fin N` of a family that vanishes from index `n` on is the sum of its first `n`
    entries (any additive commutative monoid). -/
theorem sum_castLE {M : Type*} [AddCommMonoid M] (n N : ℕ) (h : n ≤ N) (x : Fin N → M)
    (hhi : ∀ j : Fin N, n ≤ j.val → x j = 0) :
    ∑ j : Fin N, x j = ∑ j : Fin n, x (Fin.castLE h j) := by
  have hmap : ∑ j : Fin n, x (Fin.castLE h j)
      = ∑ j ∈ (Finset.univ : Finset (Fin n)).map (Fin.castLEEmb h), x j := by
    rw [Finset.sum_map]
    rfl
  rw [hmap]
  symm
  apply Finset.sum_subset (Finset.subset_univ _)
  intro j _ hj
  apply hhi
  by_contra hlt
  apply hj
  rw [Finset.mem_map]
  exact ⟨⟨j.val, by omega⟩, Finset.mem_univ _, Fin.ext rfl⟩

/-- Entries `-∞` after the first `n` do not change the maximum of a row (the maximum being
    folded from `-∞`). -/
theorem fold_max_pad (n N : ℕ) (h : n ≤ N) (x : Fin N → EReal) (v : Fin n → EReal)
    (hlo : ∀ j : Fin n, x ⟨j.val, by omega⟩ = v j)
    (hhi : ∀ j : Fin N, n ≤ j.val → x j = ⊥) :
    (Finset.univ : Finset (Fin N)).fold max ⊥ x = (Finset.univ : Finset (Fin n)).fold max ⊥ v := by
  apply le_antisymm
  · rw [Finset.fold_max_le]
    refine ⟨bot_le, fun j _ => ?_⟩
    by_cases hj : j.val < n
    · rw [Finset.le_fold_max]
      refine Or.inr ⟨⟨j.val, hj⟩, Finset.mem_univ _, ?_⟩
      rw [← hlo ⟨j.val, hj⟩]
    · rw [hhi j (by omega)]
      exact bot_le
  · rw [Finset.fold_max_le]
    refine ⟨bot_le, fun j _ => ?_⟩
    rw [Finset.le_fold_max]
    exact Or.inr ⟨⟨j.val, by omega⟩, Finset.mem_univ _, (hlo j).ge⟩

/-- Entries `0` after the first `n` do not change the sum of a row. -/
theorem sum_pad (n N : ℕ) (h : n ≤ N) (x : Fin N → EReal) (v : Fin n → EReal)
    (hlo : ∀ j : Fin n, x ⟨j.val, by omega⟩ = v j)
    (hhi : ∀ j : Fin N, n ≤ j.val → x j = 0) :
    ∑ j : Fin N, x j = ∑ j : Fin n, v j := by
  rw [sum_castLE n N h x hhi]
  exact Finset.sum_congr rfl (fun j _ => hlo j)

/-- Entries `-∞` after the first `n` do not change the sum of exponentials of a row shifted by
    any extended real `M`. -/
theorem sumexp_pad (n N : ℕ) (h : n ≤ N) (x : Fin N → EReal) (v : Fin n → EReal)
    (hlo : ∀ j : Fin n, x ⟨j.val, by omega⟩ = v j)
    (hhi : ∀ j : Fin N, n ≤ j.val → x j = ⊥) (M : EReal) :
    ∑ j : Fin N, Ideal.exp (x j - M) = ∑ j : Fin n, Ideal.exp (v j - M) := by
  apply sum_pad n N h (fun j => Ideal.exp (x j - M)) (fun j => Ideal.exp (v j - M))
  · intro j
    show Ideal.exp (x ⟨j.val, by omega⟩ - M) = Ideal.exp (v j - M)
    rw [hlo j]
  · intro j hj
    show Ideal.exp (x j - M) = 0
    rw [hhi j hj, exp_bot_sub]

/-- The maximum of a nonempty row of real numbers (folded from `-∞`) is a real number. -/
theorem fold_max_real (n : ℕ) (hn : 0 < n) (v : Fin n → EReal)
    (hv : ∃ g : Fin n → ℝ, ∀ j, v j = ((g j : ℝ) : EReal)) :
    ∃ a : ℝ, (Finset.univ : Finset (Fin n)).fold max ⊥ v = ((a : ℝ) : EReal) := by
  obtain ⟨g, hg⟩ := hv
  have hne : (Finset.univ : Finset (Fin n)).Nonempty := ⟨⟨0, hn⟩, Finset.mem_univ _⟩
  refine ⟨Finset.univ.sup' hne g, ?_⟩
  apply le_antisymm
  · rw [Finset.fold_max_le]
    refine ⟨bot_le, fun j hj => ?_⟩
    rw [hg j, EReal.coe_le_coe_iff]
    exact Finset.le_sup' g hj
  · obtain ⟨j, hj, hsup⟩ := Finset.exists_mem_eq_sup' hne g
    rw [Finset.le_fold_max]
    refine Or.inr ⟨j, hj, ?_⟩
    rw [hsup, hg j]

end Cert.LibSoftmaxPad
-- ==== Proof.LibRealLift.lean ====
/-
Reading a computation on finite extended reals as the real computation.

The embedding of the real numbers into the extended reals commutes with every operation used
here as long as the operation stays away from its corner cases: finite sums, division by a
nonzero real, the reciprocal square root and the logarithm of a positive real, the exponential,
and the maximum.  Addition, subtraction and multiplication of two embedded reals are already
covered by `EReal.coe_add`, `EReal.coe_sub` and `EReal.coe_mul`.
-/
import Mathlib.Data.EReal.Operations
import Mathlib.Data.EReal.Inv
import Mathlib.Algebra.BigOperators.Group.Finset.Basic
import Idealize.ShloMosaic.PureOps.Ideal

noncomputable section

open Idealize.ShloMosaic
open scoped BigOperators

namespace Cert.LibRealLift

/-- A finite sum of embedded reals is the embedded real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sum of two embedded reals is the embedded real sum (`EReal.coe_add`, restated in the
    direction that collects the embedding outside). -/
theorem add_coe (a b : ℝ) : (a : EReal) + (b : EReal) = ((a + b : ℝ) : EReal) :=
  (EReal.coe_add a b).symm

/-- The difference of two embedded reals is the embedded real difference (`EReal.coe_sub`). -/
theorem sub_coe (a b : ℝ) : (a : EReal) - (b : EReal) = ((a - b : ℝ) : EReal) :=
  (EReal.coe_sub a b).symm

/-- The product of two embedded reals is the embedded real product (`EReal.coe_mul`). -/
theorem mul_coe (a b : ℝ) : (a : EReal) * (b : EReal) = ((a * b : ℝ) : EReal) :=
  (EReal.coe_mul a b).symm

/-- Dividing an embedded real by a nonzero embedded real is the embedded real quotient. -/
theorem div_coe_coe (a b : ℝ) (hb : b ≠ 0) :
    Ideal.div (a : EReal) (b : EReal) = ((a / b : ℝ) : EReal) := by
  rw [Ideal.div_coe hb, ← EReal.coe_mul, mul_one_div]

/-- The reciprocal square root of a positive embedded real is the embedded real reciprocal
    square root. -/
theorem rsqrt_coe_pos (a : ℝ) (ha : 0 < a) :
    Ideal.rsqrt (a : EReal) = (((Real.sqrt a)⁻¹ : ℝ) : EReal) := by
  rw [Ideal.rsqrt_coe, if_neg (not_lt.mpr ha.le), if_neg ha.ne']

/-- The exponential of an embedded real is the embedded real exponential. -/
theorem exp_coe (a : ℝ) : Ideal.exp (a : EReal) = ((Real.exp a : ℝ) : EReal) :=
  Ideal.exp_coe a

/-- The logarithm of a positive embedded real is the embedded real logarithm. -/
theorem log_coe_pos (a : ℝ) (ha : 0 < a) :
    Ideal.log (a : EReal) = ((Real.log a : ℝ) : EReal) := by
  rw [Ideal.log_coe, if_neg (not_le.mpr ha)]

/-- The maximum of two embedded reals is the embedded real maximum. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

end Cert.LibRealLift
-- ==== Proof.Spec.lean ====
/-
  The mathematics that joins the two programs, on plain functions.

  (1) Batch statistics.  A column of 50000 real entries is cut into 25 tiles of 2000 consecutive rows.  The kernel
  side takes each tile's mean (sum times 1/2000) and each tile's sum of squared deviations about its own mean, then
  the mean of the 25 tile means, and the sum of the tile sums plus 2000 times the sum of the squared deviations of
  the tile means about their mean, divided by 50000 and clamped below at 0.  The reference takes the mean of the whole
  column and the mean of the squared deviations about it.  On real entries the two agree exactly: equal tile sizes
  make the mean of means the mean, and the squared deviations about the overall mean split, tile by tile, into those
  about the tile's mean plus 2000 times the squared distance of the two means, the cross term vanishing because the
  deviations about a mean sum to zero.  Both statistics are real numbers and the variance is not negative.

  (2) The normalised, rectified entry  max (g (x - mean) rsqrt(var + eps) + b, 0)  is a real number when its
  inputs are, the variance is not negative and eps is positive.

  (3) Row-wise log-softmax over 128 lanes whose last 81 hold minus infinity is, on the first 47 lanes, the
  log-softmax over those 47 lanes: the padded lanes are the identity of the maximum and add zero to the sum of
  exponentials.
-/
import proofs.«165127_j7773890805925_2_alg».proof.Proof.LibChan
import proofs.«165127_j7773890805925_2_alg».proof.Proof.LibSoftmaxPad
import proofs.«165127_j7773890805925_2_alg».proof.Proof.LibRealLift

noncomputable section

namespace Cert.Spec

open Idealize.ShloMosaic

/-! ## Batch statistics of one column -/

/-- Row `r` of tile `t` among 50000 rows in 25 tiles of 2000. -/
def row (t : Fin 25) (r : Fin 2000) : Fin 50000 :=
  ⟨t.val * 2000 + r.val, by have := t.isLt; have := r.isLt; omega⟩

/-- The mean of tile `t`: its sum times the reciprocal of the tile height. -/
def tileMean (x : Fin 50000 → EReal) (t : Fin 25) : EReal :=
  (∑ r : Fin 2000, x (row t r)) * ((1 / 2000 : ℝ) : EReal)

/-- The sum of squared deviations of tile `t` about its own mean. -/
def tileM2 (x : Fin 50000 → EReal) (t : Fin 25) : EReal :=
  ∑ r : Fin 2000, (x (row t r) - tileMean x t) * (x (row t r) - tileMean x t)

/-- The mean of the tile means. -/
def meanK (x : Fin 50000 → EReal) : EReal :=
  Ideal.div (∑ t : Fin 25, tileMean x t) ((25 : ℝ) : EReal)

/-- The variance by the parallel combination of the tiles, clamped below at zero. -/
def varK (x : Fin 50000 → EReal) : EReal :=
  max (Ideal.div ((∑ t : Fin 25, tileM2 x t)
        + ((2000 : ℝ) : EReal) * ∑ t : Fin 25, (tileMean x t - meanK x) * (tileMean x t - meanK x))
      ((50000 : ℝ) : EReal)) 0

/-- The mean of the whole column. -/
def meanR (x : Fin 50000 → EReal) : EReal :=
  Ideal.div (∑ i : Fin 50000, x i) ((50000 : ℝ) : EReal)

/-- The mean squared deviation of the whole column about its mean. -/
def varR (x : Fin 50000 → EReal) : EReal :=
  Ideal.div (∑ i : Fin 50000, (x i - meanR x) * (x i - meanR x)) ((50000 : ℝ) : EReal)

/-- A sum over the 50000 rows is the sum over the tiles of the sums over each tile's rows. -/
theorem sum_rows {M : Type*} [AddCommMonoid M] (g : Fin 50000 → M) :
    ∑ i : Fin 50000, g i = ∑ t : Fin 25, ∑ r : Fin 2000, g (row t r) :=
  Cert.LibChan.sum_tiles 25 2000 g

/-- On a column of real numbers the tiled statistics are the population statistics, which are real numbers, the
    variance not negative. -/
theorem stats_eq (x : Fin 50000 → EReal) (hx : ∀ i, ∃ a : ℝ, x i = (a : EReal)) :
    meanK x = meanR x ∧ varK x = varR x
      ∧ ∃ a v : ℝ, meanR x = (a : EReal) ∧ varR x = (v : EReal) ∧ 0 ≤ v := by
  choose f hf using hx
  have h := Cert.LibChan.chan_ereal (T := Fin 25) (R := Fin 2000) (fun t r => x (row t r)) (fun t r => f (row t r))
    2000 25 (fun t r => hf (row t r)) (by simp) (by simp) (by norm_num) (by norm_num)
  have e : ((25 * 2000 : ℝ) : EReal) = ((50000 : ℝ) : EReal) := by norm_num
  have hm : meanK x = Cert.LibChan.meanE (fun t r => x (row t r)) 2000 25 := rfl
  have hmr : meanR x = Cert.LibChan.muRef (fun t r => x (row t r)) 2000 25 := by
    unfold meanR Cert.LibChan.muRef; rw [e, sum_rows]
  have hv : varK x = Cert.LibChan.varE (fun t r => x (row t r)) 2000 25 := by
    unfold varK Cert.LibChan.varE; rw [e]; rfl
  have hvr : varR x = Cert.LibChan.varRef (fun t r => x (row t r)) 2000 25 := by
    unfold varR Cert.LibChan.varRef; rw [e, sum_rows (fun i => (x i - meanR x) * (x i - meanR x)), hmr]
  rw [hm, hmr, hv, hvr]
  exact h

/-! ## One normalised, rectified entry -/

/-- The normalised and rectified entry. -/
def bnrelu (eps g x mean var b : EReal) : EReal :=
  max (g * (x - mean) * Ideal.rsqrt (var + eps) + b) 0

/-- It is a real number when its inputs are, the variance not negative and the stabiliser positive. -/
theorem bnrelu_real (eps g x mean var b : ℝ) (hv : 0 ≤ var) (he : 0 < eps) :
    ∃ a : ℝ, bnrelu (eps : EReal) g x mean var b = (a : EReal) := by
  refine ⟨max (g * (x - mean) * (Real.sqrt (var + eps))⁻¹ + b) 0, ?_⟩
  unfold bnrelu
  rw [Cert.LibRealLift.add_coe var eps, Cert.LibRealLift.rsqrt_coe_pos (var + eps) (by linarith),
    Cert.LibRealLift.sub_coe, Cert.LibRealLift.mul_coe, Cert.LibRealLift.mul_coe, Cert.LibRealLift.add_coe]
  exact (Cert.LibRealLift.max_coe _ 0)

/-! ## Log-softmax of a row with padded lanes -/

/-- Log-softmax of a row: each entry minus the row's maximum, minus the logarithm of the sum of the exponentials
    of the entries so shifted. -/
def logSoftmax {n : ℕ} (x : Fin n → EReal) (j : Fin n) : EReal :=
  (x j - (Finset.univ : Finset (Fin n)).fold max ⊥ x)
    - Ideal.log (∑ k : Fin n, Ideal.exp (x k - (Finset.univ : Finset (Fin n)).fold max ⊥ x))

/-- Lanes holding minus infinity after the first 47 do not change the log-softmax of the first 47 lanes. -/
theorem logSoftmax_pad (x : Fin 128 → EReal) (v : Fin 47 → EReal)
    (hlo : ∀ j : Fin 47, x ⟨j.val, by omega⟩ = v j) (hhi : ∀ j : Fin 128, 47 ≤ j.val → x j = ⊥) (j : Fin 47) :
    logSoftmax x ⟨j.val, by omega⟩ = logSoftmax v j := by
  unfold logSoftmax
  rw [Cert.LibSoftmaxPad.fold_max_pad 47 128 (by norm_num) x v hlo hhi,
    Cert.LibSoftmaxPad.sumexp_pad 47 128 (by norm_num) x v hlo hhi, hlo j]

end Cert.Spec

end
-- ==== Proof.LibColumn.lean ====
/-
A column read through layout operations.

A column of `a` entries is stored either as a vector of shape `[a]` or as a matrix of shape
`[a, 1]`.  Reshaping between the two keeps entry `p` at row `p` (the only column being
column `0`), and stretching the `[a, 1]` matrix to `[a, b]` repeats entry `p` along row
`p`: the result at `(p, q)` is the column at `(p, 0)`.  The same holds when the stretch or the
added unit axis is written as a broadcast along named axes, and a vector of `b` entries placed
along the second axis of a `[1, b]` matrix keeps entry `q` at `(0, q)`.
-/
import Idealize.ShloMosaic.Lib.ValueLayout
import Idealize.ShloMosaic.Lib.Pipeline.Value
import Idealize.ShloMosaic.Lib.ValueIdx

namespace Cert.LibColumn

open Idealize.ShloMosaic Idealize.ShloMosaic.ValueIdx

variable {α : Type}

/-! ### Reshaping between a vector and a one-column matrix -/

/-- An `[a]` vector reshaped to `[a, 1]` reads, at `(p, u)`, the vector at `p`, whatever the
    unit coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` matrix reshaped to `[a]` reads, at `p`, the matrix at `(p, 0)`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-! ### Stretching a one-column matrix along its rows -/

/-- An `[a, 1]` matrix stretched to `[a, b]` reads, at `(p, q)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The same at an index not yet split into coordinates: the result at `j` is the column at
    `(j 0, 0)`. -/
theorem broadcastTo_a1_ab_apply' {a b : ℕ} (v : (⟨2, ![a, 1]⟩ : Shape).Idx → α)
    (h : (⟨2, ![a, 1]⟩ : Shape).Broadcasts ⟨2, ![a, b]⟩) (j : (⟨2, ![a, b]⟩ : Shape).Idx) :
    broadcastTo ⟨2, ![a, b]⟩ v h j = v (ix2 (j 0) (0 : Fin 1)) := by
  obtain ⟨p, q, rfl⟩ : ∃ (p : Fin a) (q : Fin b), j = ix2 p q := ⟨j 0, j 1, eq_ix2 j⟩
  exact broadcastTo_a1_ab_apply v h p q

/-! ### The same operations written as broadcasts along named axes -/

/-- An `[a]` vector broadcast into `[a, 1]` along axis `0` reads, at `(p, u)`, the vector at
    `p`. -/
theorem broadcastInDim_a_a1_apply {a : ℕ}
    (h : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` matrix broadcast into `[a, b]` along axes `0, 1` reads, at `(p, q)`, the column
    at `(p, 0)`. -/
theorem broadcastInDim_a1_ab_apply {a b : ℕ}
    (h : (⟨2, ![a, 1]⟩ : Shape).BroadcastsInDim ⟨2, ![a, b]⟩ ![0, 1])
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A `[b]` vector broadcast into `[1, b]` along axis `1` reads, at `(u, q)`, the vector at
    `q`. -/
theorem broadcastInDim_b_1b_apply {b : ℕ}
    (h : (⟨1, ![b]⟩ : Shape).BroadcastsInDim ⟨2, ![1, b]⟩ ![1])
    (x : (⟨1, ![b]⟩ : Shape).Idx → α) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

end Cert.LibColumn
-- ==== Proof.PayLin.lean ====
/-
The linear layer with batch statistics, read one entry at a time.

For a tile of 2000 rows, entry `(p, q)` of the linear body is the aggregate row `p` scaled by
that row's inverse degree and multiplied into column `q` of the left weights, plus feature row
`p` multiplied into column `q` of the right weights, plus the bias at `q`.  The tile's column
mean at `q` is the sum of the body over the 2000 rows times `1 / 2000`, and the tile's sum of
squared deviations at `q` is the sum over the rows of the squared difference between the body
and that mean.  All sums are sums of extended reals.
-/
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import proofs.«165127_j7773890805925_2_alg».proof.Proof.Gen.KernelIdeal.Skeleton
import proofs.«165127_j7773890805925_2_alg».proof.Proof.LibColumn

noncomputable section

namespace Cert.KernelIdeal.PayLin

open Cert.KernelIdeal Cert.KernelIdeal.Gen Idealize.ShloMosaic Idealize.ShloMosaic.ValueIdx
open scoped BigOperators

/-- A plain matrix product (rows by columns, one contracted axis) accumulated into the zero
    array reads, at `(i, j)`, the sum over the contracted coordinate `c` of the left operand at
    `(i, c)` times the right operand at `(c, j)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (i : Fin m) (j : Fin n) :
    matmul (⟨[1], [0], [0], [1], [], [], w⟩ : DotDims _ _ _) prec A B
        (constant ⟨2, ![m, n]⟩ .f32 0x00000000#32) (ix2 i j)
      = ∑ c : Fin k, A (ix2 i c) * B (ix2 c j) := by
  show FloatOps.matmul _ prec A B (constant ⟨2, ![m, n]⟩ .f32 0x00000000#32) (ix2 i j) = _
  rw [Ideal.matmul_constant_zero_apply,
    ← Equiv.sum_comp (contrEquiv1 (⟨[1], [0], [0], [1], [], [], w⟩ : DotDims _ _ _) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 i j)
      ((contrEquiv1 _ k rfl rfl).symm c) = ix2 i c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 i j)
      ((contrEquiv1 _ k rfl rfl).symm c) = ix2 c j := by
    funext ax; apply Fin.ext
    match ax with
    | ⟨0, _⟩ => simp [DotDims.rhsIdx]; exact hc
    | ⟨1, _⟩ => simp [DotDims.rhsIdx]; rfl
  rw [hl, hr]

/-- The linear body of the first kernel at row `p`, column `q`: the aggregate row scaled by the
    row's inverse degree times the left weights, plus the feature row times the right weights,
    plus the bias. -/
theorem lin0_apply (a x : Vec Ideal S2000x128 .f32) (inv : Vec Ideal S2000x1 .f32)
    (wl wr : Vec Ideal S128x256 .f32) (b : Vec Ideal S1x256 .f32) (p : Fin 2000) (q : Fin 256) :
    k0_pay1 a inv x wl wr b (ix2 p q)
      = (∑ k : Fin 128, (a (ix2 p k) * inv (ix2 p (0 : Fin 1))) * wl (ix2 k q))
        + (∑ k : Fin 128, x (ix2 p k) * wr (ix2 k q)) + b (ix2 (0 : Fin 1) q) := by
  unfold k0_pay1
  simp only [shapeCast_self]
  rw [addf_apply, addf_apply, broadcastTo_1b_ab_apply b]
  refine congrArg₂ (· + ·) (congrArg₂ (· + ·) ?_ ?_) rfl
  · refine (matmul_plain_zero_apply _ none _ _ p q).trans ?_
    refine Finset.sum_congr rfl fun k _ => ?_
    rw [truncf_apply, truncf_apply, mulf_apply, Cert.LibColumn.broadcastTo_a1_ab_apply]
  · refine (matmul_plain_zero_apply _ none _ _ p q).trans ?_
    refine Finset.sum_congr rfl fun k _ => ?_
    rw [truncf_apply, truncf_apply]

/-- Summing a matrix over its rows: the index of row `r` above the reduced index `q` is
    `(r, q)`. -/
theorem lift_rows {m n : ℕ} (h : (⟨2, ![m, n]⟩ : Shape).Reduces [0] ⟨1, ![n]⟩) (q : Fin n) (r : Fin m) :
    h.lift (ix1 q) r = ix2 r q := by
  funext ax; apply Fin.ext
  match ax with
  | ⟨0, _⟩ => rfl
  | ⟨1, _⟩ => rfl

/-- A sum over the rows of a matrix read at column `q` is the sum over `r` of the entries
    `(r, q)`. -/
theorem rowsum_apply {m n : ℕ} (src : FVec Ideal ⟨2, ![m, n]⟩ .f32)
    (h : (⟨2, ![m, n]⟩ : Shape).Reduces [0] ⟨1, ![n]⟩) (hφ : FKind.Formats .f32)
    (hacc : (0x00000000#32 : BitVec 32) = FKind.add.neutral .f32 hφ) (q : Fin n) :
    multiReduction .add [0] ⟨1, ![n]⟩ src 0x00000000#32 h hφ hacc (ix1 q) = ∑ r : Fin m, src (ix2 r q) := by
  refine (Ideal.multiReduction_add_single src 0x00000000#32 h hφ hacc (ix1 q)).trans ?_
  exact Finset.sum_congr rfl fun r _ => congrArg src (lift_rows h q r)

/-- The named constant `inv_2000` is the real number `1 / 2000`. -/
theorem inv_2000_eq :
    Named.named (F := Ideal) κ "inv_2000" (φ := .f32) 0x3A03126F#32 = ((1 / 2000 : ℝ) : EReal) :=
  IdealRules.named_const.ideal_named_scalar _ _ _ _ rfl

/-- The column means of the first kernel's linear body: the sum over the 2000 rows times
    `1 / 2000`. -/
theorem mean0_apply (a x : Vec Ideal S2000x128 .f32) (inv : Vec Ideal S2000x1 .f32)
    (wl wr : Vec Ideal S128x256 .f32) (b : Vec Ideal S1x256 .f32) (q : Fin 256) :
    k0_pay2 a inv x wl wr b (ix2 (0 : Fin 1) q)
      = (∑ r : Fin 2000, k0_pay1 a inv x wl wr b (ix2 r q)) * ((1 / 2000 : ℝ) : EReal) := by
  unfold k0_pay2
  rw [mulf_apply, broadcast_apply]
  refine congrArg₂ (· * ·) ?_ inv_2000_eq
  refine (shapeCast_a_1a_apply _ _ (0 : Fin 1) q).trans ?_
  exact rowsum_apply _ _ _ _ q

/-- The stored per-tile mean is the column mean. -/
theorem meanp0_apply (a x : Vec Ideal S2000x128 .f32) (inv : Vec Ideal S2000x1 .f32)
    (wl wr : Vec Ideal S128x256 .f32) (b : Vec Ideal S1x256 .f32) (q : Fin 256) :
    k0_pay3 a inv x wl wr b (ix3 (0 : Fin 1) (0 : Fin 1) q) = k0_pay2 a inv x wl wr b (ix2 (0 : Fin 1) q) := by
  unfold k0_pay3
  exact shapeCast_ab_1ab_apply _ _ (0 : Fin 1) (0 : Fin 1) q

/-- The stored per-tile sum of squared deviations: the sum over the 2000 rows of the squared
    difference between the linear body and its column mean. -/
theorem m2p0_apply (a x : Vec Ideal S2000x128 .f32) (inv : Vec Ideal S2000x1 .f32)
    (wl wr : Vec Ideal S128x256 .f32) (b : Vec Ideal S1x256 .f32) (q : Fin 256) :
    k0_pay4 a inv x wl wr b (ix3 (0 : Fin 1) (0 : Fin 1) q)
      = ∑ r : Fin 2000,
          (k0_pay1 a inv x wl wr b (ix2 r q) - k0_pay2 a inv x wl wr b (ix2 (0 : Fin 1) q))
          * (k0_pay1 a inv x wl wr b (ix2 r q) - k0_pay2 a inv x wl wr b (ix2 (0 : Fin 1) q)) := by
  unfold k0_pay4
  refine (shapeCast_ab_1ab_apply _ _ (0 : Fin 1) (0 : Fin 1) q).trans ?_
  refine (shapeCast_a_1a_apply _ _ (0 : Fin 1) q).trans ?_
  refine (rowsum_apply _ _ _ _ q).trans ?_
  refine Finset.sum_congr rfl fun r _ => ?_
  rw [mulf_apply, subf_apply, broadcastTo_1b_ab_apply]

/-! ### The third kernel: the same body at inner width 256 -/

/-- The linear body of the third kernel at row `p`, column `q`: the aggregate row scaled by the
    row's inverse degree times the left weights, plus the feature row times the right weights,
    plus the bias. -/
theorem lin2_apply (a x : Vec Ideal S2000x256 .f32) (inv : Vec Ideal S2000x1 .f32)
    (wl wr : Vec Ideal S256x256 .f32) (b : Vec Ideal S1x256 .f32) (p : Fin 2000) (q : Fin 256) :
    k2_pay1 a inv x wl wr b (ix2 p q)
      = (∑ k : Fin 256, (a (ix2 p k) * inv (ix2 p (0 : Fin 1))) * wl (ix2 k q))
        + (∑ k : Fin 256, x (ix2 p k) * wr (ix2 k q)) + b (ix2 (0 : Fin 1) q) := by
  unfold k2_pay1
  simp only [shapeCast_self]
  rw [addf_apply, addf_apply, broadcastTo_1b_ab_apply b]
  refine congrArg₂ (· + ·) (congrArg₂ (· + ·) ?_ ?_) rfl
  · refine (matmul_plain_zero_apply _ none _ _ p q).trans ?_
    refine Finset.sum_congr rfl fun k _ => ?_
    rw [truncf_apply, truncf_apply, mulf_apply, Cert.LibColumn.broadcastTo_a1_ab_apply]
  · refine (matmul_plain_zero_apply _ none _ _ p q).trans ?_
    refine Finset.sum_congr rfl fun k _ => ?_
    rw [truncf_apply, truncf_apply]

/-- The column means of the third kernel's linear body: the sum over the 2000 rows times
    `1 / 2000`. -/
theorem mean2_apply (a x : Vec Ideal S2000x256 .f32) (inv : Vec Ideal S2000x1 .f32)
    (wl wr : Vec Ideal S256x256 .f32) (b : Vec Ideal S1x256 .f32) (q : Fin 256) :
    k2_pay2 a inv x wl wr b (ix2 (0 : Fin 1) q)
      = (∑ r : Fin 2000, k2_pay1 a inv x wl wr b (ix2 r q)) * ((1 / 2000 : ℝ) : EReal) := by
  unfold k2_pay2
  rw [mulf_apply, broadcast_apply]
  refine congrArg₂ (· * ·) ?_ inv_2000_eq
  refine (shapeCast_a_1a_apply _ _ (0 : Fin 1) q).trans ?_
  exact rowsum_apply _ _ _ _ q

/-- The stored per-tile mean is the column mean. -/
theorem meanp2_apply (a x : Vec Ideal S2000x256 .f32) (inv : Vec Ideal S2000x1 .f32)
    (wl wr : Vec Ideal S256x256 .f32) (b : Vec Ideal S1x256 .f32) (q : Fin 256) :
    k2_pay3 a inv x wl wr b (ix3 (0 : Fin 1) (0 : Fin 1) q) = k2_pay2 a inv x wl wr b (ix2 (0 : Fin 1) q) := by
  unfold k2_pay3
  exact shapeCast_ab_1ab_apply _ _ (0 : Fin 1) (0 : Fin 1) q

/-- The stored per-tile sum of squared deviations: the sum over the 2000 rows of the squared
    difference between the linear body and its column mean. -/
theorem m2p2_apply (a x : Vec Ideal S2000x256 .f32) (inv : Vec Ideal S2000x1 .f32)
    (wl wr : Vec Ideal S256x256 .f32) (b : Vec Ideal S1x256 .f32) (q : Fin 256) :
    k2_pay4 a inv x wl wr b (ix3 (0 : Fin 1) (0 : Fin 1) q)
      = ∑ r : Fin 2000,
          (k2_pay1 a inv x wl wr b (ix2 r q) - k2_pay2 a inv x wl wr b (ix2 (0 : Fin 1) q))
          * (k2_pay1 a inv x wl wr b (ix2 r q) - k2_pay2 a inv x wl wr b (ix2 (0 : Fin 1) q)) := by
  unfold k2_pay4
  refine (shapeCast_ab_1ab_apply _ _ (0 : Fin 1) (0 : Fin 1) q).trans ?_
  refine (shapeCast_a_1a_apply _ _ (0 : Fin 1) q).trans ?_
  refine (rowsum_apply _ _ _ _ q).trans ?_
  refine Finset.sum_congr rfl fun r _ => ?_
  rw [mulf_apply, subf_apply, broadcastTo_1b_ab_apply]

end Cert.KernelIdeal.PayLin
-- ==== Proof.Lin0.lean ====
/-
  The first linear-and-statistics region as functions of the arrays it finds.

  The region's grid has 25 points; point t stages rows 2000 t … 2000 t + 1999 of the aggregated features, of the
  features and of the inverse-degree column, the two weight matrices and the bias row whole, and writes back the same
  rows of the linear output together with row t of two 25-row arrays of per-tile statistics.  Row i of the linear
  output is  sum_k (agg_ik inv_i) wl_kj + sum_k x_ik wr_kj + b_j : it reads row i of the staged rows only, so the block
  a point writes is the restriction to its rows of ONE function of the whole arrays.  Row t of the first statistics
  array is the mean of tile t of each column of that function (the column's sum over the tile times 1/2000), row t
  of the second the sum of squared deviations of the tile about that mean.  The blocks cover the three output
  arrays, so after the region these hold those functions.
-/
import proofs.«165127_j7773890805925_2_alg».proof.Proof.Gen.KernelIdeal.Frame
import proofs.«165127_j7773890805925_2_alg».proof.Proof.Spec
import proofs.«165127_j7773890805925_2_alg».proof.Proof.PayLin
import Idealize.ShloMosaic.Lib.ValueIdx
import Idealize.ShloMosaic.PureOps.Ideal.Laws
import Idealize.ShloMosaic.Lib.ValueLayout
import Idealize.ShloMosaic.Lib.Pipeline.Value

set_option maxRecDepth 16384
set_option maxHeartbeats 1600000

noncomputable section

namespace Cert.KernelIdeal.Lin0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Entry (i, j) of the layer's linear output, from the whole arrays. -/
def L (agg x : S50000x128.Idx → EReal) (inv : S50000x1.Idx → EReal) (wl wr : S128x256.Idx → EReal)
    (b : S1x256.Idx → EReal) (i : Fin 50000) (j : Fin 256) : EReal :=
  (∑ k : Fin 128, (agg (ix2 i k) * inv (ix2 i (0 : Fin 1))) * wl (ix2 k j))
    + (∑ k : Fin 128, x (ix2 i k) * wr (ix2 k j)) + b (ix2 (0 : Fin 1) j)

/-- The linear output array. -/
def G6 (agg x : S50000x128.Idx → EReal) (inv : S50000x1.Idx → EReal) (wl wr : S128x256.Idx → EReal)
    (b : S1x256.Idx → EReal) : S50000x256.Idx → EReal :=
  fun i => L agg x inv wl wr b ⟨(i 0).val, idx2_lt0 i⟩ ⟨(i 1).val, idx2_lt1 i⟩

/-- The per-tile means: row t holds the mean of tile t of each column. -/
def G7 (agg x : S50000x128.Idx → EReal) (inv : S50000x1.Idx → EReal) (wl wr : S128x256.Idx → EReal)
    (b : S1x256.Idx → EReal) : S25x1x256.Idx → EReal :=
  fun i => Cert.Spec.tileMean (fun r => L agg x inv wl wr b r ⟨(i 2).val, (i 2).isLt⟩) ⟨(i 0).val, (i 0).isLt⟩

/-- The per-tile sums of squared deviations about the tile's mean. -/
def G8 (agg x : S50000x128.Idx → EReal) (inv : S50000x1.Idx → EReal) (wl wr : S128x256.Idx → EReal)
    (b : S1x256.Idx → EReal) : S25x1x256.Idx → EReal :=
  fun i => Cert.Spec.tileM2 (fun r => L agg x inv wl wr b r ⟨(i 2).val, (i 2).isLt⟩) ⟨(i 0).val, (i 0).isLt⟩

/-- The entry depends on its row and column through their values only. -/
theorem L_congr (agg x : S50000x128.Idx → EReal) (inv : S50000x1.Idx → EReal) (wl wr : S128x256.Idx → EReal)
    (b : S1x256.Idx → EReal) {i i' : Fin 50000} {j j' : Fin 256} (hi : i.val = i'.val) (hj : j.val = j'.val) :
    L agg x inv wl wr b i j = L agg x inv wl wr b i' j' := by rw [Fin.ext hi, Fin.ext hj]

theorem hz2 : (![0, 0] : Fin 2 → Nat) = fun _ => 0 := funext fun a => by fin_cases a <;> rfl
theorem hz3 : (![0, 0, 0] : Fin 3 → Nat) = fun _ => 0 := funext fun a => by fin_cases a <;> rfl

variable (V : (c : Dev nD) → (b : Ref sig .tc) → Buf (Elt Ideal) ((c : Thread nD τ).loc b))

/-- The printed index maps, decided over the grid: the row windows sit at tile t, the whole windows at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 3) = t.val ∧ win0_7.index t (1 : Fin 3) = 0 ∧ win0_7.index t (2 : Fin 3) = 0
    ∧ win0_8.index t (0 : Fin 3) = t.val ∧ win0_8.index t (1 : Fin 3) = 0 ∧ win0_8.index t (2 : Fin 3) = 0 :=
  (by decide +kernel : ∀ t : Fin grid0.N, _)

/-- A point of the grid as a tile number. -/
abbrev tile (t : Fin cfg0.N) : Fin 25 := ⟨t.val, by have := t.isLt; have h : cfg0.N = 25 := N_0; omega⟩

/-- The body's linear payload at row r of the block of point t is the whole-array entry at row r of tile t. -/
theorem pay1_at (c : Dev nD) (t : Fin cfg0.N) (r : Fin 2000) (q : Fin 256) :
    k0_pay1 (iblk0 V c 0 t) (iblk0 V c 2 t) (iblk0 V c 1 t) (iblk0 V c 3 t) (iblk0 V c 4 t) (iblk0 V c 5 t) (ix2 r q)
      = L (V c main_v22) (V c main_arg0) (V c main_v12) (V c main_arg2) (V c main_arg3) (V c main_v23)
          (Cert.Spec.row (tile t) r) q := by
  obtain ⟨a0, a1, b0, b1, c0, c1, d0, d1, e0, e1, f0, f1, g0, g1, h0, h1, h2, i0, i1, i2⟩ := idx_facts t
  refine (Cert.KernelIdeal.PayLin.lin0_apply _ _ _ _ _ _ r q).trans ?_
  have hb0 : ∀ k : Fin 128, iblk0 V c 0 t (ix2 r k) = V c main_v22 (ix2 (Cert.Spec.row (tile t) r) k) := fun k => by
    show V c main_v22 (((cfg0.win 0).blk t).view.emb (ix2 r k)) = V c main_v22 (ix2 (Cert.Spec.row (tile t) r) k)
    refine congrArg _ (funext fun a => Fin.ext ?_)
    match a with
    | ⟨0, _⟩ => show win0_0.index t (0 : Fin 2) * 2000 + 1 * r.val = t.val * 2000 + r.val; omega
    | ⟨1, _⟩ => show win0_0.index t (1 : Fin 2) * 128 + 1 * k.val = k.val; omega
  have hb1 : ∀ k : Fin 128, iblk0 V c 1 t (ix2 r k) = V c main_arg0 (ix2 (Cert.Spec.row (tile t) r) k) := fun k => by
    show V c main_arg0 (((cfg0.win 1).blk t).view.emb (ix2 r k)) = V c main_arg0 (ix2 (Cert.Spec.row (tile t) r) k)
    refine congrArg _ (funext fun a => Fin.ext ?_)
    match a with
    | ⟨0, _⟩ => show win0_1.index t (0 : Fin 2) * 2000 + 1 * r.val = t.val * 2000 + r.val; omega
    | ⟨1, _⟩ => show win0_1.index t (1 : Fin 2) * 128 + 1 * k.val = k.val; omega
  have hb2 : iblk0 V c 2 t (ix2 r (0 : Fin 1)) = V c main_v12 (ix2 (Cert.Spec.row (tile t) r) (0 : Fin 1)) := by
    show V c main_v12 (((cfg0.win 2).blk t).view.emb (ix2 r (0 : Fin 1))) = V c main_v12 (ix2 (Cert.Spec.row (tile t) r) (0 : Fin 1))
    refine congrArg _ (funext fun a => Fin.ext ?_)
    match a with
    | ⟨0, _⟩ => show win0_2.index t (0 : Fin 2) * 2000 + 1 * r.val = t.val * 2000 + r.val; omega
    | ⟨1, _⟩ => show win0_2.index t (1 : Fin 2) * 1 + 1 * 0 = 0; omega
  have hb3 : ∀ k : Fin 128, iblk0 V c 3 t (ix2 k q) = V c main_arg2 (ix2 k q) := fun k => by
    show V c main_arg2 (((cfg0.win 3).blk t).view.emb (ix2 k q)) = V c main_arg2 (ix2 k q)
    refine congrArg _ (funext fun a => Fin.ext ?_)
    match a with
    | ⟨0, _⟩ => show win0_3.index t (0 : Fin 2) * 128 + 1 * k.val = k.val; omega
    | ⟨1, _⟩ => show win0_3.index t (1 : Fin 2) * 256 + 1 * q.val = q.val; omega
  have hb4 : ∀ k : Fin 128, iblk0 V c 4 t (ix2 k q) = V c main_arg3 (ix2 k q) := fun k => by
    show V c main_arg3 (((cfg0.win 4).blk t).view.emb (ix2 k q)) = V c main_arg3 (ix2 k q)
    refine congrArg _ (funext fun a => Fin.ext ?_)
    match a with
    | ⟨0, _⟩ => show win0_4.index t (0 : Fin 2) * 128 + 1 * k.val = k.val; omega
    | ⟨1, _⟩ => show win0_4.index t (1 : Fin 2) * 256 + 1 * q.val = q.val; omega
  have hb5 : iblk0 V c 5 t (ix2 (0 : Fin 1) q) = V c main_v23 (ix2 (0 : Fin 1) q) := by
    show V c main_v23 (((cfg0.win 5).blk t).view.emb (ix2 (0 : Fin 1) q)) = V c main_v23 (ix2 (0 : Fin 1) q)
    refine congrArg _ (funext fun a => Fin.ext ?_)
    match a with
    | ⟨0, _⟩ => show win0_5.index t (0 : Fin 2) * 1 + 1 * 0 = 0; omega
    | ⟨1, _⟩ => show win0_5.index t (1 : Fin 2) * 256 + 1 * q.val = q.val; omega
  unfold L
  rw [hb2, hb5]
  refine congrArg₂ (· + ·) (congrArg₂ (· + ·) (Finset.sum_congr rfl fun k _ => ?_) (Finset.sum_congr rfl fun k _ => ?_)) rfl
  · rw [hb0 k, hb3 k]
  · rw [hb1 k, hb4 k]

/-- What point t writes back to the linear output is block t of `G6`. -/
theorem flushed6_eq (c : Dev nD) (t : Fin cfg0.N) :
    (dat0 V c).flushed 6 t = ((cfg0.win 6).blk t).view.read (Elt Ideal)
      (G6 (V c main_v22) (V c main_arg0) (V c main_v12) (V c main_arg2) (V c main_arg3) (V c main_v23)) := by
  show (cfg0.win 6).cut (grid0.coords t) ((dat0 V c).after 6 t) = _
  rw [after0_6]
  unfold out0_6
  rw [View.canon_unit_zero hz2]
  simp only [View.ld_unit_zero (S := S2000x128) hz2, View.ld_unit_zero (S := S2000x1) hz2, View.ld_unit_zero (S := S128x256) hz2,
    View.ld_unit_zero (S := S1x256) hz2]
  obtain ⟨a0, a1, b0, b1, c0, c1, d0, d1, e0, e1, f0, f1, g0, g1, h0, h1, h2, i0, i1, i2⟩ := idx_facts t
  funext j
  obtain ⟨p, q, rfl⟩ : ∃ (p : Fin 2000) (q : Fin 256), j = ix2 p q := ⟨j 0, j 1, eq_ix2 j⟩
  show k0_pay1 (iblk0 V c 0 t) (iblk0 V c 2 t) (iblk0 V c 1 t) (iblk0 V c 3 t) (iblk0 V c 4 t) (iblk0 V c 5 t) (ix2 p q)
    = G6 (V c main_v22) (V c main_arg0) (V c main_v12) (V c main_arg2) (V c main_arg3) (V c main_v23) (((cfg0.win 6).blk t).view.emb (ix2 p q))
  refine (pay1_at V c t p q).trans ?_
  unfold G6
  exact L_congr _ _ _ _ _ _ (show t.val * 2000 + p.val = win0_6.index t (0 : Fin 2) * 2000 + 1 * p.val by omega)
    (show q.val = win0_6.index t (1 : Fin 2) * 256 + 1 * q.val by omega)

/-- An index of the linear output is in point t's block iff each coordinate is in the block's range on its axis. -/
theorem mem_blk6 (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v24_0).slice (win0_6.rect t)).set ↔ _
  rw [View.set_slice_whole, Rect.mem_set_unit]
  exact Iff.rfl

/-- Every entry of the linear output lies in the block of the point its row's tile names. -/
theorem cover6 (i : S50000x256.Idx) : ∃ t : Fin cfg0.N, (cfg0.win 6).flush t = true ∧ i ∈ ((cfg0.win 6).blk t).view.set := by
  have hi0 : (i 0).val < 50000 := idx2_lt0 i
  have hi1 : (i 1).val < 256 := idx2_lt1 i
  have hN : cfg0.N = 25 := N_0
  refine ⟨⟨(i 0).val / 2000, by rw [hN]; omega⟩, flush0_6 _, ?_⟩
  rw [mem_blk6]
  obtain ⟨a0, a1, b0, b1, c0, c1, d0, d1, e0, e1, f0, f1, g0, g1, h0, h1, h2, i0, i1, i2⟩ := idx_facts ⟨(i 0).val / 2000, by rw [hN]; omega⟩
  intro a
  match a with
  | ⟨0, _⟩ =>
    show win0_6.index _ (0 : Fin 2) * 2000 ≤ (i 0).val ∧ (i 0).val < win0_6.index _ (0 : Fin 2) * 2000 + 2000
    rw [g0]; show (i 0).val / 2000 * 2000 ≤ (i 0).val ∧ (i 0).val < (i 0).val / 2000 * 2000 + 2000; omega
  | ⟨1, _⟩ =>
    show win0_6.index _ (1 : Fin 2) * 256 ≤ (i 1).val ∧ (i 1).val < win0_6.index _ (1 : Fin 2) * 256 + 256
    rw [g1]; omega

/-- After the region the linear output is `G6` of the arrays the region found. -/
theorem final6 (c : Dev nD) : (dat0 V c).arrAt 6 cfg0.N = G6 (V c main_v22) (V c main_arg0) (V c main_v12) (V c main_arg2) (V c main_arg3) (V c main_v23) :=
  (dat0 V c).arrAt_eq_of_cover 6 _ (fun t _ => flushed6_eq V c t) cover6

/-- Row T, column Q of the per-tile means. -/
theorem G7_apply (agg x : S50000x128.Idx → EReal) (inv : S50000x1.Idx → EReal) (wl wr : S128x256.Idx → EReal)
    (b : S1x256.Idx → EReal) (T : Fin 25) (Q : Fin 256) (i : S25x1x256.Idx) (h0 : (i 0).val = T.val) (h2 : (i 2).val = Q.val) :
    G7 agg x inv wl wr b i = Cert.Spec.tileMean (fun r => L agg x inv wl wr b r Q) T := by
  unfold G7
  rw [show (⟨(i 0).val, (i 0).isLt⟩ : Fin 25) = T from Fin.ext h0, show (⟨(i 2).val, (i 2).isLt⟩ : Fin 256) = Q from Fin.ext h2]

/-- Row T, column Q of the per-tile sums of squared deviations. -/
theorem G8_apply (agg x : S50000x128.Idx → EReal) (inv : S50000x1.Idx → EReal) (wl wr : S128x256.Idx → EReal)
    (b : S1x256.Idx → EReal) (T : Fin 25) (Q : Fin 256) (i : S25x1x256.Idx) (h0 : (i 0).val = T.val) (h2 : (i 2).val = Q.val) :
    G8 agg x inv wl wr b i = Cert.Spec.tileM2 (fun r => L agg x inv wl wr b r Q) T := by
  unfold G8
  rw [show (⟨(i 0).val, (i 0).isLt⟩ : Fin 25) = T from Fin.ext h0, show (⟨(i 2).val, (i 2).isLt⟩ : Fin 256) = Q from Fin.ext h2]

/-- The body's tile mean at column q, at point t, is the mean of tile t of column q of the linear output. -/
theorem pay2_at (c : Dev nD) (t : Fin cfg0.N) (q : Fin 256) :
    k0_pay2 (iblk0 V c 0 t) (iblk0 V c 2 t) (iblk0 V c 1 t) (iblk0 V c 3 t) (iblk0 V c 4 t) (iblk0 V c 5 t) (ix2 (0 : Fin 1) q)
      = Cert.Spec.tileMean (fun r => L (V c main_v22) (V c main_arg0) (V c main_v12) (V c main_arg2) (V c main_arg3) (V c main_v23) r q) (tile t) := by
  refine (Cert.KernelIdeal.PayLin.mean0_apply _ _ _ _ _ _ q).trans ?_
  unfold Cert.Spec.tileMean
  exact congrArg (· * _) (Finset.sum_congr rfl fun r _ => pay1_at V c t r q)

/-- What point t writes back to statistics array 7 is block t of `G7`. -/
theorem flushed7_eq (c : Dev nD) (t : Fin cfg0.N) :
    (dat0 V c).flushed 7 t = ((cfg0.win 7).blk t).view.read (Elt Ideal) (G7 (V c main_v22) (V c main_arg0) (V c main_v12) (V c main_arg2) (V c main_arg3) (V c main_v23)) := by
  show (cfg0.win 7).cut (grid0.coords t) ((dat0 V c).after 7 t) = _
  rw [after0_7]
  unfold out0_7
  rw [View.canon_unit_zero hz3]
  simp only [View.ld_unit_zero (S := S2000x128) hz2, View.ld_unit_zero (S := S2000x1) hz2, View.ld_unit_zero (S := S128x256) hz2,
    View.ld_unit_zero (S := S1x256) hz2]
  obtain ⟨a0, a1, b0, b1, c0, c1, d0, d1, e0, e1, f0, f1, g0, g1, h0, h1, h2, i0, i1, i2⟩ := idx_facts t
  funext j
  obtain ⟨u, v, q, rfl⟩ : ∃ (u v : Fin 1) (q : Fin 256), j = ix3 u v q := ⟨j 0, j 1, j 2, eq_ix3 j⟩
  obtain rfl : u = 0 := Subsingleton.elim _ _
  obtain rfl : v = 0 := Subsingleton.elim _ _
  show k0_pay3 (iblk0 V c 0 t) (iblk0 V c 2 t) (iblk0 V c 1 t) (iblk0 V c 3 t) (iblk0 V c 4 t) (iblk0 V c 5 t) (ix3 (0 : Fin 1) (0 : Fin 1) q)
    = G7 (V c main_v22) (V c main_arg0) (V c main_v12) (V c main_arg2) (V c main_arg3) (V c main_v23) (((cfg0.win 7).blk t).view.emb (ix3 (0 : Fin 1) (0 : Fin 1) q))
  refine Eq.trans ?_ (G7_apply _ _ _ _ _ _ (tile t) q _
    (show win0_7.index t (0 : Fin 3) * 1 + 1 * 0 = t.val by omega)
    (show win0_7.index t (2 : Fin 3) * 256 + 1 * q.val = q.val by omega)).symm
  exact (Cert.KernelIdeal.PayLin.meanp0_apply _ _ _ _ _ _ q).trans (pay2_at V c t q)

/-- An index of statistics array 7 is in point t's block iff each coordinate is in the block's range on its axis. -/
theorem mem_blk7 (t : Fin cfg0.N) (i : S25x1x256.Idx) :
    i ∈ ((cfg0.win 7).blk t).view.set ↔ ∀ a : Fin 3, win0_7.index t a * S1x1x256.size a ≤ (i a).val ∧ (i a).val < win0_7.index t a * S1x1x256.size a + S1x1x256.size a := by
  show i ∈ ((View.whole main_v24_1).slice (win0_7.rect t)).set ↔ _
  rw [View.set_slice_whole, Rect.mem_set_unit]
  exact Iff.rfl

/-- Row t of statistics array 7 is point t's block. -/
theorem cover7 (i : S25x1x256.Idx) : ∃ t : Fin cfg0.N, (cfg0.win 7).flush t = true ∧ i ∈ ((cfg0.win 7).blk t).view.set := by
  have hi0 : (i 0).val < 25 := (i 0).isLt
  have hi1 : (i 1).val < 1 := (i 1).isLt
  have hi2 : (i 2).val < 256 := (i 2).isLt
  have hN : cfg0.N = 25 := N_0
  refine ⟨⟨(i 0).val, by rw [hN]; exact hi0⟩, flush0_7 _, ?_⟩
  rw [mem_blk7]
  obtain ⟨a0, a1, b0, b1, c0, c1, d0, d1, e0, e1, f0, f1, g0, g1, h0, h1, h2, i0, i1, i2⟩ := idx_facts ⟨(i 0).val, by rw [hN]; exact hi0⟩
  intro a
  match a with
  | ⟨0, _⟩ =>
    show win0_7.index _ (0 : Fin 3) * 1 ≤ (i 0).val ∧ (i 0).val < win0_7.index _ (0 : Fin 3) * 1 + 1
    rw [h0]; show (i 0).val * 1 ≤ (i 0).val ∧ (i 0).val < (i 0).val * 1 + 1; omega
  | ⟨1, _⟩ =>
    show win0_7.index _ (1 : Fin 3) * 1 ≤ (i 1).val ∧ (i 1).val < win0_7.index _ (1 : Fin 3) * 1 + 1
    rw [h1]; omega
  | ⟨2, _⟩ =>
    show win0_7.index _ (2 : Fin 3) * 256 ≤ (i 2).val ∧ (i 2).val < win0_7.index _ (2 : Fin 3) * 256 + 256
    rw [h2]; omega

/-- After the region statistics array 7 is `G7` of the arrays the region found. -/
theorem final7 (c : Dev nD) : (dat0 V c).arrAt 7 cfg0.N = G7 (V c main_v22) (V c main_arg0) (V c main_v12) (V c main_arg2) (V c main_arg3) (V c main_v23) :=
  (dat0 V c).arrAt_eq_of_cover 7 _ (fun t _ => flushed7_eq V c t) cover7

/-- What point t writes back to statistics array 8 is block t of `G8`. -/
theorem flushed8_eq (c : Dev nD) (t : Fin cfg0.N) :
    (dat0 V c).flushed 8 t = ((cfg0.win 8).blk t).view.read (Elt Ideal) (G8 (V c main_v22) (V c main_arg0) (V c main_v12) (V c main_arg2) (V c main_arg3) (V c main_v23)) := by
  show (cfg0.win 8).cut (grid0.coords t) ((dat0 V c).after 8 t) = _
  rw [after0_8]
  unfold out0_8
  rw [View.canon_unit_zero hz3]
  simp only [View.ld_unit_zero (S := S2000x128) hz2, View.ld_unit_zero (S := S2000x1) hz2, View.ld_unit_zero (S := S128x256) hz2,
    View.ld_unit_zero (S := S1x256) hz2]
  obtain ⟨a0, a1, b0, b1, c0, c1, d0, d1, e0, e1, f0, f1, g0, g1, h0, h1, h2, i0, i1, i2⟩ := idx_facts t
  funext j
  obtain ⟨u, v, q, rfl⟩ : ∃ (u v : Fin 1) (q : Fin 256), j = ix3 u v q := ⟨j 0, j 1, j 2, eq_ix3 j⟩
  obtain rfl : u = 0 := Subsingleton.elim _ _
  obtain rfl : v = 0 := Subsingleton.elim _ _
  show k0_pay4 (iblk0 V c 0 t) (iblk0 V c 2 t) (iblk0 V c 1 t) (iblk0 V c 3 t) (iblk0 V c 4 t) (iblk0 V c 5 t) (ix3 (0 : Fin 1) (0 : Fin 1) q)
    = G8 (V c main_v22) (V c main_arg0) (V c main_v12) (V c main_arg2) (V c main_arg3) (V c main_v23) (((cfg0.win 8).blk t).view.emb (ix3 (0 : Fin 1) (0 : Fin 1) q))
  refine Eq.trans ?_ (G8_apply _ _ _ _ _ _ (tile t) q _
    (show win0_8.index t (0 : Fin 3) * 1 + 1 * 0 = t.val by omega)
    (show win0_8.index t (2 : Fin 3) * 256 + 1 * q.val = q.val by omega)).symm
  refine (Cert.KernelIdeal.PayLin.m2p0_apply _ _ _ _ _ _ q).trans ?_
  unfold Cert.Spec.tileM2
  exact Finset.sum_congr rfl fun r _ => by rw [pay1_at V c t r q, pay2_at V c t q]

/-- An index of statistics array 8 is in point t's block iff each coordinate is in the block's range on its axis. -/
theorem mem_blk8 (t : Fin cfg0.N) (i : S25x1x256.Idx) :
    i ∈ ((cfg0.win 8).blk t).view.set ↔ ∀ a : Fin 3, win0_8.index t a * S1x1x256.size a ≤ (i a).val ∧ (i a).val < win0_8.index t a * S1x1x256.size a + S1x1x256.size a := by
  show i ∈ ((View.whole main_v24_2).slice (win0_8.rect t)).set ↔ _
  rw [View.set_slice_whole, Rect.mem_set_unit]
  exact Iff.rfl

/-- Row t of statistics array 8 is point t's block. -/
theorem cover8 (i : S25x1x256.Idx) : ∃ t : Fin cfg0.N, (cfg0.win 8).flush t = true ∧ i ∈ ((cfg0.win 8).blk t).view.set := by
  have hi0 : (i 0).val < 25 := (i 0).isLt
  have hi1 : (i 1).val < 1 := (i 1).isLt
  have hi2 : (i 2).val < 256 := (i 2).isLt
  have hN : cfg0.N = 25 := N_0
  refine ⟨⟨(i 0).val, by rw [hN]; exact hi0⟩, flush0_8 _, ?_⟩
  rw [mem_blk8]
  obtain ⟨a0, a1, b0, b1, c0, c1, d0, d1, e0, e1, f0, f1, g0, g1, h0, h1, h2, i0, i1, i2⟩ := idx_facts ⟨(i 0).val, by rw [hN]; exact hi0⟩
  intro a
  match a with
  | ⟨0, _⟩ =>
    show win0_8.index _ (0 : Fin 3) * 1 ≤ (i 0).val ∧ (i 0).val < win0_8.index _ (0 : Fin 3) * 1 + 1
    rw [i0]; show (i 0).val * 1 ≤ (i 0).val ∧ (i 0).val < (i 0).val * 1 + 1; omega
  | ⟨1, _⟩ =>
    show win0_8.index _ (1 : Fin 3) * 1 ≤ (i 1).val ∧ (i 1).val < win0_8.index _ (1 : Fin 3) * 1 + 1
    rw [i1]; omega
  | ⟨2, _⟩ =>
    show win0_8.index _ (2 : Fin 3) * 256 ≤ (i 2).val ∧ (i 2).val < win0_8.index _ (2 : Fin 3) * 256 + 256
    rw [i2]; omega

/-- After the region statistics array 8 is `G8` of the arrays the region found. -/
theorem final8 (c : Dev nD) : (dat0 V c).arrAt 8 cfg0.N = G8 (V c main_v22) (V c main_arg0) (V c main_v12) (V c main_arg2) (V c main_arg3) (V c main_v23) :=
  (dat0 V c).arrAt_eq_of_cover 8 _ (fun t _ => flushed8_eq V c t) cover8

end Cert.KernelIdeal.Lin0

end
-- ==== Proof.Lin2.lean ====
/-
  The second linear-and-statistics region (inner width 256): the same body as the first on other arrays, so again
  after the region its three output arrays are the linear output  sum_k (agg_ik inv_i) wl_kj + sum_k x_ik wr_kj + b_j ,
  the per-tile means of its columns and the per-tile sums of squared deviations about those means.
-/
import proofs.«165127_j7773890805925_2_alg».proof.Proof.Gen.KernelIdeal.Frame
import proofs.«165127_j7773890805925_2_alg».proof.Proof.Spec
import proofs.«165127_j7773890805925_2_alg».proof.Proof.PayLin
import Idealize.ShloMosaic.Lib.ValueIdx
import Idealize.ShloMosaic.PureOps.Ideal.Laws
import Idealize.ShloMosaic.Lib.ValueLayout
import Idealize.ShloMosaic.Lib.Pipeline.Value

set_option maxRecDepth 16384
set_option maxHeartbeats 1600000

noncomputable section

namespace Cert.KernelIdeal.Lin2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Entry (i, j) of the layer's linear output, from the whole arrays. -/
def L (agg x : S50000x256.Idx → EReal) (inv : S50000x1.Idx → EReal) (wl wr : S256x256.Idx → EReal)
    (b : S1x256.Idx → EReal) (i : Fin 50000) (j : Fin 256) : EReal :=
  (∑ k : Fin 256, (agg (ix2 i k) * inv (ix2 i (0 : Fin 1))) * wl (ix2 k j))
    + (∑ k : Fin 256, x (ix2 i k) * wr (ix2 k j)) + b (ix2 (0 : Fin 1) j)

/-- The linear output array. -/
def G6 (agg x : S50000x256.Idx → EReal) (inv : S50000x1.Idx → EReal) (wl wr : S256x256.Idx → EReal)
    (b : S1x256.Idx → EReal) : S50000x256.Idx → EReal :=
  fun i => L agg x inv wl wr b ⟨(i 0).val, idx2_lt0 i⟩ ⟨(i 1).val, idx2_lt1 i⟩

/-- The per-tile means: row t holds the mean of tile t of each column. -/
def G7 (agg x : S50000x256.Idx → EReal) (inv : S50000x1.Idx → EReal) (wl wr : S256x256.Idx → EReal)
    (b : S1x256.Idx → EReal) : S25x1x256.Idx → EReal :=
  fun i => Cert.Spec.tileMean (fun r => L agg x inv wl wr b r ⟨(i 2).val, (i 2).isLt⟩) ⟨(i 0).val, (i 0).isLt⟩

/-- The per-tile sums of squared deviations about the tile's mean. -/
def G8 (agg x : S50000x256.Idx → EReal) (inv : S50000x1.Idx → EReal) (wl wr : S256x256.Idx → EReal)
    (b : S1x256.Idx → EReal) : S25x1x256.Idx → EReal :=
  fun i => Cert.Spec.tileM2 (fun r => L agg x inv wl wr b r ⟨(i 2).val, (i 2).isLt⟩) ⟨(i 0).val, (i 0).isLt⟩

/-- The entry depends on its row and column through their values only. -/
theorem L_congr (agg x : S50000x256.Idx → EReal) (inv : S50000x1.Idx → EReal) (wl wr : S256x256.Idx → EReal)
    (b : S1x256.Idx → EReal) {i i' : Fin 50000} {j j' : Fin 256} (hi : i.val = i'.val) (hj : j.val = j'.val) :
    L agg x inv wl wr b i j = L agg x inv wl wr b i' j' := by rw [Fin.ext hi, Fin.ext hj]

theorem hz2 : (![0, 0] : Fin 2 → Nat) = fun _ => 0 := funext fun a => by fin_cases a <;> rfl
theorem hz3 : (![0, 0, 0] : Fin 3 → Nat) = fun _ => 0 := funext fun a => by fin_cases a <;> rfl

variable (V : (c : Dev nD) → (b : Ref sig .tc) → Buf (Elt Ideal) ((c : Thread nD τ).loc b))

/-- The printed index maps, decided over the grid: the row windows sit at tile t, the whole windows at the origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 3) = t.val ∧ win2_7.index t (1 : Fin 3) = 0 ∧ win2_7.index t (2 : Fin 3) = 0
    ∧ win2_8.index t (0 : Fin 3) = t.val ∧ win2_8.index t (1 : Fin 3) = 0 ∧ win2_8.index t (2 : Fin 3) = 0 :=
  (by decide +kernel : ∀ t : Fin grid2.N, _)

/-- A point of the grid as a tile number. -/
abbrev tile (t : Fin cfg2.N) : Fin 25 := ⟨t.val, by have := t.isLt; have h : cfg2.N = 25 := N_2; omega⟩

/-- The body's linear payload at row r of the block of point t is the whole-array entry at row r of tile t. -/
theorem pay1_at (c : Dev nD) (t : Fin cfg2.N) (r : Fin 2000) (q : Fin 256) :
    k2_pay1 (iblk2 V c 0 t) (iblk2 V c 2 t) (iblk2 V c 1 t) (iblk2 V c 3 t) (iblk2 V c 4 t) (iblk2 V c 5 t) (ix2 r q)
      = L (V c main_v57) (V c main_v47) (V c main_v12) (V c main_arg7) (V c main_arg8) (V c main_v58)
          (Cert.Spec.row (tile t) r) q := by
  obtain ⟨a0, a1, b0, b1, c0, c1, d0, d1, e0, e1, f0, f1, g0, g1, h0, h1, h2, i0, i1, i2⟩ := idx_facts t
  refine (Cert.KernelIdeal.PayLin.lin2_apply _ _ _ _ _ _ r q).trans ?_
  have hb0 : ∀ k : Fin 256, iblk2 V c 0 t (ix2 r k) = V c main_v57 (ix2 (Cert.Spec.row (tile t) r) k) := fun k => by
    show V c main_v57 (((cfg2.win 0).blk t).view.emb (ix2 r k)) = V c main_v57 (ix2 (Cert.Spec.row (tile t) r) k)
    refine congrArg _ (funext fun a => Fin.ext ?_)
    match a with
    | ⟨0, _⟩ => show win2_0.index t (0 : Fin 2) * 2000 + 1 * r.val = t.val * 2000 + r.val; omega
    | ⟨1, _⟩ => show win2_0.index t (1 : Fin 2) * 256 + 1 * k.val = k.val; omega
  have hb1 : ∀ k : Fin 256, iblk2 V c 1 t (ix2 r k) = V c main_v47 (ix2 (Cert.Spec.row (tile t) r) k) := fun k => by
    show V c main_v47 (((cfg2.win 1).blk t).view.emb (ix2 r k)) = V c main_v47 (ix2 (Cert.Spec.row (tile t) r) k)
    refine congrArg _ (funext fun a => Fin.ext ?_)
    match a with
    | ⟨0, _⟩ => show win2_1.index t (0 : Fin 2) * 2000 + 1 * r.val = t.val * 2000 + r.val; omega
    | ⟨1, _⟩ => show win2_1.index t (1 : Fin 2) * 256 + 1 * k.val = k.val; omega
  have hb2 : iblk2 V c 2 t (ix2 r (0 : Fin 1)) = V c main_v12 (ix2 (Cert.Spec.row (tile t) r) (0 : Fin 1)) := by
    show V c main_v12 (((cfg2.win 2).blk t).view.emb (ix2 r (0 : Fin 1))) = V c main_v12 (ix2 (Cert.Spec.row (tile t) r) (0 : Fin 1))
    refine congrArg _ (funext fun a => Fin.ext ?_)
    match a with
    | ⟨0, _⟩ => show win2_2.index t (0 : Fin 2) * 2000 + 1 * r.val = t.val * 2000 + r.val; omega
    | ⟨1, _⟩ => show win2_2.index t (1 : Fin 2) * 1 + 1 * 0 = 0; omega
  have hb3 : ∀ k : Fin 256, iblk2 V c 3 t (ix2 k q) = V c main_arg7 (ix2 k q) := fun k => by
    show V c main_arg7 (((cfg2.win 3).blk t).view.emb (ix2 k q)) = V c main_arg7 (ix2 k q)
    refine congrArg _ (funext fun a => Fin.ext ?_)
    match a with
    | ⟨0, _⟩ => show win2_3.index t (0 : Fin 2) * 256 + 1 * k.val = k.val; omega
    | ⟨1, _⟩ => show win2_3.index t (1 : Fin 2) * 256 + 1 * q.val = q.val; omega
  have hb4 : ∀ k : Fin 256, iblk2 V c 4 t (ix2 k q) = V c main_arg8 (ix2 k q) := fun k => by
    show V c main_arg8 (((cfg2.win 4).blk t).view.emb (ix2 k q)) = V c main_arg8 (ix2 k q)
    refine congrArg _ (funext fun a => Fin.ext ?_)
    match a with
    | ⟨0, _⟩ => show win2_4.index t (0 : Fin 2) * 256 + 1 * k.val = k.val; omega
    | ⟨1, _⟩ => show win2_4.index t (1 : Fin 2) * 256 + 1 * q.val = q.val; omega
  have hb5 : iblk2 V c 5 t (ix2 (0 : Fin 1) q) = V c main_v58 (ix2 (0 : Fin 1) q) := by
    show V c main_v58 (((cfg2.win 5).blk t).view.emb (ix2 (0 : Fin 1) q)) = V c main_v58 (ix2 (0 : Fin 1) q)
    refine congrArg _ (funext fun a => Fin.ext ?_)
    match a with
    | ⟨0, _⟩ => show win2_5.index t (0 : Fin 2) * 1 + 1 * 0 = 0; omega
    | ⟨1, _⟩ => show win2_5.index t (1 : Fin 2) * 256 + 1 * q.val = q.val; omega
  unfold L
  rw [hb2, hb5]
  refine congrArg₂ (· + ·) (congrArg₂ (· + ·) (Finset.sum_congr rfl fun k _ => ?_) (Finset.sum_congr rfl fun k _ => ?_)) rfl
  · rw [hb0 k, hb3 k]
  · rw [hb1 k, hb4 k]

/-- What point t writes back to the linear output is block t of `G6`. -/
theorem flushed6_eq (c : Dev nD) (t : Fin cfg2.N) :
    (dat2 V c).flushed 6 t = ((cfg2.win 6).blk t).view.read (Elt Ideal)
      (G6 (V c main_v57) (V c main_v47) (V c main_v12) (V c main_arg7) (V c main_arg8) (V c main_v58)) := by
  show (cfg2.win 6).cut (grid2.coords t) ((dat2 V c).after 6 t) = _
  rw [after2_6]
  unfold out2_6
  rw [View.canon_unit_zero hz2]
  simp only [View.ld_unit_zero (S := S2000x256) hz2, View.ld_unit_zero (S := S2000x1) hz2, View.ld_unit_zero (S := S256x256) hz2,
    View.ld_unit_zero (S := S1x256) hz2]
  obtain ⟨a0, a1, b0, b1, c0, c1, d0, d1, e0, e1, f0, f1, g0, g1, h0, h1, h2, i0, i1, i2⟩ := idx_facts t
  funext j
  obtain ⟨p, q, rfl⟩ : ∃ (p : Fin 2000) (q : Fin 256), j = ix2 p q := ⟨j 0, j 1, eq_ix2 j⟩
  show k2_pay1 (iblk2 V c 0 t) (iblk2 V c 2 t) (iblk2 V c 1 t) (iblk2 V c 3 t) (iblk2 V c 4 t) (iblk2 V c 5 t) (ix2 p q)
    = G6 (V c main_v57) (V c main_v47) (V c main_v12) (V c main_arg7) (V c main_arg8) (V c main_v58) (((cfg2.win 6).blk t).view.emb (ix2 p q))
  refine (pay1_at V c t p q).trans ?_
  unfold G6
  exact L_congr _ _ _ _ _ _ (show t.val * 2000 + p.val = win2_6.index t (0 : Fin 2) * 2000 + 1 * p.val by omega)
    (show q.val = win2_6.index t (1 : Fin 2) * 256 + 1 * q.val by omega)

/-- An index of the linear output is in point t's block iff each coordinate is in the block's range on its axis. -/
theorem mem_blk6 (t : Fin cfg2.N) (i : S50000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v59_0).slice (win2_6.rect t)).set ↔ _
  rw [View.set_slice_whole, Rect.mem_set_unit]
  exact Iff.rfl

/-- Every entry of the linear output lies in the block of the point its row's tile names. -/
theorem cover6 (i : S50000x256.Idx) : ∃ t : Fin cfg2.N, (cfg2.win 6).flush t = true ∧ i ∈ ((cfg2.win 6).blk t).view.set := by
  have hi0 : (i 0).val < 50000 := idx2_lt0 i
  have hi1 : (i 1).val < 256 := idx2_lt1 i
  have hN : cfg2.N = 25 := N_2
  refine ⟨⟨(i 0).val / 2000, by rw [hN]; omega⟩, flush2_6 _, ?_⟩
  rw [mem_blk6]
  obtain ⟨a0, a1, b0, b1, c0, c1, d0, d1, e0, e1, f0, f1, g0, g1, h0, h1, h2, i0, i1, i2⟩ := idx_facts ⟨(i 0).val / 2000, by rw [hN]; omega⟩
  intro a
  match a with
  | ⟨0, _⟩ =>
    show win2_6.index _ (0 : Fin 2) * 2000 ≤ (i 0).val ∧ (i 0).val < win2_6.index _ (0 : Fin 2) * 2000 + 2000
    rw [g0]; show (i 0).val / 2000 * 2000 ≤ (i 0).val ∧ (i 0).val < (i 0).val / 2000 * 2000 + 2000; omega
  | ⟨1, _⟩ =>
    show win2_6.index _ (1 : Fin 2) * 256 ≤ (i 1).val ∧ (i 1).val < win2_6.index _ (1 : Fin 2) * 256 + 256
    rw [g1]; omega

/-- After the region the linear output is `G6` of the arrays the region found. -/
theorem final6 (c : Dev nD) : (dat2 V c).arrAt 6 cfg2.N = G6 (V c main_v57) (V c main_v47) (V c main_v12) (V c main_arg7) (V c main_arg8) (V c main_v58) :=
  (dat2 V c).arrAt_eq_of_cover 6 _ (fun t _ => flushed6_eq V c t) cover6

/-- Row T, column Q of the per-tile means. -/
theorem G7_apply (agg x : S50000x256.Idx → EReal) (inv : S50000x1.Idx → EReal) (wl wr : S256x256.Idx → EReal)
    (b : S1x256.Idx → EReal) (T : Fin 25) (Q : Fin 256) (i : S25x1x256.Idx) (h0 : (i 0).val = T.val) (h2 : (i 2).val = Q.val) :
    G7 agg x inv wl wr b i = Cert.Spec.tileMean (fun r => L agg x inv wl wr b r Q) T := by
  unfold G7
  rw [show (⟨(i 0).val, (i 0).isLt⟩ : Fin 25) = T from Fin.ext h0, show (⟨(i 2).val, (i 2).isLt⟩ : Fin 256) = Q from Fin.ext h2]

/-- Row T, column Q of the per-tile sums of squared deviations. -/
theorem G8_apply (agg x : S50000x256.Idx → EReal) (inv : S50000x1.Idx → EReal) (wl wr : S256x256.Idx → EReal)
    (b : S1x256.Idx → EReal) (T : Fin 25) (Q : Fin 256) (i : S25x1x256.Idx) (h0 : (i 0).val = T.val) (h2 : (i 2).val = Q.val) :
    G8 agg x inv wl wr b i = Cert.Spec.tileM2 (fun r => L agg x inv wl wr b r Q) T := by
  unfold G8
  rw [show (⟨(i 0).val, (i 0).isLt⟩ : Fin 25) = T from Fin.ext h0, show (⟨(i 2).val, (i 2).isLt⟩ : Fin 256) = Q from Fin.ext h2]

/-- The body's tile mean at column q, at point t, is the mean of tile t of column q of the linear output. -/
theorem pay2_at (c : Dev nD) (t : Fin cfg2.N) (q : Fin 256) :
    k2_pay2 (iblk2 V c 0 t) (iblk2 V c 2 t) (iblk2 V c 1 t) (iblk2 V c 3 t) (iblk2 V c 4 t) (iblk2 V c 5 t) (ix2 (0 : Fin 1) q)
      = Cert.Spec.tileMean (fun r => L (V c main_v57) (V c main_v47) (V c main_v12) (V c main_arg7) (V c main_arg8) (V c main_v58) r q) (tile t) := by
  refine (Cert.KernelIdeal.PayLin.mean2_apply _ _ _ _ _ _ q).trans ?_
  unfold Cert.Spec.tileMean
  exact congrArg (· * _) (Finset.sum_congr rfl fun r _ => pay1_at V c t r q)

/-- What point t writes back to statistics array 7 is block t of `G7`. -/
theorem flushed7_eq (c : Dev nD) (t : Fin cfg2.N) :
    (dat2 V c).flushed 7 t = ((cfg2.win 7).blk t).view.read (Elt Ideal) (G7 (V c main_v57) (V c main_v47) (V c main_v12) (V c main_arg7) (V c main_arg8) (V c main_v58)) := by
  show (cfg2.win 7).cut (grid2.coords t) ((dat2 V c).after 7 t) = _
  rw [after2_7]
  unfold out2_7
  rw [View.canon_unit_zero hz3]
  simp only [View.ld_unit_zero (S := S2000x256) hz2, View.ld_unit_zero (S := S2000x1) hz2, View.ld_unit_zero (S := S256x256) hz2,
    View.ld_unit_zero (S := S1x256) hz2]
  obtain ⟨a0, a1, b0, b1, c0, c1, d0, d1, e0, e1, f0, f1, g0, g1, h0, h1, h2, i0, i1, i2⟩ := idx_facts t
  funext j
  obtain ⟨u, v, q, rfl⟩ : ∃ (u v : Fin 1) (q : Fin 256), j = ix3 u v q := ⟨j 0, j 1, j 2, eq_ix3 j⟩
  obtain rfl : u = 0 := Subsingleton.elim _ _
  obtain rfl : v = 0 := Subsingleton.elim _ _
  show k2_pay3 (iblk2 V c 0 t) (iblk2 V c 2 t) (iblk2 V c 1 t) (iblk2 V c 3 t) (iblk2 V c 4 t) (iblk2 V c 5 t) (ix3 (0 : Fin 1) (0 : Fin 1) q)
    = G7 (V c main_v57) (V c main_v47) (V c main_v12) (V c main_arg7) (V c main_arg8) (V c main_v58) (((cfg2.win 7).blk t).view.emb (ix3 (0 : Fin 1) (0 : Fin 1) q))
  refine Eq.trans ?_ (G7_apply _ _ _ _ _ _ (tile t) q _
    (show win2_7.index t (0 : Fin 3) * 1 + 1 * 0 = t.val by omega)
    (show win2_7.index t (2 : Fin 3) * 256 + 1 * q.val = q.val by omega)).symm
  exact (Cert.KernelIdeal.PayLin.meanp2_apply _ _ _ _ _ _ q).trans (pay2_at V c t q)

/-- An index of statistics array 7 is in point t's block iff each coordinate is in the block's range on its axis. -/
theorem mem_blk7 (t : Fin cfg2.N) (i : S25x1x256.Idx) :
    i ∈ ((cfg2.win 7).blk t).view.set ↔ ∀ a : Fin 3, win2_7.index t a * S1x1x256.size a ≤ (i a).val ∧ (i a).val < win2_7.index t a * S1x1x256.size a + S1x1x256.size a := by
  show i ∈ ((View.whole main_v59_1).slice (win2_7.rect t)).set ↔ _
  rw [View.set_slice_whole, Rect.mem_set_unit]
  exact Iff.rfl

/-- Row t of statistics array 7 is point t's block. -/
theorem cover7 (i : S25x1x256.Idx) : ∃ t : Fin cfg2.N, (cfg2.win 7).flush t = true ∧ i ∈ ((cfg2.win 7).blk t).view.set := by
  have hi0 : (i 0).val < 25 := (i 0).isLt
  have hi1 : (i 1).val < 1 := (i 1).isLt
  have hi2 : (i 2).val < 256 := (i 2).isLt
  have hN : cfg2.N = 25 := N_2
  refine ⟨⟨(i 0).val, by rw [hN]; exact hi0⟩, flush2_7 _, ?_⟩
  rw [mem_blk7]
  obtain ⟨a0, a1, b0, b1, c0, c1, d0, d1, e0, e1, f0, f1, g0, g1, h0, h1, h2, i0, i1, i2⟩ := idx_facts ⟨(i 0).val, by rw [hN]; exact hi0⟩
  intro a
  match a with
  | ⟨0, _⟩ =>
    show win2_7.index _ (0 : Fin 3) * 1 ≤ (i 0).val ∧ (i 0).val < win2_7.index _ (0 : Fin 3) * 1 + 1
    rw [h0]; show (i 0).val * 1 ≤ (i 0).val ∧ (i 0).val < (i 0).val * 1 + 1; omega
  | ⟨1, _⟩ =>
    show win2_7.index _ (1 : Fin 3) * 1 ≤ (i 1).val ∧ (i 1).val < win2_7.index _ (1 : Fin 3) * 1 + 1
    rw [h1]; omega
  | ⟨2, _⟩ =>
    show win2_7.index _ (2 : Fin 3) * 256 ≤ (i 2).val ∧ (i 2).val < win2_7.index _ (2 : Fin 3) * 256 + 256
    rw [h2]; omega

/-- After the region statistics array 7 is `G7` of the arrays the region found. -/
theorem final7 (c : Dev nD) : (dat2 V c).arrAt 7 cfg2.N = G7 (V c main_v57) (V c main_v47) (V c main_v12) (V c main_arg7) (V c main_arg8) (V c main_v58) :=
  (dat2 V c).arrAt_eq_of_cover 7 _ (fun t _ => flushed7_eq V c t) cover7

/-- What point t writes back to statistics array 8 is block t of `G8`. -/
theorem flushed8_eq (c : Dev nD) (t : Fin cfg2.N) :
    (dat2 V c).flushed 8 t = ((cfg2.win 8).blk t).view.read (Elt Ideal) (G8 (V c main_v57) (V c main_v47) (V c main_v12) (V c main_arg7) (V c main_arg8) (V c main_v58)) := by
  show (cfg2.win 8).cut (grid2.coords t) ((dat2 V c).after 8 t) = _
  rw [after2_8]
  unfold out2_8
  rw [View.canon_unit_zero hz3]
  simp only [View.ld_unit_zero (S := S2000x256) hz2, View.ld_unit_zero (S := S2000x1) hz2, View.ld_unit_zero (S := S256x256) hz2,
    View.ld_unit_zero (S := S1x256) hz2]
  obtain ⟨a0, a1, b0, b1, c0, c1, d0, d1, e0, e1, f0, f1, g0, g1, h0, h1, h2, i0, i1, i2⟩ := idx_facts t
  funext j
  obtain ⟨u, v, q, rfl⟩ : ∃ (u v : Fin 1) (q : Fin 256), j = ix3 u v q := ⟨j 0, j 1, j 2, eq_ix3 j⟩
  obtain rfl : u = 0 := Subsingleton.elim _ _
  obtain rfl : v = 0 := Subsingleton.elim _ _
  show k2_pay4 (iblk2 V c 0 t) (iblk2 V c 2 t) (iblk2 V c 1 t) (iblk2 V c 3 t) (iblk2 V c 4 t) (iblk2 V c 5 t) (ix3 (0 : Fin 1) (0 : Fin 1) q)
    = G8 (V c main_v57) (V c main_v47) (V c main_v12) (V c main_arg7) (V c main_arg8) (V c main_v58) (((cfg2.win 8).blk t).view.emb (ix3 (0 : Fin 1) (0 : Fin 1) q))
  refine Eq.trans ?_ (G8_apply _ _ _ _ _ _ (tile t) q _
    (show win2_8.index t (0 : Fin 3) * 1 + 1 * 0 = t.val by omega)
    (show win2_8.index t (2 : Fin 3) * 256 + 1 * q.val = q.val by omega)).symm
  refine (Cert.KernelIdeal.PayLin.m2p2_apply _ _ _ _ _ _ q).trans ?_
  unfold Cert.Spec.tileM2
  exact Finset.sum_congr rfl fun r _ => by rw [pay1_at V c t r q, pay2_at V c t q]

/-- An index of statistics array 8 is in point t's block iff each coordinate is in the block's range on its axis. -/
theorem mem_blk8 (t : Fin cfg2.N) (i : S25x1x256.Idx) :
    i ∈ ((cfg2.win 8).blk t).view.set ↔ ∀ a : Fin 3, win2_8.index t a * S1x1x256.size a ≤ (i a).val ∧ (i a).val < win2_8.index t a * S1x1x256.size a + S1x1x256.size a := by
  show i ∈ ((View.whole main_v59_2).slice (win2_8.rect t)).set ↔ _
  rw [View.set_slice_whole, Rect.mem_set_unit]
  exact Iff.rfl

/-- Row t of statistics array 8 is point t's block. -/
theorem cover8 (i : S25x1x256.Idx) : ∃ t : Fin cfg2.N, (cfg2.win 8).flush t = true ∧ i ∈ ((cfg2.win 8).blk t).view.set := by
  have hi0 : (i 0).val < 25 := (i 0).isLt
  have hi1 : (i 1).val < 1 := (i 1).isLt
  have hi2 : (i 2).val < 256 := (i 2).isLt
  have hN : cfg2.N = 25 := N_2
  refine ⟨⟨(i 0).val, by rw [hN]; exact hi0⟩, flush2_8 _, ?_⟩
  rw [mem_blk8]
  obtain ⟨a0, a1, b0, b1, c0, c1, d0, d1, e0, e1, f0, f1, g0, g1, h0, h1, h2, i0, i1, i2⟩ := idx_facts ⟨(i 0).val, by rw [hN]; exact hi0⟩
  intro a
  match a with
  | ⟨0, _⟩ =>
    show win2_8.index _ (0 : Fin 3) * 1 ≤ (i 0).val ∧ (i 0).val < win2_8.index _ (0 : Fin 3) * 1 + 1
    rw [i0]; show (i 0).val * 1 ≤ (i 0).val ∧ (i 0).val < (i 0).val * 1 + 1; omega
  | ⟨1, _⟩ =>
    show win2_8.index _ (1 : Fin 3) * 1 ≤ (i 1).val ∧ (i 1).val < win2_8.index _ (1 : Fin 3) * 1 + 1
    rw [i1]; omega
  | ⟨2, _⟩ =>
    show win2_8.index _ (2 : Fin 3) * 256 ≤ (i 2).val ∧ (i 2).val < win2_8.index _ (2 : Fin 3) * 256 + 256
    rw [i2]; omega

/-- After the region statistics array 8 is `G8` of the arrays the region found. -/
theorem final8 (c : Dev nD) : (dat2 V c).arrAt 8 cfg2.N = G8 (V c main_v57) (V c main_v47) (V c main_v12) (V c main_arg7) (V c main_arg8) (V c main_v58) :=
  (dat2 V c).arrAt_eq_of_cover 8 _ (fun t _ => flushed8_eq V c t) cover8

end Cert.KernelIdeal.Lin2

end
-- ==== Proof.Norm.lean ====
/-
  The normalise-and-rectify region as one function of the arrays it finds.

  The region's grid has 25 points; point t stages rows 2000 t … 2000 t + 1999 of the layer's linear output and the
  four one-row parameter arrays (mean, variance, scale, shift), and writes back the same rows of its output.  The
  body is pointwise in the row and reads the parameters at the entry's column, so the block point t writes is the
  restriction to its rows of ONE function of the whole arrays: at (i, j),
      max (scale_j (x_ij - mean_j) rsqrt(var_j + eps) + shift_j, 0).
  The 25 row blocks cover the output array, so after the region the output array is that function.
-/
import proofs.«165127_j7773890805925_2_alg».proof.Proof.Gen.KernelIdeal.Frame
import proofs.«165127_j7773890805925_2_alg».proof.Proof.Spec
import Idealize.ShloMosaic.Lib.ValueIdx
import Idealize.ShloMosaic.PureOps.Ideal.Laws
import Idealize.ShloMosaic.Lib.ValueLayout
import Idealize.ShloMosaic.Lib.Pipeline.Value

set_option maxRecDepth 16384

noncomputable section

namespace Cert.KernelIdeal.Norm

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The stabiliser added to the variance: the f32 nearest to 1e-5. -/
abbrev eps : EReal := Ideal.ofBits .f32 0x3727C5AC#32

/-- Column `j` of a one-row array. -/
abbrev col (v : S1x256.Idx → EReal) (j : Fin 256) : EReal := v (ix2 (0 : Fin 1) j)

/-- The region's output as one function of the arrays it reads. -/
def G (x : S50000x256.Idx → EReal) (mean var g be : S1x256.Idx → EReal) : S50000x256.Idx → EReal :=
  fun i => Cert.Spec.bnrelu eps (col g ⟨(i 1).val, idx2_lt1 i⟩) (x i) (col mean ⟨(i 1).val, idx2_lt1 i⟩)
    (col var ⟨(i 1).val, idx2_lt1 i⟩) (col be ⟨(i 1).val, idx2_lt1 i⟩)

theorem hz : (![0, 0] : Fin 2 → Nat) = fun _ => 0 := funext fun a => by fin_cases a <;> rfl

/-- The body's arithmetic at an entry of the block: the normalised, rectified entry of the loaded blocks. -/
theorem pay_apply (x0 : Vec Ideal S2000x256 .f32) (var g mean be : Vec Ideal S1x256 .f32) (p : Fin 2000) (q : Fin 256) :
    k1_pay1 x0 var g mean be (ix2 p q)
      = Cert.Spec.bnrelu eps (col g q) (x0 (ix2 p q)) (col mean q) (col var q) (col be q) := by
  unfold k1_pay1
  simp only [shapeCast_self]
  rw [maximumf_apply, addf_apply, mulf_apply, mulf_apply, subf_apply,
    broadcastTo_1b_ab_apply g, broadcastTo_1b_ab_apply mean, broadcastTo_1b_ab_apply be, broadcastTo_1b_ab_apply (rsqrt _)]
  unfold Cert.Spec.bnrelu
  show max (g (ix2 0 q) * (x0 (ix2 p q) - mean (ix2 0 q)) * Ideal.rsqrt (var (ix2 0 q) + Ideal.ofBits .f32 0x3727C5AC#32)
      + be (ix2 0 q)) (Ideal.ofBits .f32 0x00000000#32) = _
  rw [Ideal.ofBits_zero_f32]

variable (V : (c : Dev nD) → (b : Ref sig .tc) → Buf (Elt Ideal) ((c : Thread nD τ).loc b))

/-- The printed index maps, decided over the grid: the input rows move with the output rows, the parameter rows stay. -/
theorem idx_facts : ∀ t : Fin cfg1.N, win1_0.index t (0 : Fin 2) = win1_5.index t (0 : Fin 2)
    ∧ win1_0.index t (1 : Fin 2) = 0 ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val :=
  (by decide +kernel : ∀ t : Fin grid1.N, _)

/-- What point `t` writes back is block `t` of `G` of the arrays as the region finds them. -/
theorem flushed_eq (c : Dev nD) (t : Fin cfg1.N) :
    (dat1 V c).flushed 5 t = ((cfg1.win 5).blk t).view.read (Elt Ideal)
      (G (V c main_v24_0) (V c main_v30) (V c main_v44) (V c main_v45) (V c main_v46)) := by
  show (cfg1.win 5).cut (grid1.coords t) ((dat1 V c).after 5 t) = _
  rw [after1_5]
  unfold out1_5
  rw [View.canon_unit_zero hz]
  simp only [View.ld_unit_zero (S := S2000x256) hz, View.ld_unit_zero (S := S1x256) hz]
  obtain ⟨e0, e1, e2, e3, e4, e5, e6, e7, e8, e9, e10, e11⟩ := idx_facts t
  funext j
  obtain ⟨p, q, rfl⟩ : ∃ (p : Fin 2000) (q : Fin 256), j = ix2 p q := ⟨j 0, j 1, eq_ix2 j⟩
  show k1_pay1 (iblk1 V c 0 t) (iblk1 V c 2 t) (iblk1 V c 3 t) (iblk1 V c 1 t) (iblk1 V c 4 t) (ix2 p q)
    = G (V c main_v24_0) (V c main_v30) (V c main_v44) (V c main_v45) (V c main_v46) (((cfg1.win 5).blk t).view.emb (ix2 p q))
  refine (pay_apply _ _ _ _ _ p q).trans ?_
  have hq : ((((cfg1.win 5).blk t).view.emb (ix2 p q)) 1).val = q.val := by
    show win1_5.index t (1 : Fin 2) * 256 + 1 * q.val = q.val
    omega
  have hx : iblk1 V c 0 t (ix2 p q) = V c main_v24_0 (((cfg1.win 5).blk t).view.emb (ix2 p q)) := by
    show V c main_v24_0 (((cfg1.win 0).blk t).view.emb (ix2 p q)) = _
    refine congrArg _ (funext fun a => Fin.ext ?_)
    match a with
    | ⟨0, _⟩ => show win1_0.index t (0 : Fin 2) * 2000 + 1 * p.val = win1_5.index t (0 : Fin 2) * 2000 + 1 * p.val; omega
    | ⟨1, _⟩ => show win1_0.index t (1 : Fin 2) * 256 + 1 * q.val = win1_5.index t (1 : Fin 2) * 256 + 1 * q.val; omega
  have hm : col (iblk1 V c 1 t) q = col (V c main_v30) ⟨((((cfg1.win 5).blk t).view.emb (ix2 p q)) 1).val, idx2_lt1 _⟩ := by
    show V c main_v30 (((cfg1.win 1).blk t).view.emb (ix2 (0 : Fin 1) q)) = V c main_v30 (ix2 (0 : Fin 1) _)
    refine congrArg _ (funext fun a => Fin.ext ?_)
    match a with
    | ⟨0, _⟩ => show win1_1.index t (0 : Fin 2) * 1 + 1 * 0 = 0; omega
    | ⟨1, _⟩ => show win1_1.index t (1 : Fin 2) * 256 + 1 * q.val = _; rw [hq]; omega
  have hv : col (iblk1 V c 2 t) q = col (V c main_v44) ⟨((((cfg1.win 5).blk t).view.emb (ix2 p q)) 1).val, idx2_lt1 _⟩ := by
    show V c main_v44 (((cfg1.win 2).blk t).view.emb (ix2 (0 : Fin 1) q)) = V c main_v44 (ix2 (0 : Fin 1) _)
    refine congrArg _ (funext fun a => Fin.ext ?_)
    match a with
    | ⟨0, _⟩ => show win1_2.index t (0 : Fin 2) * 1 + 1 * 0 = 0; omega
    | ⟨1, _⟩ => show win1_2.index t (1 : Fin 2) * 256 + 1 * q.val = _; rw [hq]; omega
  have hg : col (iblk1 V c 3 t) q = col (V c main_v45) ⟨((((cfg1.win 5).blk t).view.emb (ix2 p q)) 1).val, idx2_lt1 _⟩ := by
    show V c main_v45 (((cfg1.win 3).blk t).view.emb (ix2 (0 : Fin 1) q)) = V c main_v45 (ix2 (0 : Fin 1) _)
    refine congrArg _ (funext fun a => Fin.ext ?_)
    match a with
    | ⟨0, _⟩ => show win1_3.index t (0 : Fin 2) * 1 + 1 * 0 = 0; omega
    | ⟨1, _⟩ => show win1_3.index t (1 : Fin 2) * 256 + 1 * q.val = _; rw [hq]; omega
  have hb : col (iblk1 V c 4 t) q = col (V c main_v46) ⟨((((cfg1.win 5).blk t).view.emb (ix2 p q)) 1).val, idx2_lt1 _⟩ := by
    show V c main_v46 (((cfg1.win 4).blk t).view.emb (ix2 (0 : Fin 1) q)) = V c main_v46 (ix2 (0 : Fin 1) _)
    refine congrArg _ (funext fun a => Fin.ext ?_)
    match a with
    | ⟨0, _⟩ => show win1_4.index t (0 : Fin 2) * 1 + 1 * 0 = 0; omega
    | ⟨1, _⟩ => show win1_4.index t (1 : Fin 2) * 256 + 1 * q.val = _; rw [hq]; omega
  rw [hx, hm, hv, hg, hb]
  rfl

/-- An index of the output array is in point `t`'s block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v47).slice (win1_5.rect t)).set ↔ _
  rw [View.set_slice_whole, Rect.mem_set_unit]
  exact Iff.rfl

/-- Every entry of the output array lies in the block of the point its row's tile names. -/
theorem cover (i : S50000x256.Idx) : ∃ t : Fin cfg1.N, (cfg1.win 5).flush t = true ∧ i ∈ ((cfg1.win 5).blk t).view.set := by
  have hi0 : (i 0).val < 50000 := idx2_lt0 i
  have hi1 : (i 1).val < 256 := idx2_lt1 i
  have hN : cfg1.N = 25 := N_1
  refine ⟨⟨(i 0).val / 2000, by rw [hN]; omega⟩, flush1_5 _, ?_⟩
  rw [mem_blk]
  obtain ⟨e0, e1, e2, e3, e4, e5, e6, e7, e8, e9, e10, e11⟩ := idx_facts ⟨(i 0).val / 2000, by rw [hN]; omega⟩
  intro a
  match a with
  | ⟨0, _⟩ =>
    show win1_5.index _ (0 : Fin 2) * 2000 ≤ (i 0).val ∧ (i 0).val < win1_5.index _ (0 : Fin 2) * 2000 + 2000
    rw [e11]; show (i 0).val / 2000 * 2000 ≤ (i 0).val ∧ (i 0).val < (i 0).val / 2000 * 2000 + 2000; omega
  | ⟨1, _⟩ =>
    show win1_5.index _ (1 : Fin 2) * 256 ≤ (i 1).val ∧ (i 1).val < win1_5.index _ (1 : Fin 2) * 256 + 256
    rw [e2]; omega

/-- After the region its output array is `G` of the arrays the region found. -/
theorem final (c : Dev nD) : (dat1 V c).arrAt 5 cfg1.N
    = G (V c main_v24_0) (V c main_v30) (V c main_v44) (V c main_v45) (V c main_v46) :=
  (dat1 V c).arrAt_eq_of_cover 5 _ (fun t _ => flushed_eq V c t) cover

end Cert.KernelIdeal.Norm

end
-- ==== Proof.PaySoftmax.lean ====
/-
The last kernel's body, read one entry at a time: a linear layer followed by a masked
log-softmax along the 128 lanes.

Entry `(p, q)` of the linear body is the aggregate row `p` scaled by that row's inverse degree
and multiplied into column `q` of the left weights, plus feature row `p` multiplied into column
`q` of the right weights, plus the bias at `q`.  Lanes from 47 on are replaced by `-∞`.  The
result at `(p, q)` is the masked value minus the row's maximum, minus the logarithm of the sum
along the row of the exponentials of the masked values so shifted: the log-softmax of the masked
row.  The row maximum is a maximum folded from `-∞`, the sums are sums of extended reals, and
the comparison deciding the mask is the comparison of the lane number with 47.
-/
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import proofs.«165127_j7773890805925_2_alg».proof.Proof.Gen.KernelIdeal.Skeleton
import proofs.«165127_j7773890805925_2_alg».proof.Proof.LibColumn
import proofs.«165127_j7773890805925_2_alg».proof.Proof.Spec

noncomputable section

namespace Cert.KernelIdeal.PaySoftmax

open Cert.KernelIdeal Cert.KernelIdeal.Gen Idealize.ShloMosaic Idealize.ShloMosaic.ValueIdx
open scoped BigOperators

/-- A plain matrix product (rows by columns, one contracted axis) accumulated into the zero
    array reads, at `(i, j)`, the sum over the contracted coordinate `c` of the left operand at
    `(i, c)` times the right operand at `(c, j)`. -/
private theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (i : Fin m) (j : Fin n) :
    matmul (⟨[1], [0], [0], [1], [], [], w⟩ : DotDims _ _ _) prec A B
        (constant ⟨2, ![m, n]⟩ .f32 0x00000000#32) (ix2 i j)
      = ∑ c : Fin k, A (ix2 i c) * B (ix2 c j) := by
  show FloatOps.matmul _ prec A B (constant ⟨2, ![m, n]⟩ .f32 0x00000000#32) (ix2 i j) = _
  rw [Ideal.matmul_constant_zero_apply,
    ← Equiv.sum_comp (contrEquiv1 (⟨[1], [0], [0], [1], [], [], w⟩ : DotDims _ _ _) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 i j)
      ((contrEquiv1 _ k rfl rfl).symm c) = ix2 i c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 i j)
      ((contrEquiv1 _ k rfl rfl).symm c) = ix2 c j := by
    funext ax; apply Fin.ext
    match ax with
    | ⟨0, _⟩ => simp [DotDims.rhsIdx]; exact hc
    | ⟨1, _⟩ => simp [DotDims.rhsIdx]; rfl
  rw [hl, hr]

/-- Reducing a matrix along its rows' entries: the index of column `k` above the reduced index
    `p` is `(p, k)`. -/
theorem lift_cols {m n : ℕ} (h : (⟨2, ![m, n]⟩ : Shape).Reduces [1] ⟨1, ![m]⟩) (p : Fin m) (k : Fin n) :
    h.lift (ix1 p) k = ix2 p k := by
  funext ax; apply Fin.ext
  match ax with
  | ⟨0, _⟩ => rfl
  | ⟨1, _⟩ => rfl

/-- The word `0xFF800000` read as a single-precision value is `-∞`. -/
theorem ofBits_neg_inf_f32 : Ideal.ofBits .f32 0xFF800000#32 = (⊥ : EReal) := by
  simp [Ideal.ofBits, Ideal.ieee]

/-- The maximum of each row of a matrix, read at row `p`: the maximum, folded from `-∞`, of the
    entries `(p, k)`. -/
theorem rowmax_apply {m n : ℕ} (src : FVec Ideal ⟨2, ![m, n]⟩ .f32)
    (h : (⟨2, ![m, n]⟩ : Shape).Reduces [1] ⟨1, ![m]⟩) (hφ : FKind.Formats .f32)
    (hacc : (0xFF800000#32 : BitVec 32) = FKind.maximumf.neutral .f32 hφ) (p : Fin m) :
    multiReduction .maximumf [1] ⟨1, ![m]⟩ src 0xFF800000#32 h hφ hacc (ix1 p)
      = (Finset.univ : Finset (Fin n)).fold max ⊥ (fun k => src (ix2 p k)) := by
  refine (Ideal.multiReduction_maximumf_single src 0xFF800000#32 h hφ hacc (ix1 p)).trans ?_
  have hf : (src ∘ h.lift (ix1 p)) = fun k : Fin n => src (ix2 p k) :=
    funext fun k => congrArg src (lift_cols h p k)
  rw [hf]
  exact congrArg (fun z => (Finset.univ : Finset (Fin n)).fold max z (fun k => src (ix2 p k)))
    ofBits_neg_inf_f32

/-- The sum of each row of a matrix, read at row `p`: the sum over `k` of the entries
    `(p, k)`. -/
theorem colsum_apply {m n : ℕ} (src : FVec Ideal ⟨2, ![m, n]⟩ .f32)
    (h : (⟨2, ![m, n]⟩ : Shape).Reduces [1] ⟨1, ![m]⟩) (hφ : FKind.Formats .f32)
    (hacc : (0x00000000#32 : BitVec 32) = FKind.add.neutral .f32 hφ) (p : Fin m) :
    multiReduction .add [1] ⟨1, ![m]⟩ src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- For a lane number below 128, the signed comparison of its 32-bit word with 47 is the bit
    `1` exactly when the lane number is below 47. -/
theorem slt_lane_47 (q : ℕ) (hq : q < 128) :
    IntOp.cmpi .slt (BitVec.ofNat 32 q) 47#32 = if q < 47 then 1#1 else 0#1 := by
  interval_cases q <;> rfl

/-- The named constant `neg_big` is `-∞`. -/
theorem neg_big_eq :
    Named.named (F := Ideal) κ "neg_big" (φ := .f32) 0xFF333332#32 = (⊥ : EReal) :=
  IdealRules.named_const.ideal_named_scalar _ _ _ _ rfl

/-- The exponential of an array of extended reals reads entrywise. -/
theorem exp_apply {s : Shape} (v : FVec Ideal s .f32) (i : s.Idx) : exp v i = Ideal.exp (v i) := rfl

/-- The logarithm of an array of extended reals reads entrywise. -/
theorem log_apply {s : Shape} (v : FVec Ideal s .f32) (i : s.Idx) : log v i = Ideal.log (v i) := rfl

/-- Log-softmax along the rows of a matrix `V`, computed as: subtract the row maximum, take
    exponentials, sum them along the row, take the logarithm, subtract it.  At `(p, q)` this is
    the log-softmax of row `p` of `V` at `q`. -/
theorem logsoftmax_tail {m n : ℕ} (V : FVec Ideal ⟨2, ![m, n]⟩ .f32)
    (hred : (⟨2, ![m, n]⟩ : Shape).Reduces [1] ⟨1, ![m]⟩) (hφ : FKind.Formats .f32)
    (haccM : (0xFF800000#32 : BitVec 32) = FKind.maximumf.neutral .f32 hφ)
    (haccA : (0x00000000#32 : BitVec 32) = FKind.add.neutral .f32 hφ)
    (hsc : (⟨1, ![m]⟩ : Shape).ShapeCasts ⟨2, ![m, 1]⟩)
    (hbc : (⟨2, ![m, 1]⟩ : Shape).Broadcasts ⟨2, ![m, n]⟩) (p : Fin m) (q : Fin n) :
    subf
        (subf V (broadcastTo ⟨2, ![m, n]⟩
          (shapeCast ⟨2, ![m, 1]⟩ (multiReduction .maximumf [1] ⟨1, ![m]⟩ V 0xFF800000#32 hred hφ haccM) hsc) hbc))
        (broadcastTo ⟨2, ![m, n]⟩
          (log (shapeCast ⟨2, ![m, 1]⟩
            (multiReduction .add [1] ⟨1, ![m]⟩
              (exp (subf V (broadcastTo ⟨2, ![m, n]⟩
                (shapeCast ⟨2, ![m, 1]⟩ (multiReduction .maximumf [1] ⟨1, ![m]⟩ V 0xFF800000#32 hred hφ haccM) hsc) hbc)))
              0x00000000#32 hred hφ haccA) hsc)) hbc)
        (ix2 p q)
      = Cert.Spec.logSoftmax (fun k : Fin n => V (ix2 p k)) q := by
  have hM : ∀ k : Fin n,
      (broadcastTo ⟨2, ![m, n]⟩
        (shapeCast ⟨2, ![m, 1]⟩ (multiReduction .maximumf [1] ⟨1, ![m]⟩ V 0xFF800000#32 hred hφ haccM) hsc) hbc) (ix2 p k)
        = (Finset.univ : Finset (Fin n)).fold max ⊥ (fun k => V (ix2 p k)) := by
    intro k
    refine (Cert.LibColumn.broadcastTo_a1_ab_apply _ _ p k).trans ?_
    refine (Cert.LibColumn.shapeCast_a_a1_apply _ _ p (0 : Fin 1)).trans ?_
    exact rowmax_apply V hred hφ haccM p
  unfold Cert.Spec.logSoftmax
  rw [subf_apply, subf_apply, hM q]
  refine congrArg₂ (· - ·) rfl ?_
  refine (Cert.LibColumn.broadcastTo_a1_ab_apply _ _ p q).trans ?_
  rw [log_apply]
  refine congrArg Ideal.log ?_
  refine (Cert.LibColumn.shapeCast_a_a1_apply _ _ p (0 : Fin 1)).trans ?_
  refine (colsum_apply _ hred hφ haccA p).trans ?_
  refine Finset.sum_congr rfl fun k _ => ?_
  rw [exp_apply, subf_apply, hM k]

/-- The lane mask: comparing the lane number of entry `(p, k)` of a matrix with 128 lanes with 47
    gives the bit `1` exactly when `k < 47`. -/
theorem lane_mask_apply {m : ℕ} (h : (⟨2, ![m, 128]⟩ : Shape).Iotas .tc 32 [1]) (p : Fin m) (k : Fin 128) :
    cmpi .slt (iota .tc ⟨2, ![m, 128]⟩ 32 [1] h) (broadcast ⟨2, ![m, 128]⟩ 47#32) (ix2 p k)
      = if k.val < 47 then 1#1 else 0#1 := by
  show IntOp.cmpi .slt (iota .tc ⟨2, ![m, 128]⟩ 32 [1] h (ix2 p k)) 47#32 = _
  rw [iota_single_apply]
  exact slt_lane_47 k.val k.isLt

/-- The linear body of the last kernel at row `p`, class lane `q`. -/
def lin4 (a : Vec Ideal S2000x256 .f32) (inv : Vec Ideal S2000x1 .f32) (x : Vec Ideal S2000x256 .f32)
    (wl wr : Vec Ideal S256x128 .f32) (b : Vec Ideal S1x128 .f32) (p : Fin 2000) (q : Fin 128) : EReal :=
  (∑ k : Fin 256, (a (ix2 p k) * inv (ix2 p (0 : Fin 1))) * wl (ix2 k q))
    + (∑ k : Fin 256, x (ix2 p k) * wr (ix2 k q)) + b (ix2 (0 : Fin 1) q)

/-- The linear body on the first 47 lanes and `-∞` on the remaining lanes. -/
def masked (a : Vec Ideal S2000x256 .f32) (inv : Vec Ideal S2000x1 .f32) (x : Vec Ideal S2000x256 .f32)
    (wl wr : Vec Ideal S256x128 .f32) (b : Vec Ideal S1x128 .f32) (p : Fin 2000) (q : Fin 128) : EReal :=
  if q.val < 47 then lin4 a inv x wl wr b p q else ⊥

/-- The last kernel's body at row `p`, lane `q`: the log-softmax, along the 128 lanes, of the
    linear body masked to `-∞` from lane 47 on. -/
theorem softmax4_apply (a : Vec Ideal S2000x256 .f32) (inv : Vec Ideal S2000x1 .f32)
    (x : Vec Ideal S2000x256 .f32) (wl wr : Vec Ideal S256x128 .f32) (b : Vec Ideal S1x128 .f32)
    (p : Fin 2000) (q : Fin 128) :
    k4_pay1 a inv x wl wr b (ix2 p q)
      = Cert.Spec.logSoftmax (fun k : Fin 128 => masked a inv x wl wr b p k) q := by
  unfold k4_pay1
  simp only [shapeCast_self]
  refine (logsoftmax_tail _ _ _ _ _ _ _ p q).trans ?_
  refine congrArg (fun R : Fin 128 → EReal => Cert.Spec.logSoftmax R q) (funext fun k => ?_)
  rw [select_apply, lane_mask_apply, broadcast_apply, neg_big_eq]
  unfold masked
  by_cases hk : k.val < 47
  · rw [if_pos hk, if_pos hk, select_one]
    unfold lin4
    rw [addf_apply, addf_apply, broadcastTo_1b_ab_apply b]
    refine congrArg₂ (· + ·) (congrArg₂ (· + ·) ?_ ?_) rfl
    · refine (matmul_plain_zero_apply _ none _ _ p k).trans ?_
      refine Finset.sum_congr rfl fun c _ => ?_
      rw [truncf_apply, truncf_apply, mulf_apply, Cert.LibColumn.broadcastTo_a1_ab_apply]
    · refine (matmul_plain_zero_apply _ none _ _ p k).trans ?_
      refine Finset.sum_congr rfl fun c _ => ?_
      rw [truncf_apply, truncf_apply]
  · rw [if_neg hk, if_neg hk, select_zero]

end Cert.KernelIdeal.PaySoftmax
-- ==== Proof.Soft4.lean ====
/-
  The last region as one function of the arrays it finds.

  Point t of its 25-point grid stages rows 2000 t … 2000 t + 1999 of the aggregated features, of the features and of
  the inverse-degree column, the two weight matrices (padded to 128 columns) and the padded bias row whole, and
  writes back the same rows of a 128-lane output.  The body forms the 128-lane linear row
  sum_k (agg_ik inv_i) wl_kj + sum_k x_ik wr_kj + b_j , replaces lanes 47 … 127 by minus infinity, and takes the
  row's log-softmax.  A row reads only its own staged rows, so the block a point writes is the restriction to its
  rows of ONE function of the whole arrays, and the 25 row blocks cover the output.
-/
import proofs.«165127_j7773890805925_2_alg».proof.Proof.Gen.KernelIdeal.Frame
import proofs.«165127_j7773890805925_2_alg».proof.Proof.Spec
import proofs.«165127_j7773890805925_2_alg».proof.Proof.PaySoftmax
import Idealize.ShloMosaic.Lib.ValueIdx
import Idealize.ShloMosaic.PureOps.Ideal.Laws
import Idealize.ShloMosaic.Lib.ValueLayout
import Idealize.ShloMosaic.Lib.Pipeline.Value

set_option maxRecDepth 16384
set_option maxHeartbeats 1600000

noncomputable section

namespace Cert.KernelIdeal.Soft4

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Lane j of row i of the 128-lane linear output, from the whole arrays. -/
def L (agg x : S50000x256.Idx → EReal) (inv : S50000x1.Idx → EReal) (wl wr : S256x128.Idx → EReal)
    (b : S1x128.Idx → EReal) (i : Fin 50000) (j : Fin 128) : EReal :=
  (∑ k : Fin 256, (agg (ix2 i k) * inv (ix2 i (0 : Fin 1))) * wl (ix2 k j))
    + (∑ k : Fin 256, x (ix2 i k) * wr (ix2 k j)) + b (ix2 (0 : Fin 1) j)

/-- The same with the padded lanes at minus infinity. -/
def M (agg x : S50000x256.Idx → EReal) (inv : S50000x1.Idx → EReal) (wl wr : S256x128.Idx → EReal)
    (b : S1x128.Idx → EReal) (i : Fin 50000) (j : Fin 128) : EReal :=
  if j.val < 47 then L agg x inv wl wr b i j else ⊥

/-- The region's output: the log-softmax of each masked row. -/
def G (agg x : S50000x256.Idx → EReal) (inv : S50000x1.Idx → EReal) (wl wr : S256x128.Idx → EReal)
    (b : S1x128.Idx → EReal) : S50000x128.Idx → EReal :=
  fun i => Cert.Spec.logSoftmax (fun k : Fin 128 => M agg x inv wl wr b ⟨(i 0).val, idx2_lt0 i⟩ k) ⟨(i 1).val, idx2_lt1 i⟩

/-- The output depends on its row and lane through their values only. -/
theorem G_apply (agg x : S50000x256.Idx → EReal) (inv : S50000x1.Idx → EReal) (wl wr : S256x128.Idx → EReal)
    (b : S1x128.Idx → EReal) (I : Fin 50000) (J : Fin 128) (i : S50000x128.Idx) (h0 : (i 0).val = I.val) (h1 : (i 1).val = J.val) :
    G agg x inv wl wr b i = Cert.Spec.logSoftmax (fun k : Fin 128 => M agg x inv wl wr b I k) J := by
  unfold G
  rw [show (⟨(i 0).val, idx2_lt0 i⟩ : Fin 50000) = I from Fin.ext h0, show (⟨(i 1).val, idx2_lt1 i⟩ : Fin 128) = J from Fin.ext h1]

theorem hz2 : (![0, 0] : Fin 2 → Nat) = fun _ => 0 := funext fun a => by fin_cases a <;> rfl

variable (V : (c : Dev nD) → (b : Ref sig .tc) → Buf (Elt Ideal) ((c : Thread nD τ).loc b))

/-- The printed index maps, decided over the grid: the row windows sit at tile t, the whole windows at the origin. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- A point of the grid as a tile number. -/
abbrev tile (t : Fin cfg4.N) : Fin 25 := ⟨t.val, by have := t.isLt; have h : cfg4.N = 25 := N_4; omega⟩

/-- The body's masked linear row at row r of the block of point t is the whole-array masked row at row r of tile t. -/
theorem masked_at (c : Dev nD) (t : Fin cfg4.N) (r : Fin 2000) (q : Fin 128) :
    Cert.KernelIdeal.PaySoftmax.masked (iblk4 V c 0 t) (iblk4 V c 2 t) (iblk4 V c 1 t) (iblk4 V c 3 t) (iblk4 V c 4 t) (iblk4 V c 5 t) r q
      = M (V c main_v92) (V c main_v82) (V c main_v12) (V c main_v93) (V c main_v94) (V c main_v96) (Cert.Spec.row (tile t) r) q := by
  obtain ⟨a0, a1, b0, b1, c0, c1, d0, d1, e0, e1, f0, f1, g0, g1⟩ := idx_facts t
  have hb0 : ∀ k : Fin 256, iblk4 V c 0 t (ix2 r k) = V c main_v92 (ix2 (Cert.Spec.row (tile t) r) k) := fun k => by
    show V c main_v92 (((cfg4.win 0).blk t).view.emb (ix2 r k)) = V c main_v92 (ix2 (Cert.Spec.row (tile t) r) k)
    refine congrArg _ (funext fun a => Fin.ext ?_)
    match a with
    | ⟨0, _⟩ => show win4_0.index t (0 : Fin 2) * 2000 + 1 * r.val = t.val * 2000 + r.val; omega
    | ⟨1, _⟩ => show win4_0.index t (1 : Fin 2) * 256 + 1 * k.val = k.val; omega
  have hb1 : ∀ k : Fin 256, iblk4 V c 1 t (ix2 r k) = V c main_v82 (ix2 (Cert.Spec.row (tile t) r) k) := fun k => by
    show V c main_v82 (((cfg4.win 1).blk t).view.emb (ix2 r k)) = V c main_v82 (ix2 (Cert.Spec.row (tile t) r) k)
    refine congrArg _ (funext fun a => Fin.ext ?_)
    match a with
    | ⟨0, _⟩ => show win4_1.index t (0 : Fin 2) * 2000 + 1 * r.val = t.val * 2000 + r.val; omega
    | ⟨1, _⟩ => show win4_1.index t (1 : Fin 2) * 256 + 1 * k.val = k.val; omega
  have hb2 : iblk4 V c 2 t (ix2 r (0 : Fin 1)) = V c main_v12 (ix2 (Cert.Spec.row (tile t) r) (0 : Fin 1)) := by
    show V c main_v12 (((cfg4.win 2).blk t).view.emb (ix2 r (0 : Fin 1))) = V c main_v12 (ix2 (Cert.Spec.row (tile t) r) (0 : Fin 1))
    refine congrArg _ (funext fun a => Fin.ext ?_)
    match a with
    | ⟨0, _⟩ => show win4_2.index t (0 : Fin 2) * 2000 + 1 * r.val = t.val * 2000 + r.val; omega
    | ⟨1, _⟩ => show win4_2.index t (1 : Fin 2) * 1 + 1 * 0 = 0; omega
  have hb3 : ∀ k : Fin 256, iblk4 V c 3 t (ix2 k q) = V c main_v93 (ix2 k q) := fun k => by
    show V c main_v93 (((cfg4.win 3).blk t).view.emb (ix2 k q)) = V c main_v93 (ix2 k q)
    refine congrArg _ (funext fun a => Fin.ext ?_)
    match a with
    | ⟨0, _⟩ => show win4_3.index t (0 : Fin 2) * 256 + 1 * k.val = k.val; omega
    | ⟨1, _⟩ => show win4_3.index t (1 : Fin 2) * 128 + 1 * q.val = q.val; omega
  have hb4 : ∀ k : Fin 256, iblk4 V c 4 t (ix2 k q) = V c main_v94 (ix2 k q) := fun k => by
    show V c main_v94 (((cfg4.win 4).blk t).view.emb (ix2 k q)) = V c main_v94 (ix2 k q)
    refine congrArg _ (funext fun a => Fin.ext ?_)
    match a with
    | ⟨0, _⟩ => show win4_4.index t (0 : Fin 2) * 256 + 1 * k.val = k.val; omega
    | ⟨1, _⟩ => show win4_4.index t (1 : Fin 2) * 128 + 1 * q.val = q.val; omega
  have hb5 : iblk4 V c 5 t (ix2 (0 : Fin 1) q) = V c main_v96 (ix2 (0 : Fin 1) q) := by
    show V c main_v96 (((cfg4.win 5).blk t).view.emb (ix2 (0 : Fin 1) q)) = V c main_v96 (ix2 (0 : Fin 1) q)
    refine congrArg _ (funext fun a => Fin.ext ?_)
    match a with
    | ⟨0, _⟩ => show win4_5.index t (0 : Fin 2) * 1 + 1 * 0 = 0; omega
    | ⟨1, _⟩ => show win4_5.index t (1 : Fin 2) * 128 + 1 * q.val = q.val; omega
  unfold Cert.KernelIdeal.PaySoftmax.masked M
  refine if_congr Iff.rfl ?_ rfl
  unfold Cert.KernelIdeal.PaySoftmax.lin4 L
  rw [hb2, hb5]
  refine congrArg₂ (· + ·) (congrArg₂ (· + ·) (Finset.sum_congr rfl fun k _ => ?_) (Finset.sum_congr rfl fun k _ => ?_)) rfl
  · rw [hb0 k, hb3 k]
  · rw [hb1 k, hb4 k]

/-- What point t writes back is block t of `G`. -/
theorem flushed_eq (c : Dev nD) (t : Fin cfg4.N) :
    (dat4 V c).flushed 6 t = ((cfg4.win 6).blk t).view.read (Elt Ideal) (G (V c main_v92) (V c main_v82) (V c main_v12) (V c main_v93) (V c main_v94) (V c main_v96)) := by
  show (cfg4.win 6).cut (grid4.coords t) ((dat4 V c).after 6 t) = _
  rw [after4_6]
  unfold out4_6
  rw [View.canon_unit_zero hz2]
  simp only [View.ld_unit_zero (S := S2000x256) hz2, View.ld_unit_zero (S := S2000x1) hz2, View.ld_unit_zero (S := S256x128) hz2,
    View.ld_unit_zero (S := S1x128) hz2]
  obtain ⟨a0, a1, b0, b1, c0, c1, d0, d1, e0, e1, f0, f1, g0, g1⟩ := idx_facts t
  funext j
  obtain ⟨p, q, rfl⟩ : ∃ (p : Fin 2000) (q : Fin 128), j = ix2 p q := ⟨j 0, j 1, eq_ix2 j⟩
  show k4_pay1 (iblk4 V c 0 t) (iblk4 V c 2 t) (iblk4 V c 1 t) (iblk4 V c 3 t) (iblk4 V c 4 t) (iblk4 V c 5 t) (ix2 p q)
    = G (V c main_v92) (V c main_v82) (V c main_v12) (V c main_v93) (V c main_v94) (V c main_v96) (((cfg4.win 6).blk t).view.emb (ix2 p q))
  refine (Cert.KernelIdeal.PaySoftmax.softmax4_apply _ _ _ _ _ _ p q).trans ?_
  refine Eq.trans ?_ (G_apply _ _ _ _ _ _ (Cert.Spec.row (tile t) p) q _
    (show win4_6.index t (0 : Fin 2) * 2000 + 1 * p.val = t.val * 2000 + p.val by omega)
    (show win4_6.index t (1 : Fin 2) * 128 + 1 * q.val = q.val by omega)).symm
  exact congrArg (fun f => Cert.Spec.logSoftmax f q) (funext fun k => masked_at V c t p k)

/-- An index of the output is in point t's block iff each coordinate is in the block's range on its axis. -/
theorem mem_blk (t : Fin cfg4.N) (i : S50000x128.Idx) :
    i ∈ ((cfg4.win 6).blk t).view.set ↔ ∀ a : Fin 2, win4_6.index t a * S2000x128.size a ≤ (i a).val ∧ (i a).val < win4_6.index t a * S2000x128.size a + S2000x128.size a := by
  show i ∈ ((View.whole main_v97).slice (win4_6.rect t)).set ↔ _
  rw [View.set_slice_whole, Rect.mem_set_unit]
  exact Iff.rfl

/-- Every entry of the output lies in the block of the point its row's tile names. -/
theorem cover (i : S50000x128.Idx) : ∃ t : Fin cfg4.N, (cfg4.win 6).flush t = true ∧ i ∈ ((cfg4.win 6).blk t).view.set := by
  have hi0 : (i 0).val < 50000 := idx2_lt0 i
  have hi1 : (i 1).val < 128 := idx2_lt1 i
  have hN : cfg4.N = 25 := N_4
  refine ⟨⟨(i 0).val / 2000, by rw [hN]; omega⟩, flush4_6 _, ?_⟩
  rw [mem_blk]
  obtain ⟨a0, a1, b0, b1, c0, c1, d0, d1, e0, e1, f0, f1, g0, g1⟩ := idx_facts ⟨(i 0).val / 2000, by rw [hN]; omega⟩
  intro a
  match a with
  | ⟨0, _⟩ =>
    show win4_6.index _ (0 : Fin 2) * 2000 ≤ (i 0).val ∧ (i 0).val < win4_6.index _ (0 : Fin 2) * 2000 + 2000
    rw [g0]; show (i 0).val / 2000 * 2000 ≤ (i 0).val ∧ (i 0).val < (i 0).val / 2000 * 2000 + 2000; omega
  | ⟨1, _⟩ =>
    show win4_6.index _ (1 : Fin 2) * 128 ≤ (i 1).val ∧ (i 1).val < win4_6.index _ (1 : Fin 2) * 128 + 128
    rw [g1]; omega

/-- After the region its output array is `G` of the arrays the region found. -/
theorem final (c : Dev nD) : (dat4 V c).arrAt 6 cfg4.N = G (V c main_v92) (V c main_v82) (V c main_v12) (V c main_v93) (V c main_v94) (V c main_v96) :=
  (dat4 V c).arrAt_eq_of_cover 6 _ (fun t _ => flushed_eq V c t) cover

end Cert.KernelIdeal.Soft4

end
-- ==== Proof.Consts.lean ====
/-
  The float constants the two programs spell, as the extended reals their words denote at the exact instance:
  the number of nodes 50000, the number of tiles 25, the tile height 2000, one, zero, minus infinity, and the
  variance's stabiliser, a positive real (the f32 nearest to 1e-5).
-/
import Idealize.ShloMosaic.PureOps.Ideal

noncomputable section

namespace Cert.Consts

open Idealize.ShloMosaic

/-- The word of `0.0` denotes zero. -/
theorem ofBits_zero : Ideal.ofBits .f32 0x00000000#32 = 0 := by
  simp [Ideal.ofBits, Ideal.ieee]

/-- The word of `1.0` denotes one. -/
theorem ofBits_one : Ideal.ofBits .f32 0x3F800000#32 = ((1 : ℝ) : EReal) := by
  simp [Ideal.ofBits, Ideal.ieee, -EReal.coe_mul]; norm_num

/-- The word of `25.0` denotes twenty-five. -/
theorem ofBits_25 : Ideal.ofBits .f32 0x41C80000#32 = ((25 : ℝ) : EReal) := by
  simp [Ideal.ofBits, Ideal.ieee, -EReal.coe_mul]; norm_num

/-- The word of `2000.0` denotes two thousand. -/
theorem ofBits_2000 : Ideal.ofBits .f32 0x44FA0000#32 = ((2000 : ℝ) : EReal) := by
  simp [Ideal.ofBits, Ideal.ieee, -EReal.coe_mul]; norm_num

/-- The word of `50000.0` denotes fifty thousand. -/
theorem ofBits_50000 : Ideal.ofBits .f32 0x47435000#32 = ((50000 : ℝ) : EReal) := by
  simp [Ideal.ofBits, Ideal.ieee, -EReal.coe_mul]; norm_num

/-- The word of minus infinity denotes the bottom element. -/
theorem ofBits_neg_inf : Ideal.ofBits .f32 0xFF800000#32 = (⊥ : EReal) := by
  simp [Ideal.ofBits, Ideal.ieee]

/-- The stabiliser's word denotes a positive real number. -/
theorem ofBits_eps : ∃ e : ℝ, 0 < e ∧ Ideal.ofBits .f32 0x3727C5AC#32 = ((e : ℝ) : EReal) := by
  refine ⟨_, ?_, by simp [Ideal.ofBits, Ideal.ieee, -EReal.coe_mul]; rfl⟩
  norm_num

end Cert.Consts

end
-- ==== Proof.KRead.lean ====
/-
Combining the per-tile statistics, read at one column.

After each statistics region the host combines the 25 tiles' means and sums of squared
deviations.  At column `j` the combined mean is the sum of the 25 tile means divided by 25, and
the combined variance is the sum of the 25 tile sums of squares plus 2000 times the sum of the
squared deviations of the tile means about the combined mean, divided by 50000 and clamped below
at zero.  The tile arrays have shape `[25, 1, 256]`; reshaped to `[25, 256]`, entry `(t, j)` is
the entry `(t, 0, j)`.
-/
import Idealize.ShloMosaic.Lib.KernelVsHost
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws
import proofs.«165127_j7773890805925_2_alg».proof.Proof.KTerms
import proofs.«165127_j7773890805925_2_alg».proof.Proof.LibColumn
import proofs.«165127_j7773890805925_2_alg».proof.Proof.Consts

noncomputable section

namespace Cert.KernelIdeal.KRead

open Cert.KernelIdeal Cert.KernelIdeal.Gen Cert.KernelIdeal.KTerms Idealize.ShloMosaic
  Idealize.ShloMosaic.ValueIdx
open scoped BigOperators

/-- A `[a, 1, b]` array reshaped to `[a, b]` reads, at `(t, j)`, the operand at `(t, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (t : Fin a) (j : Fin b) :
    shapeCast ⟨2, ![a, b]⟩ x h (ix2 t j) = x (ix3 t (0 : Fin 1) j) :=
  shapeCast_apply x h _ _ (by
    rw [Shape.rowMajor_val_three, Shape.rowMajor_val_two]
    show (t.val * 1 + 0) * b + j.val = t.val * b + j.val
    rw [Nat.mul_one, Nat.add_zero])

/-- Reducing a matrix over its rows: the index of row `r` above the reduced index `q` is
    `(r, q)`. -/
theorem lift_rows {m n : ℕ} (h : (⟨2, ![m, n]⟩ : Shape).Reduces [0] ⟨1, ![n]⟩) (q : Fin n) (r : Fin m) :
    h.lift (ix1 q) r = ix2 r q := by
  funext ax; apply Fin.ext
  match ax with
  | ⟨0, _⟩ => rfl
  | ⟨1, _⟩ => rfl

/-- The host's sum of a matrix over its rows, read at column `j`: the initial value plus the sum
    over `i` of the entries `(i, j)`. -/
theorem hostColSum_apply {m n : ℕ} (x : FVec Ideal ⟨2, ![m, n]⟩ .f32) (init : FVec Ideal ⟨0, ![]⟩ .f32)
    (h' : (⟨2, ![m, n]⟩ : Shape).ReducesTo [0] ⟨1, ![n]⟩) (hu : 0 < (⟨0, ![]⟩ : Shape).numel) (j : Fin n) :
    Host.reduceAdd (F := Ideal) x init h' hu (ix1 j) = init ix0 + ∑ i : Fin m, x (ix2 i j) := by
  have h : (⟨2, ![m, n]⟩ : Shape).Reduces [0] ⟨1, ![n]⟩ := ⟨h'.1, Nat.one_pos, h'.2⟩
  rw [hostReduceAdd_apply, Ideal.hostReduceAdd_single h' h]
  refine congrArg₂ (· + ·) (congrArg init (eq_ix0 _)) ?_
  exact Finset.sum_congr rfl fun i _ => congrArg x (lift_rows h j i)

/-- The mean of the 25 tile means at column `j`. -/
theorem glueMeanT_apply (meanp : FVec Ideal S25x1x256 .f32) (j : Fin 256) :
    glueMeanT meanp (ix2 (0 : Fin 1) j)
      = Ideal.div (∑ t : Fin 25, meanp (ix3 t (0 : Fin 1) j)) ((25 : ℝ) : EReal) := by
  unfold glueMeanT
  rw [hostDivf_apply, Cert.LibColumn.broadcastInDim_b_1b_apply, hostColSum_apply,
    broadcastInDim_scalar_apply]
  repeat rw [constant_apply]
  rw [Cert.Consts.ofBits_zero, Cert.Consts.ofBits_25, zero_add]
  refine congrArg (fun z => Ideal.div z ((25 : ℝ) : EReal)) (Finset.sum_congr rfl fun t _ => ?_)
  exact shapeCast_a1b_ab_apply _ _ t j

/-- The deviation of tile `t`'s mean from the mean of the tile means, at column `j`. -/
theorem glueDiffT_apply (meanp : FVec Ideal S25x1x256 .f32) (t : Fin 25) (j : Fin 256) :
    glueDiffT meanp (ix2 t j) = meanp (ix3 t (0 : Fin 1) j) - glueMeanT meanp (ix2 (0 : Fin 1) j) := by
  unfold glueDiffT
  rw [subf_apply, broadcastInDim_oneRow_apply, shapeCast_a1b_ab_apply]

/-- The combined variance at column `j`: the sum of the tile sums of squares plus 2000 times the
    sum of the squared deviations of the tile means, divided by 50000 and clamped below at
    zero. -/
theorem glueVarT_apply (meanp m2p : FVec Ideal S25x1x256 .f32) (j : Fin 256) :
    glueVarT meanp m2p (ix2 (0 : Fin 1) j)
      = max (Ideal.div
          ((∑ t : Fin 25, m2p (ix3 t (0 : Fin 1) j))
            + ((2000 : ℝ) : EReal)
              * ∑ t : Fin 25,
                  (meanp (ix3 t (0 : Fin 1) j) - glueMeanT meanp (ix2 (0 : Fin 1) j))
                  * (meanp (ix3 t (0 : Fin 1) j) - glueMeanT meanp (ix2 (0 : Fin 1) j)))
          ((50000 : ℝ) : EReal)) 0 := by
  unfold glueVarT
  rw [maximumf_apply, hostDivf_apply, addf_apply, mulf_apply]
  repeat rw [Cert.LibColumn.broadcastInDim_b_1b_apply]
  repeat rw [hostColSum_apply]
  repeat rw [broadcastInDim_scalar_apply]
  repeat rw [constant_apply]
  rw [Cert.Consts.ofBits_zero, Cert.Consts.ofBits_2000, Cert.Consts.ofBits_50000, zero_add, zero_add]
  refine congrArg (fun z => max (Ideal.div z ((50000 : ℝ) : EReal)) 0) ?_
  refine congrArg₂ (· + ·) (Finset.sum_congr rfl fun t _ => shapeCast_a1b_ab_apply _ _ t j) ?_
  refine congrArg (fun z => ((2000 : ℝ) : EReal) * z) (Finset.sum_congr rfl fun t _ => ?_)
  rw [mulf_apply, glueDiffT_apply]

end Cert.KernelIdeal.KRead
-- ==== Proof.RefRead.lean ====
/-
The reference's steps, read one entry at a time.

Each step of the network on the host is an array built from whole-array operations.  Read at a
single index, a linear map is two sums of products over the inner width plus a bias; the column
mean and variance over the 50000 nodes are the population mean and the mean squared deviation,
the variance's guard on its constant divisor being true; a normalised, shifted and rectified
entry is the scale times the deviation times the reciprocal root of the variance plus the
stabiliser, plus the shift, clamped below at zero; and the log-softmax of a row subtracts the
row's maximum (folded from `-∞`) and the logarithm of the sum of the shifted exponentials.
-/
import Idealize.ShloMosaic.Lib.KernelVsHost
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws
import proofs.«165127_j7773890805925_2_alg».proof.Proof.RefTerms
import proofs.«165127_j7773890805925_2_alg».proof.Proof.Spec
import proofs.«165127_j7773890805925_2_alg».proof.Proof.LibColumn
import proofs.«165127_j7773890805925_2_alg».proof.Proof.Consts

noncomputable section

namespace Cert.ReferenceIdeal.RefRead

open Cert.ReferenceIdeal Cert.ReferenceIdeal.Gen Cert.ReferenceIdeal.RefTerms Idealize.ShloMosaic
  Idealize.ShloMosaic.ValueIdx
open scoped BigOperators

/-! ### The linear maps -/

/-- A plain matrix product on the host (rows by columns, one contracted axis) reads, at
    `(i, j)`, the sum over the contracted coordinate `c` of the left operand at `(i, c)` times
    the right operand at `(c, j)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (i : Fin m) (j : Fin n) :
    Host.dotGeneral (F := Ideal) (⟨[1], [0], [0], [1], [], [], w⟩ : DotDims _ _ _) prec A B (ix2 i j)
      = ∑ c : Fin k, A (ix2 i c) * B (ix2 c j) := by
  show FloatOps.dotGeneral _ prec _ A B (ix2 i j) = _
  rw [Ideal.dotGeneral_apply,
    ← Equiv.sum_comp (contrEquiv1 (⟨[1], [0], [0], [1], [], [], w⟩ : DotDims _ _ _) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 i j)
      ((contrEquiv1 _ k rfl rfl).symm c) = ix2 i c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 i j)
      ((contrEquiv1 _ k rfl rfl).symm c) = ix2 c j := by
    funext ax; apply Fin.ext
    match ax with
    | ⟨0, _⟩ => simp [DotDims.rhsIdx]; exact hc
    | ⟨1, _⟩ => simp [DotDims.rhsIdx]; rfl
  rw [hl, hr]

/-- The first layer's linear map at node `i`, output `j`: the aggregate row scaled by the
    node's inverse degree times the left weights, plus the feature row times the right weights,
    plus the bias. -/
theorem linT128_apply (agg x : FVec Ideal S50000x128 .f32) (inv : FVec Ideal S50000 .f32)
    (wl wr : FVec Ideal S128x256 .f32) (b : FVec Ideal S256 .f32) (i : Fin 50000) (j : Fin 256) :
    linT128 agg x inv wl wr b (ix2 i j)
      = (∑ k : Fin 128, (agg (ix2 i k) * inv (ix1 i)) * wl (ix2 k j))
        + (∑ k : Fin 128, x (ix2 i k) * wr (ix2 k j)) + b (ix1 j) := by
  unfold linT128
  rw [addf_apply, addf_apply]
  refine congrArg₂ (· + ·) (congrArg₂ (· + ·) ?_ ?_) ?_
  · refine (dotGeneral_plain_apply _ none _ _ i j).trans ?_
    refine Finset.sum_congr rfl fun k _ => ?_
    rw [mulf_apply, Cert.LibColumn.broadcastInDim_a1_ab_apply, Cert.LibColumn.broadcastInDim_a_a1_apply]
  · exact dotGeneral_plain_apply _ none _ _ i j
  · rw [broadcastInDim_oneRow_apply, Cert.LibColumn.broadcastInDim_b_1b_apply]

/-- The second layer's linear map at node `i`, output `j` (inner width 256). -/
theorem linT256_apply (agg x : FVec Ideal S50000x256 .f32) (inv : FVec Ideal S50000 .f32)
    (wl wr : FVec Ideal S256x256 .f32) (b : FVec Ideal S256 .f32) (i : Fin 50000) (j : Fin 256) :
    linT256 agg x inv wl wr b (ix2 i j)
      = (∑ k : Fin 256, (agg (ix2 i k) * inv (ix1 i)) * wl (ix2 k j))
        + (∑ k : Fin 256, x (ix2 i k) * wr (ix2 k j)) + b (ix1 j) := by
  unfold linT256
  rw [addf_apply, addf_apply]
  refine congrArg₂ (· + ·) (congrArg₂ (· + ·) ?_ ?_) ?_
  · refine (dotGeneral_plain_apply _ none _ _ i j).trans ?_
    refine Finset.sum_congr rfl fun k _ => ?_
    rw [mulf_apply, Cert.LibColumn.broadcastInDim_a1_ab_apply, Cert.LibColumn.broadcastInDim_a_a1_apply]
  · exact dotGeneral_plain_apply _ none _ _ i j
  · rw [broadcastInDim_oneRow_apply, Cert.LibColumn.broadcastInDim_b_1b_apply]

/-- The last layer's linear map at node `i`, class `j` (inner width 256, 47 outputs). -/
theorem linT47_apply (agg x : FVec Ideal S50000x256 .f32) (inv : FVec Ideal S50000 .f32)
    (wl wr : FVec Ideal S256x47 .f32) (b : FVec Ideal S47 .f32) (i : Fin 50000) (j : Fin 47) :
    linT47 agg x inv wl wr b (ix2 i j)
      = (∑ k : Fin 256, (agg (ix2 i k) * inv (ix1 i)) * wl (ix2 k j))
        + (∑ k : Fin 256, x (ix2 i k) * wr (ix2 k j)) + b (ix1 j) := by
  unfold linT47
  rw [addf_apply, addf_apply]
  refine congrArg₂ (· + ·) (congrArg₂ (· + ·) ?_ ?_) ?_
  · refine (dotGeneral_plain_apply _ none _ _ i j).trans ?_
    refine Finset.sum_congr rfl fun k _ => ?_
    rw [mulf_apply, Cert.LibColumn.broadcastInDim_a1_ab_apply, Cert.LibColumn.broadcastInDim_a_a1_apply]
  · exact dotGeneral_plain_apply _ none _ _ i j
  · rw [broadcastInDim_oneRow_apply, Cert.LibColumn.broadcastInDim_b_1b_apply]

/-! ### Host reductions of a matrix read at one index -/

/-- Reducing a matrix over its rows: the index of row `r` above the reduced index `q` is
    `(r, q)`. -/
theorem lift_rows {m n : ℕ} (h : (⟨2, ![m, n]⟩ : Shape).Reduces [0] ⟨1, ![n]⟩) (q : Fin n) (r : Fin m) :
    h.lift (ix1 q) r = ix2 r q := by
  funext ax; apply Fin.ext
  match ax with
  | ⟨0, _⟩ => rfl
  | ⟨1, _⟩ => rfl

/-- Reducing a matrix along each row: the index of column `k` above the reduced index `p` is
    `(p, k)`. -/
theorem lift_cols {m n : ℕ} (h : (⟨2, ![m, n]⟩ : Shape).Reduces [1] ⟨1, ![m]⟩) (p : Fin m) (k : Fin n) :
    h.lift (ix1 p) k = ix2 p k := by
  funext ax; apply Fin.ext
  match ax with
  | ⟨0, _⟩ => rfl
  | ⟨1, _⟩ => rfl

/-- The host's sum of a matrix over its rows, read at column `j`: the initial value plus the sum
    over `i` of the entries `(i, j)`. -/
theorem hostColSum_apply {m n : ℕ} (x : FVec Ideal ⟨2, ![m, n]⟩ .f32) (init : FVec Ideal ⟨0, ![]⟩ .f32)
    (h' : (⟨2, ![m, n]⟩ : Shape).ReducesTo [0] ⟨1, ![n]⟩) (hu : 0 < (⟨0, ![]⟩ : Shape).numel) (j : Fin n) :
    Host.reduceAdd (F := Ideal) x init h' hu (ix1 j) = init ix0 + ∑ i : Fin m, x (ix2 i j) := by
  have h : (⟨2, ![m, n]⟩ : Shape).Reduces [0] ⟨1, ![n]⟩ := ⟨h'.1, Nat.one_pos, h'.2⟩
  rw [hostReduceAdd_apply, Ideal.hostReduceAdd_single h' h]
  refine congrArg₂ (· + ·) (congrArg init (eq_ix0 _)) ?_
  exact Finset.sum_congr rfl fun i _ => congrArg x (lift_rows h j i)

/-- The host's sum of a matrix along each row, read at row `i`: the initial value plus the sum
    over `k` of the entries `(i, k)`. -/
theorem hostRowSum_apply {m n : ℕ} (x : FVec Ideal ⟨2, ![m, n]⟩ .f32) (init : FVec Ideal ⟨0, ![]⟩ .f32)
    (h' : (⟨2, ![m, n]⟩ : Shape).ReducesTo [1] ⟨1, ![m]⟩) (hu : 0 < (⟨0, ![]⟩ : Shape).numel) (i : Fin m) :
    Host.reduceAdd (F := Ideal) x init h' hu (ix1 i) = init ix0 + ∑ k : Fin n, x (ix2 i k) := by
  have h : (⟨2, ![m, n]⟩ : Shape).Reduces [1] ⟨1, ![m]⟩ := ⟨h'.1, Nat.one_pos, h'.2⟩
  rw [hostReduceAdd_apply, Ideal.hostReduceAdd_single h' h]
  refine congrArg₂ (· + ·) (congrArg init (eq_ix0 _)) ?_
  exact Finset.sum_congr rfl fun k _ => congrArg x (lift_cols h i k)

/-- The host's maximum of a matrix along each row, read at row `i`: the maximum, folded from
    the initial value, of the entries `(i, k)`. -/
theorem hostRowMax_apply {m n : ℕ} (x : FVec Ideal ⟨2, ![m, n]⟩ .f32) (init : FVec Ideal ⟨0, ![]⟩ .f32)
    (h' : (⟨2, ![m, n]⟩ : Shape).ReducesTo [1] ⟨1, ![m]⟩) (hu : 0 < (⟨0, ![]⟩ : Shape).numel) (i : Fin m) :
    Host.reduce FloatOps.maximumf x init h' hu (ix1 i)
      = (Finset.univ : Finset (Fin n)).fold max (init ix0) (fun k => x (ix2 i k)) := by
  have h : (⟨2, ![m, n]⟩ : Shape).Reduces [1] ⟨1, ![m]⟩ := ⟨h'.1, Nat.one_pos, h'.2⟩
  rw [Host.reduce_eq_fold_single FloatOps.maximumf x init h' h hu]
  have hf : (x ∘ h.lift (ix1 i)) = fun k : Fin n => x (ix2 i k) :=
    funext fun k => congrArg x (lift_cols h i k)
  rw [hf, show Shape.Idx.first hu = ix0 from eq_ix0 _]
  rfl

/-- The host's reciprocal square root reads entrywise. -/
theorem hostRsqrt_apply {s : Shape} (v : FVec Ideal s .f32) (i : s.Idx) :
    Host.rsqrt (F := Ideal) v i = Ideal.rsqrt (v i) := rfl

/-- The host's exponential reads entrywise. -/
theorem hostExp_apply {s : Shape} (v : FVec Ideal s .f32) (i : s.Idx) :
    Host.exp (F := Ideal) v i = Ideal.exp (v i) := rfl

/-- The host's logarithm reads entrywise. -/
theorem hostLog_apply {s : Shape} (v : FVec Ideal s .f32) (i : s.Idx) :
    Host.log (F := Ideal) v i = Ideal.log (v i) := rfl

/-! ### Column statistics -/

/-- The column mean over the 50000 nodes. -/
theorem meanT_apply (lin : FVec Ideal S50000x256 .f32) (j : Fin 256) :
    meanT lin (ix1 j) = Cert.Spec.meanR (fun i => lin (ix2 i j)) := by
  unfold meanT Cert.Spec.meanR
  rw [hostDivf_apply, hostColSum_apply, broadcastInDim_scalar_apply]
  simp only [constant_apply]
  rw [Cert.Consts.ofBits_zero, Cert.Consts.ofBits_50000, zero_add]

/-- The variance's divisor is the number of nodes. -/
theorem varDivT_apply : varDivT ix0 = ((50000 : ℝ) : EReal) := by
  unfold varDivT
  rw [subf_apply, constant_apply, sitofp_apply, constantI_apply, Cert.Consts.ofBits_50000]
  show ((50000 : ℝ) : EReal) - (((0#32 : BitVec 32).toInt : ℝ) : EReal) = _
  simp

/-- The column variance over the 50000 nodes: the divisor is positive, so the selection takes the
    mean squared deviation. -/
theorem varT_apply (lin : FVec Ideal S50000x256 .f32) (j : Fin 256) :
    varT lin (ix1 j) = Cert.Spec.varR (fun i => lin (ix2 i j)) := by
  have hpred : (broadcastInDim S256 ![] bcast_S_S256
      (cmpf .ogt varDivT (constant (F := Ideal) S_ .f32 0x00000000#32))) (ix1 j) = 1#1 := by
    rw [broadcastInDim_scalar_apply, cmpf_apply, varDivT_apply, constant_apply, Cert.Consts.ofBits_zero]
    show BitVec.ofBool (decide ((0 : EReal) < ((50000 : ℝ) : EReal))) = 1#1
    have h : (0 : EReal) < ((50000 : ℝ) : EReal) := by exact_mod_cast (by norm_num : (0 : ℝ) < 50000)
    rw [decide_eq_true h]; rfl
  unfold varT
  rw [select_apply, hpred, select_one, hostDivf_apply, broadcastInDim_scalar_apply, varDivT_apply,
    hostColSum_apply, constant_apply, Cert.Consts.ofBits_zero, zero_add]
  unfold Cert.Spec.varR
  refine congrArg (fun z => Ideal.div z ((50000 : ℝ) : EReal)) (Finset.sum_congr rfl fun i _ => ?_)
  rw [mulf_apply, subf_apply, broadcastInDim_oneRow_apply, hostDivf_apply,
    Cert.LibColumn.broadcastInDim_b_1b_apply, hostColSum_apply, broadcastInDim_scalar_apply]
  simp only [constant_apply]
  rw [Cert.Consts.ofBits_zero, Cert.Consts.ofBits_50000, zero_add]
  rfl

/-! ### Normalise, shift, rectify -/

/-- The normalised, shifted and rectified entry at node `i`, feature `j`. -/
theorem bnT_apply (lin : FVec Ideal S50000x256 .f32) (mean var g be : FVec Ideal S256 .f32)
    (i : Fin 50000) (j : Fin 256) :
    bnT lin mean var g be (ix2 i j)
      = Cert.Spec.bnrelu (Ideal.ofBits .f32 0x3727C5AC#32) (g (ix1 j)) (lin (ix2 i j)) (mean (ix1 j))
          (var (ix1 j)) (be (ix1 j)) := by
  unfold bnT scaledT Cert.Spec.bnrelu
  rw [maximumf_apply, addf_apply, mulf_apply, mulf_apply, subf_apply]
  repeat rw [broadcastInDim_oneRow_apply]
  repeat rw [Cert.LibColumn.broadcastInDim_b_1b_apply]
  rw [hostRsqrt_apply, addf_apply]
  repeat rw [broadcastInDim_scalar_apply]
  repeat rw [constant_apply]
  rw [Cert.Consts.ofBits_zero]

/-! ### Log-softmax -/

/-- The row maximum of the log-softmax at node `i`. -/
theorem lsmMaxT_apply (x : FVec Ideal S50000x47 .f32) (i : Fin 50000) :
    lsmMaxT x (ix1 i) = (Finset.univ : Finset (Fin 47)).fold max ⊥ (fun k => x (ix2 i k)) := by
  unfold lsmMaxT
  rw [maximumf_apply, broadcastInDim_scalar_apply, hostRowMax_apply]
  simp only [constant_apply]
  rw [Cert.Consts.ofBits_neg_inf]
  exact max_eq_right bot_le

/-- The row shifted by its maximum, at node `i`, class `k`. -/
theorem lsmShiftT_apply (x : FVec Ideal S50000x47 .f32) (i : Fin 50000) (k : Fin 47) :
    lsmShiftT x (ix2 i k)
      = x (ix2 i k) - (Finset.univ : Finset (Fin 47)).fold max ⊥ (fun k => x (ix2 i k)) := by
  unfold lsmShiftT
  rw [subf_apply, Cert.LibColumn.broadcastInDim_a1_ab_apply, Cert.LibColumn.broadcastInDim_a_a1_apply,
    lsmMaxT_apply]

/-- The row-wise log-softmax at node `i`, class `j`. -/
theorem lsmT_apply (x : FVec Ideal S50000x47 .f32) (i : Fin 50000) (j : Fin 47) :
    lsmT x (ix2 i j) = Cert.Spec.logSoftmax (fun k : Fin 47 => x (ix2 i k)) j := by
  unfold lsmT Cert.Spec.logSoftmax
  rw [subf_apply, lsmShiftT_apply, Cert.LibColumn.broadcastInDim_a1_ab_apply, hostLog_apply,
    Cert.LibColumn.broadcastInDim_a_a1_apply, hostRowSum_apply, constant_apply, Cert.Consts.ofBits_zero,
    zero_add]
  refine congrArg₂ (· - ·) rfl (congrArg Ideal.log (Finset.sum_congr rfl fun k _ => ?_))
  rw [hostExp_apply, lsmShiftT_apply]

end Cert.ReferenceIdeal.RefRead
-- ==== Proof.LibFinite.lean ====
/-
Finiteness is preserved by exact arithmetic.

An extended real is called real here when it is the image of a real number, equivalently when
it is neither of the two infinities.  Sums, differences, products, maxima and minima of real
values are real; so are a quotient by a nonzero real value, the exponential of a real value
(which is moreover positive), and the reciprocal square root (positive) and the logarithm of a
positive real value; and so is every finite sum of real values.  Consequently the array
operations that are finite sums of products or finite sums of entries (matrix products,
reductions by addition, scatter with addition) send arrays of real entries to arrays of real
entries.
-/
import Mathlib.Data.EReal.Operations
import Mathlib.Data.EReal.Inv
import Mathlib.Algebra.BigOperators.Group.Finset.Basic
import Mathlib.Analysis.SpecialFunctions.Exp
import Mathlib.Analysis.SpecialFunctions.Sqrt
import Idealize.ShloMosaic.PureOps.Ideal
import Idealize.ShloMosaic.PureOps.Ideal.Laws

noncomputable section

open Idealize.ShloMosaic
open scoped BigOperators

namespace Cert.LibFinite

/-! ### Scalars -/

/-- An extended real is real when it is the image of a real number. -/
def IsRealE (x : EReal) : Prop := ∃ r : ℝ, x = (r : EReal)

/-- Every entry of a family of extended reals is real. -/
def AllReal {ι : Sort*} (f : ι → EReal) : Prop := ∀ i, IsRealE (f i)

/-- The image of a real number is real. -/
theorem isRealE_coe (r : ℝ) : IsRealE (r : EReal) := ⟨r, rfl⟩

/-- Zero is real. -/
theorem isRealE_zero : IsRealE 0 := ⟨0, EReal.coe_zero.symm⟩

/-- One is real. -/
theorem isRealE_one : IsRealE 1 := ⟨1, EReal.coe_one.symm⟩

/-- An extended real is real exactly when it is neither `+∞` nor `-∞`. -/
theorem isRealE_iff_ne (x : EReal) : IsRealE x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- A real extended real is the image of its real part. -/
theorem IsRealE.coe_toReal {x : EReal} (hx : IsRealE x) : ((x.toReal : ℝ) : EReal) = x :=
  EReal.coe_toReal ((isRealE_iff_ne x).mp hx).1 ((isRealE_iff_ne x).mp hx).2

/-- The sum of two real values is real. -/
theorem IsRealE.add {x y : EReal} (hx : IsRealE x) (hy : IsRealE y) : IsRealE (x + y) := by
  obtain ⟨a, rfl⟩ := hx
  obtain ⟨b, rfl⟩ := hy
  exact ⟨a + b, (EReal.coe_add a b).symm⟩

/-- The difference of two real values is real. -/
theorem IsRealE.sub {x y : EReal} (hx : IsRealE x) (hy : IsRealE y) : IsRealE (x - y) := by
  obtain ⟨a, rfl⟩ := hx
  obtain ⟨b, rfl⟩ := hy
  exact ⟨a - b, (EReal.coe_sub a b).symm⟩

/-- The product of two real values is real. -/
theorem IsRealE.mul {x y : EReal} (hx : IsRealE x) (hy : IsRealE y) : IsRealE (x * y) := by
  obtain ⟨a, rfl⟩ := hx
  obtain ⟨b, rfl⟩ := hy
  exact ⟨a * b, (EReal.coe_mul a b).symm⟩

/-- The negative of a real value is real. -/
theorem IsRealE.neg {x : EReal} (hx : IsRealE x) : IsRealE (-x) := by
  obtain ⟨a, rfl⟩ := hx
  exact ⟨-a, (EReal.coe_neg a).symm⟩

/-- The maximum of two real values is real (it is one of the two). -/
theorem IsRealE.max {x y : EReal} (hx : IsRealE x) (hy : IsRealE y) : IsRealE (max x y) := by
  rcases le_total x y with h | h
  · rw [max_eq_right h]; exact hy
  · rw [max_eq_left h]; exact hx

/-- The minimum of two real values is real (it is one of the two). -/
theorem IsRealE.min {x y : EReal} (hx : IsRealE x) (hy : IsRealE y) : IsRealE (min x y) := by
  rcases le_total x y with h | h
  · rw [min_eq_left h]; exact hx
  · rw [min_eq_right h]; exact hy

/-- The quotient of a real value by a nonzero real value is real. -/
theorem IsRealE.div {x y : EReal} (hx : IsRealE x) (hy : IsRealE y) (hy0 : y ≠ 0) :
    IsRealE (Ideal.div x y) := by
  obtain ⟨a, rfl⟩ := hx
  obtain ⟨b, rfl⟩ := hy
  have hb : b ≠ 0 := fun h => hy0 (by rw [h, EReal.coe_zero])
  exact ⟨a / b, by rw [Ideal.div_coe hb, ← EReal.coe_mul, mul_one_div]⟩

/-- The reciprocal square root of a positive real value is real. -/
theorem rsqrt_isRealE {x : EReal} {r : ℝ} (hx : x = (r : EReal)) (hr : 0 < r) :
    IsRealE (Ideal.rsqrt x) := by
  rw [hx, Ideal.rsqrt_coe, if_neg (not_lt.mpr hr.le), if_neg hr.ne']
  exact ⟨_, rfl⟩

/-- The reciprocal square root of a positive real value is positive. -/
theorem rsqrt_pos {x : EReal} {r : ℝ} (hx : x = (r : EReal)) (hr : 0 < r) :
    0 < Ideal.rsqrt x := by
  rw [hx, Ideal.rsqrt_coe, if_neg (not_lt.mpr hr.le), if_neg hr.ne']
  exact EReal.coe_pos.mpr (inv_pos.mpr (Real.sqrt_pos.mpr hr))

/-- The exponential of a real value is real. -/
theorem IsRealE.exp {x : EReal} (hx : IsRealE x) : IsRealE (Ideal.exp x) := by
  obtain ⟨a, rfl⟩ := hx
  exact ⟨Real.exp a, Ideal.exp_coe a⟩

/-- The exponential of a real value is positive. -/
theorem IsRealE.exp_pos {x : EReal} (hx : IsRealE x) : 0 < Ideal.exp x := by
  obtain ⟨a, rfl⟩ := hx
  rw [Ideal.exp_coe]
  exact EReal.coe_pos.mpr (Real.exp_pos a)

/-- The logarithm of a positive real value is real. -/
theorem log_isRealE {x : EReal} {r : ℝ} (hx : x = (r : EReal)) (hr : 0 < r) :
    IsRealE (Ideal.log x) := by
  rw [hx, Ideal.log_coe, if_neg (not_le.mpr hr)]
  exact ⟨_, rfl⟩

/-- A finite sum of real values is real. -/
theorem IsRealE.sum {ι : Type*} (s : Finset ι) (f : ι → EReal) (h : ∀ i ∈ s, IsRealE (f i)) :
    IsRealE (∑ i ∈ s, f i) := by
  classical
  induction s using Finset.induction_on with
  | empty => rw [Finset.sum_empty]; exact isRealE_zero
  | insert a s ha ih =>
    rw [Finset.sum_insert ha]
    exact (h a (Finset.mem_insert_self a s)).add
      (ih (fun i hi => h i (Finset.mem_insert_of_mem hi)))

/-! ### Families -/

/-- A family has only real entries exactly when it is the entrywise image of a real family. -/
theorem allReal_iff_exists {ι : Sort*} (f : ι → EReal) :
    AllReal f ↔ ∃ g : ι → ℝ, f = fun i => ((g i : ℝ) : EReal) := by
  constructor
  · intro h
    choose g hg using h
    exact ⟨g, funext hg⟩
  · rintro ⟨g, rfl⟩ i
    exact ⟨g i, rfl⟩

/-- The entrywise image of a real family has only real entries. -/
theorem allReal_coe {ι : Sort*} (g : ι → ℝ) : AllReal (fun i => ((g i : ℝ) : EReal)) :=
  fun i => ⟨g i, rfl⟩

/-- A family with only real entries is the entrywise image of its real parts. -/
theorem AllReal.eq_coe_toReal {ι : Sort*} {f : ι → EReal} (h : AllReal f) :
    f = fun i => (((f i).toReal : ℝ) : EReal) :=
  funext (fun i => ((h i).coe_toReal).symm)

/-- A sum over a finite index type of a family with only real entries is real. -/
theorem AllReal.sum_univ {ι : Type*} [Fintype ι] {f : ι → EReal} (h : AllReal f) :
    IsRealE (∑ i, f i) :=
  IsRealE.sum _ _ (fun i _ => h i)

/-! ### Array operations -/

/-- A matrix product with accumulator (accumulator plus the sum over the contracted indices of
    the products) of arrays with real entries has real entries. -/
theorem matmul_allReal {sl sr so : Shape} (d : DotDims sl sr so) (lhs : sl.Idx → EReal)
    (rhs : sr.Idx → EReal) (acc : so.Idx → EReal) (hl : AllReal lhs) (hr : AllReal rhs)
    (ha : AllReal acc) : AllReal (Ideal.matmul d lhs rhs acc) := by
  intro j
  unfold Ideal.matmul
  exact (ha j).add (IsRealE.sum _ _ (fun k _ => (hl _).mul (hr _)))

/-- A matrix product without accumulator of arrays with real entries has real entries. -/
theorem mxuPass_allReal {sl sr so : Shape} (d : DotDims sl sr so) (lhs : sl.Idx → EReal)
    (rhs : sr.Idx → EReal) (hl : AllReal lhs) (hr : AllReal rhs) :
    AllReal (Ideal.mxuPass d lhs rhs) := by
  intro j
  unfold Ideal.mxuPass
  exact IsRealE.sum _ _ (fun k _ => (hl _).mul (hr _))

/-- A reduction by addition with a real initial value (initial value plus the sum of the entries
    that reduce to each index) of an array with real entries has real entries. -/
theorem hostReduceAdd_allReal {s : Shape} {axes : List (Fin s.rank)} {t : Shape}
    (h : s.ReducesTo axes t) (x : s.Idx → EReal) (init : EReal) (hx : AllReal x)
    (hi : IsRealE init) : AllReal (Ideal.hostReduceAdd h x init) := by
  intro j
  unfold Ideal.hostReduceAdd
  exact hi.add (IsRealE.sum _ _ (fun i _ => hx i))

/-- A reduction by addition (the sum of the entries that reduce to each index) of an array with
    real entries has real entries. -/
theorem reduceAdd_allReal {s : Shape} {axes : List (Fin s.rank)} {t : Shape}
    (h : s.Reduces axes t) (x : s.Idx → EReal) (hx : AllReal x) :
    AllReal (Ideal.reduceAdd h x) := by
  intro j
  unfold Ideal.reduceAdd
  exact IsRealE.sum _ _ (fun i _ => hx i)

/-- A scatter with addition (each entry plus the sum of the updates that land on it) of arrays
    with real entries has real entries. -/
theorem hostScatterAdd_allReal {s si su : Shape} (d : ScatterDims s si su) {w : Nat}
    (x : s.Idx → EReal) (idx : IVec si w) (upd : su.Idx → EReal) (hx : AllReal x)
    (hu : AllReal upd) : AllReal (Ideal.hostScatterAdd d x idx upd) := by
  intro i
  unfold Ideal.hostScatterAdd
  exact (hx i).add (IsRealE.sum _ _ (fun j _ => hu j))

end Cert.LibFinite
-- ==== Proof.Bridge.lean ====
/-
  The kernel's regions meet the reference's steps.

  Three equalities between whole arrays, none mentioning a program's run.  The linear step: the region's output,
  fed the inverse degrees as a column and the bias as a row, is the reference's linear term (the same sums; a column
  read at (i, 0) is the vector at i, a row read at (0, j) the vector at j).  The normalisation step: the region's
  output, fed the combined tile statistics, is the reference's normalised and rectified term, provided the tile
  statistics are those of the linear output's columns and the linear output is an array of real numbers: then
  the mean of the tile means is the column mean and the clamped combined variance the column variance.  The last
  step: the first 47 lanes of the region's 128-lane log-softmax over zero-padded weights and bias, the padded lanes
  at minus infinity, are the reference's 47-lane log-softmax of its linear term.
-/
import proofs.«165127_j7773890805925_2_alg».proof.Proof.Lin0
import proofs.«165127_j7773890805925_2_alg».proof.Proof.Lin2
import proofs.«165127_j7773890805925_2_alg».proof.Proof.Norm
import proofs.«165127_j7773890805925_2_alg».proof.Proof.Soft4
import proofs.«165127_j7773890805925_2_alg».proof.Proof.KTerms
import proofs.«165127_j7773890805925_2_alg».proof.Proof.KRead
import proofs.«165127_j7773890805925_2_alg».proof.Proof.RefTerms
import proofs.«165127_j7773890805925_2_alg».proof.Proof.RefRead
import proofs.«165127_j7773890805925_2_alg».proof.Proof.LibFinite
import proofs.«165127_j7773890805925_2_alg».proof.Proof.LibColumn
import Idealize.ShloMosaic.Lib.KernelVsHost

set_option maxRecDepth 16384
set_option maxHeartbeats 1600000

noncomputable section

namespace Cert.Bridge

open Cert.KernelIdeal Cert.KernelIdeal.Gen Idealize.ShloMosaic Idealize.ShloMosaic.ValueIdx

/-- The first layer's linear step. -/
theorem lin128 (agg x : FVec Ideal S50000x128 .f32) (inv : FVec Ideal S50000 .f32) (wl wr : FVec Ideal S128x256 .f32)
    (b : FVec Ideal S256 .f32) (h1 : S50000.ShapeCasts S50000x1) (h2 : S256.ShapeCasts S1x256) :
    Cert.KernelIdeal.Lin0.G6 agg x (shapeCast S50000x1 inv h1) wl wr (shapeCast S1x256 b h2)
      = Cert.ReferenceIdeal.RefTerms.linT128 agg x inv wl wr b := by
  funext i
  obtain ⟨p, q, rfl⟩ : ∃ (p : Fin 50000) (q : Fin 256), i = ix2 p q := ⟨i 0, i 1, eq_ix2 i⟩
  rw [Cert.ReferenceIdeal.RefRead.linT128_apply]
  show (∑ k : Fin 128, (agg (ix2 p k) * shapeCast S50000x1 inv h1 (ix2 p (0 : Fin 1))) * wl (ix2 k q))
      + (∑ k : Fin 128, x (ix2 p k) * wr (ix2 k q)) + shapeCast S1x256 b h2 (ix2 (0 : Fin 1) q) = _
  rw [Cert.LibColumn.shapeCast_a_a1_apply, shapeCast_a_1a_apply]

/-- The second layer's linear step. -/
theorem lin256 (agg x : FVec Ideal S50000x256 .f32) (inv : FVec Ideal S50000 .f32) (wl wr : FVec Ideal S256x256 .f32)
    (b : FVec Ideal S256 .f32) (h1 : S50000.ShapeCasts S50000x1) (h2 : S256.ShapeCasts S1x256) :
    Cert.KernelIdeal.Lin2.G6 agg x (shapeCast S50000x1 inv h1) wl wr (shapeCast S1x256 b h2)
      = Cert.ReferenceIdeal.RefTerms.linT256 agg x inv wl wr b := by
  funext i
  obtain ⟨p, q, rfl⟩ : ∃ (p : Fin 50000) (q : Fin 256), i = ix2 p q := ⟨i 0, i 1, eq_ix2 i⟩
  rw [Cert.ReferenceIdeal.RefRead.linT256_apply]
  show (∑ k : Fin 256, (agg (ix2 p k) * shapeCast S50000x1 inv h1 (ix2 p (0 : Fin 1))) * wl (ix2 k q))
      + (∑ k : Fin 256, x (ix2 p k) * wr (ix2 k q)) + shapeCast S1x256 b h2 (ix2 (0 : Fin 1) q) = _
  rw [Cert.LibColumn.shapeCast_a_a1_apply, shapeCast_a_1a_apply]

/-- The normalisation step. -/
theorem norm (lin : FVec Ideal S50000x256 .f32) (meanp m2p : FVec Ideal S25x1x256 .f32) (g be : FVec Ideal S256 .f32)
    (hg hb : S256.ShapeCasts S1x256)
    (hmp : ∀ (t : Fin 25) (j : Fin 256), meanp (ix3 t (0 : Fin 1) j) = Cert.Spec.tileMean (fun r => lin (ix2 r j)) t)
    (hm2 : ∀ (t : Fin 25) (j : Fin 256), m2p (ix3 t (0 : Fin 1) j) = Cert.Spec.tileM2 (fun r => lin (ix2 r j)) t)
    (hreal : Cert.LibFinite.AllReal lin) :
    Cert.KernelIdeal.Norm.G lin (Cert.KernelIdeal.KTerms.glueMeanT meanp) (Cert.KernelIdeal.KTerms.glueVarT meanp m2p)
        (shapeCast S1x256 g hg) (shapeCast S1x256 be hb)
      = Cert.ReferenceIdeal.RefTerms.bnT lin (Cert.ReferenceIdeal.RefTerms.meanT lin) (Cert.ReferenceIdeal.RefTerms.varT lin) g be := by
  funext i
  obtain ⟨p, q, rfl⟩ : ∃ (p : Fin 50000) (q : Fin 256), i = ix2 p q := ⟨i 0, i 1, eq_ix2 i⟩
  rw [Cert.ReferenceIdeal.RefRead.bnT_apply, Cert.ReferenceIdeal.RefRead.meanT_apply, Cert.ReferenceIdeal.RefRead.varT_apply]
  show Cert.Spec.bnrelu Cert.KernelIdeal.Norm.eps (shapeCast S1x256 g hg (ix2 (0 : Fin 1) q)) (lin (ix2 p q))
      (Cert.KernelIdeal.KTerms.glueMeanT meanp (ix2 (0 : Fin 1) q)) (Cert.KernelIdeal.KTerms.glueVarT meanp m2p (ix2 (0 : Fin 1) q))
      (shapeCast S1x256 be hb (ix2 (0 : Fin 1) q)) = _
  rw [shapeCast_a_1a_apply, shapeCast_a_1a_apply, Cert.KernelIdeal.KRead.glueVarT_apply, Cert.KernelIdeal.KRead.glueMeanT_apply]
  simp only [hmp, hm2]
  obtain ⟨e1, e2, -⟩ := Cert.Spec.stats_eq (fun r => lin (ix2 r q)) (fun r => hreal _)
  change Cert.Spec.bnrelu _ _ _ (Cert.Spec.meanK fun r => lin (ix2 r q)) (Cert.Spec.varK fun r => lin (ix2 r q)) _ = _
  rw [e1, e2]

/-- The last step. -/
theorem soft (agg h : FVec Ideal S50000x256 .f32) (inv : FVec Ideal S50000 .f32) (wl wr : FVec Ideal S256x47 .f32)
    (b : FVec Ideal S47 .f32) (z : FVec Ideal S_ .f32) (h1 : S50000.ShapeCasts S50000x1) (h2 : S128.ShapeCasts S1x128)
    (hw : S256x47.Pads ![0, 0] ![0, 81] ![0, 0] S256x128) (hbp : S47.Pads ![0] ![81] ![0] S128) (hu : 0 < S_.numel)
    (hs : S50000x128.Slices ![0, 0] S50000x47) :
    extractStridedSlice S50000x47 ![0, 0]
        (Cert.KernelIdeal.Soft4.G agg h (shapeCast S50000x1 inv h1) (pad S256x128 ![0, 0] ![0, 81] ![0, 0] wl z hw hu)
          (pad S256x128 ![0, 0] ![0, 81] ![0, 0] wr z hw hu) (shapeCast S1x128 (pad S128 ![0] ![81] ![0] b z hbp hu) h2)) hs
      = Cert.ReferenceIdeal.RefTerms.lsmT (Cert.ReferenceIdeal.RefTerms.linT47 agg h inv wl wr b) := by
  funext i
  obtain ⟨p, q, rfl⟩ : ∃ (p : Fin 50000) (q : Fin 47), i = ix2 p q := ⟨i 0, i 1, eq_ix2 i⟩
  rw [Cert.ReferenceIdeal.RefRead.lsmT_apply]
  have hq : q.val < 128 := by have := q.isLt; omega
  refine (extractStridedSlice_apply ![0, 0] _ hs (ix2 p q) (ix2 p (⟨q.val, hq⟩ : Fin 128)) (fun a => by
    match a with
    | ⟨0, _⟩ => show p.val = 0 + p.val; omega
    | ⟨1, _⟩ => show q.val = 0 + q.val; omega)).trans ?_
  refine (Cert.KernelIdeal.Soft4.G_apply _ _ _ _ _ _ p ⟨q.val, hq⟩ _ rfl rfl).trans ?_
  refine Cert.Spec.logSoftmax_pad _ (fun k : Fin 47 => Cert.ReferenceIdeal.RefTerms.linT47 agg h inv wl wr b (ix2 p k)) (fun j => ?_) (fun j hj => ?_) q
  · have hj : j.val < 128 := by have := j.isLt; omega
    rw [Cert.ReferenceIdeal.RefRead.linT47_apply]
    unfold Cert.KernelIdeal.Soft4.M
    rw [if_pos j.isLt]
    unfold Cert.KernelIdeal.Soft4.L
    rw [Cert.LibColumn.shapeCast_a_a1_apply, shapeCast_a_1a_apply,
      pad_apply_of_inside ![0] ![81] ![0] b z hbp hu (ix1 (⟨j.val, hj⟩ : Fin 128)) (ix1 j) (fun a => by
        match a with
        | ⟨0, _⟩ => show j.val = 0 + j.val * (0 + 1); omega)]
    refine congrArg₂ (· + ·) (congrArg₂ (· + ·) (Finset.sum_congr rfl fun k _ => ?_) (Finset.sum_congr rfl fun k _ => ?_)) rfl
    · rw [pad_apply_of_inside ![0, 0] ![0, 81] ![0, 0] wl z hw hu (ix2 k (⟨j.val, hj⟩ : Fin 128)) (ix2 k j) (fun a => by
        match a with
        | ⟨0, _⟩ => show k.val = 0 + k.val * (0 + 1); omega
        | ⟨1, _⟩ => show j.val = 0 + j.val * (0 + 1); omega)]
    · rw [pad_apply_of_inside ![0, 0] ![0, 81] ![0, 0] wr z hw hu (ix2 k (⟨j.val, hj⟩ : Fin 128)) (ix2 k j) (fun a => by
        match a with
        | ⟨0, _⟩ => show k.val = 0 + k.val * (0 + 1); omega
        | ⟨1, _⟩ => show j.val = 0 + j.val * (0 + 1); omega)]
  · unfold Cert.KernelIdeal.Soft4.M
    rw [if_neg (by omega)]

end Cert.Bridge

end
-- ==== Proof.Finite.lean ====
/-
  Real entries stay real.

  The linear step sums products of entries; the aggregation gathers rows and adds, onto zeros, those landing on each
  node; the inverse degree is one over the larger of a count and one, which is not zero; a reshape only renames
  entries.  So from arrays of real numbers each of these gives an array of real numbers.  The normalised, rectified
  features of a real array are real as well: the column mean is real, the column variance real and not negative, and
  the stabiliser positive.
-/
import proofs.«165127_j7773890805925_2_alg».proof.Proof.Lin0
import proofs.«165127_j7773890805925_2_alg».proof.Proof.Lin2
import proofs.«165127_j7773890805925_2_alg».proof.Proof.KTerms
import proofs.«165127_j7773890805925_2_alg».proof.Proof.RefTerms
import proofs.«165127_j7773890805925_2_alg».proof.Proof.RefRead
import proofs.«165127_j7773890805925_2_alg».proof.Proof.LibFinite
import proofs.«165127_j7773890805925_2_alg».proof.Proof.Consts
import Idealize.ShloMosaic.Lib.IdealHost

set_option maxRecDepth 16384
set_option maxHeartbeats 1600000

noncomputable section

namespace Cert.Finite

open Cert.KernelIdeal Cert.KernelIdeal.Gen Cert.KernelIdeal.KTerms Idealize.ShloMosaic Idealize.ShloMosaic.ValueIdx
open Idealize.ShloMosaic.TcCoe Idealize.SL.Sem Idealize.ShloMosaic.StableHlo
open Cert.LibFinite

/-- The first linear step. -/
theorem lin0_real (agg x : S50000x128.Idx → EReal) (inv : S50000x1.Idx → EReal) (wl wr : S128x256.Idx → EReal)
    (b : S1x256.Idx → EReal) (ha : AllReal agg) (hx : AllReal x) (hi : AllReal inv) (hwl : AllReal wl) (hwr : AllReal wr)
    (hb : AllReal b) : AllReal (Cert.KernelIdeal.Lin0.G6 agg x inv wl wr b) := fun i =>
  ((IsRealE.sum _ _ fun k _ => ((ha _).mul (hi _)).mul (hwl _)).add (IsRealE.sum _ _ fun k _ => (hx _).mul (hwr _))).add (hb _)

/-- The second linear step. -/
theorem lin2_real (agg x : S50000x256.Idx → EReal) (inv : S50000x1.Idx → EReal) (wl wr : S256x256.Idx → EReal)
    (b : S1x256.Idx → EReal) (ha : AllReal agg) (hx : AllReal x) (hi : AllReal inv) (hwl : AllReal wl) (hwr : AllReal wr)
    (hb : AllReal b) : AllReal (Cert.KernelIdeal.Lin2.G6 agg x inv wl wr b) := fun i =>
  ((IsRealE.sum _ _ fun k _ => ((ha _).mul (hi _)).mul (hwl _)).add (IsRealE.sum _ _ fun k _ => (hx _).mul (hwr _))).add (hb _)

/-- A reshape of a real array is real. -/
theorem shapeCast_real {s t : Shape} (x : s.Idx → EReal) (h : s.ShapeCasts t) (hx : AllReal x) : AllReal (shapeCast t x h) := by
  intro j; unfold shapeCast; exact hx _

/-- A scalar spread over a shape is real when the scalar is. -/
theorem splat_real {t : Shape} (h : S_.BroadcastsInDim t ![]) (x : S_.Idx → EReal) (hx : AllReal x) : AllReal (broadcastInDim t ![] h x) := by
  intro j; rw [broadcastInDim_scalar_apply]; exact hx _

/-- The zero constant is real. -/
theorem zero_real : AllReal (constant (F := Ideal) S_ .f32 0x00000000#32) := fun i => by
  show IsRealE (Ideal.ofBits .f32 0x00000000#32); rw [Cert.Consts.ofBits_zero]; exact isRealE_zero

/-- The one constant is real. -/
theorem one_real : AllReal (constant (F := Ideal) S_ .f32 0x3F800000#32) := fun i => by
  show IsRealE (Ideal.ofBits .f32 0x3F800000#32); rw [Cert.Consts.ofBits_one]; exact isRealE_coe 1

/-- Adding gathered real rows onto real entries gives real entries. -/
theorem scatter_real {s si su : Shape} {w : ℕ} (d : ScatterDims s si su) (x : FVec Ideal s .f32) (I : IVec si w) (u : FVec Ideal su .f32)
    (hx : AllReal x) (hu : AllReal u) : AllReal (Host.scatterAdd (F := Ideal) d x I u) :=
  hostScatterAdd_allReal d x I u hx hu

/-- Gathered entries of a real array are real. -/
theorem gather_real {s si t : Shape} {w : ℕ} (d : GatherDims s si t) (x : s.Idx → EReal) (I : IVec si w) (hx : AllReal x) :
    AllReal (Host.gather d x I) := fun j => hx _

variable (U : Valuation τ sig (Elt Ideal))

/-- The first aggregation of real features is real. -/
theorem agg1_real (hx : AllReal (U (Proc.devRef .tc main_arg0))) : AllReal (after (hostOps0 (F := Ideal)) U (Proc.devRef .tc main_v22)) := by
  obtain ⟨I, J, e⟩ : ∃ I J, after (hostOps0 (F := Ideal)) U (Proc.devRef .tc main_v22)
      = Host.scatterAdd (F := Ideal) scatter_S50000x128_S800000x1_S800000x128_1_0_0_1
          (broadcastInDim S50000x128 ![] bcast_S_S50000x128 (constant (F := Ideal) S_ .f32 0x00000000#32)) I
          (Host.gather gather_S50000x128_S800000x1_S800000x128_1_0_n_n_0_1_1128 (U (Proc.devRef .tc main_arg0)) J) :=
    ⟨_, _, by after_results_simp; try rfl⟩
  rw [e]
  exact scatter_real _ _ _ _ (splat_real _ _ zero_real) (gather_real _ _ _ hx)

/-- The host quotient read at an entry. -/
theorem hostDivf_apply {s : Shape} (x y : FVec Ideal s .f32) (i : s.Idx) : Host.divf (F := Ideal) x y i = Ideal.div (x i) (y i) := rfl

/-- One over the larger of a real number and one is a real number. -/
theorem inv_entry_real (d one : EReal) (hone : one = ((1 : ℝ) : EReal)) (hd : IsRealE d) : IsRealE (Ideal.div one (max d one)) := by
  subst hone
  refine IsRealE.div (isRealE_coe 1) (hd.max (isRealE_coe 1)) ?_
  intro h0
  have : ((1 : ℝ) : EReal) ≤ 0 := h0 ▸ le_max_right _ _
  exact absurd this (by norm_num)

set_option maxRecDepth 200000 in
/-- The inverse degrees are real. -/
theorem inv_real : AllReal (after (hostOps0 (F := Ideal)) U (Proc.devRef .tc main_v11)) := by
  obtain ⟨I, e⟩ : ∃ I, after (hostOps0 (F := Ideal)) U (Proc.devRef .tc main_v11)
      = Host.divf (F := Ideal) (broadcastInDim S50000 ![] bcast_S_S50000 (constant (F := Ideal) S_ .f32 0x3F800000#32))
          (maximumf
            (Host.scatterAdd (F := Ideal) scatter_S50000_S800000x1_S800000_n_0_0_1
              (broadcastInDim S50000 ![] bcast_S_S50000 (constant (F := Ideal) S_ .f32 0x00000000#32)) I
              (broadcastInDim S800000 ![] bcast_S_S800000 (constant (F := Ideal) S_ .f32 0x3F800000#32)))
            (broadcastInDim S50000 ![] bcast_S_S50000 (constant (F := Ideal) S_ .f32 0x3F800000#32))) :=
    ⟨_, by after_results_simp; try rfl⟩
  rw [e]
  intro i
  have hone : ∀ j, broadcastInDim S50000 ![] bcast_S_S50000 (constant (F := Ideal) S_ .f32 0x3F800000#32) j = ((1 : ℝ) : EReal) := fun j => by
    rw [broadcastInDim_scalar_apply]; exact Cert.Consts.ofBits_one
  have hdeg := scatter_real scatter_S50000_S800000x1_S800000_n_0_0_1 _ I _ (splat_real bcast_S_S50000 _ zero_real) (splat_real bcast_S_S800000 _ one_real) i
  rw [hostDivf_apply, maximumf_apply]
  exact inv_entry_real _ _ (hone i) hdeg

/-- The second aggregation of real features is real. -/
theorem agg2_real (hx : AllReal (U (Proc.devRef .tc main_v47))) : AllReal (after (hostOps2 (F := Ideal)) U (Proc.devRef .tc main_v57)) := by
  obtain ⟨I, J, e⟩ : ∃ I J, after (hostOps2 (F := Ideal)) U (Proc.devRef .tc main_v57)
      = Host.scatterAdd (F := Ideal) scatter_S50000x256_S800000x1_S800000x256_1_0_0_1
          (broadcastInDim S50000x256 ![] bcast_S_S50000x256 (constant (F := Ideal) S_ .f32 0x00000000#32)) I
          (Host.gather gather_S50000x256_S800000x1_S800000x256_1_0_n_n_0_1_1256 (U (Proc.devRef .tc main_v47)) J) :=
    ⟨_, _, by after_results_simp; try rfl⟩
  rw [e]
  exact scatter_real _ _ _ _ (splat_real _ _ zero_real) (gather_real _ _ _ hx)

/-- The normalised, rectified features of a real array, with real scale and shift, are real. -/
theorem bnT_real (lin : FVec Ideal S50000x256 .f32) (g be : FVec Ideal S256 .f32) (hl : AllReal lin) (hg : AllReal g) (hb : AllReal be) :
    AllReal (Cert.ReferenceIdeal.RefTerms.bnT lin (Cert.ReferenceIdeal.RefTerms.meanT lin) (Cert.ReferenceIdeal.RefTerms.varT lin) g be) := by
  intro i
  obtain ⟨p, q, rfl⟩ : ∃ (p : Fin 50000) (q : Fin 256), i = ix2 p q := ⟨i 0, i 1, eq_ix2 i⟩
  rw [Cert.ReferenceIdeal.RefRead.bnT_apply, Cert.ReferenceIdeal.RefRead.meanT_apply, Cert.ReferenceIdeal.RefRead.varT_apply]
  obtain ⟨-, -, a, v, ha, hv, hv0⟩ := Cert.Spec.stats_eq (fun r => lin (ix2 r q)) (fun r => hl _)
  obtain ⟨e, he0, he⟩ := Cert.Consts.ofBits_eps
  obtain ⟨gr, hgr⟩ := hg (ix1 q)
  obtain ⟨xr, hxr⟩ := hl (ix2 p q)
  obtain ⟨br, hbr⟩ := hb (ix1 q)
  rw [ha, hv, he, hgr, hxr, hbr]
  exact Cert.Spec.bnrelu_real e gr xr a v br hv0 he0

end Cert.Finite

end
-- ==== Proof.PreReal.lean ====
/-
From the precondition to real inputs.

The precondition states, for each of the fourteen floating-point arguments, that every entry has
absolute value below `+∞`, and takes the conjunction of these statements.  An extended real
whose absolute value `max x (-x)` is below `+∞` is neither infinity, hence a real number.  So
under the precondition every floating-point argument is an array of real numbers.
-/
import Idealize.ShloMosaic.Lib.ReduceAll
import Idealize.ShloMosaic.Lib.IdealHost
import Idealize.ShloMosaic.Lib.ValueIdx
import Idealize.ShloMosaic.PureOps.Ideal.Laws
import proofs.«165127_j7773890805925_2_alg».proof.Proof.Gen.Pre_finite_inputs
import proofs.«165127_j7773890805925_2_alg».proof.Proof.LibFinite

noncomputable section

namespace Cert.PreReal

open Cert.Pre_finite_inputs Cert.Pre_finite_inputs.Gen Idealize.ShloMosaic Idealize.ShloMosaic.ValueIdx
  Cert.LibFinite

/-- The scalar shape has exactly one index. -/
instance : Subsingleton (⟨0, ![]⟩ : Shape).Idx := ⟨fun _ _ => funext fun d => d.elim0⟩

/-- The word `0x7F800000` read as a single-precision value is `+∞`. -/
theorem ofBits_pos_inf_f32 : Ideal.ofBits .f32 0x7F800000#32 = (⊤ : EReal) := by
  simp [Ideal.ofBits, Ideal.ieee]

/-- The conjunction of two arrays of bits reads entrywise. -/
theorem andi_apply {s : Shape} {w : ℕ} (a b : IVec s w) (i : s.Idx) :
    andi a b i = IntOp.andi (a i) (b i) := rfl

/-- An extended real whose absolute value `max x (-x)` is below `+∞` is a real number: it is
    not `+∞`, and it is not `-∞` because `-(-∞) = +∞`. -/
theorem isRealE_of_abs_lt_top {x : EReal} (h : Ideal.cmp .olt (max x (-x)) ⊤ = 1#1) : IsRealE x := by
  have hlt : max x (-x) < ⊤ := by
    by_contra hn
    have hd : Ideal.cmp .olt (max x (-x)) ⊤ = 0#1 := by
      show BitVec.ofBool (decide (max x (-x) < ⊤)) = 0#1
      rw [decide_eq_false hn]; rfl
    rw [hd] at h
    exact absurd h (by decide)
  rw [isRealE_iff_ne]
  refine ⟨ne_of_lt (lt_of_le_of_lt (le_max_left _ _) hlt), fun hb => ?_⟩
  rw [hb, EReal.neg_bot] at hlt
  exact absurd (lt_of_le_of_lt (le_max_right _ _) hlt) (lt_irrefl _)

/-- If "every entry has absolute value below `+∞`" (the conjunction over all entries, from the
    bit `1`) is the bit `1`, then every entry of the array is a real number. -/
theorem allReal_of_all {s : Shape} {axes : List (Fin s.rank)} (x : FVec Ideal s .f32)
    (hb : (⟨0, ![]⟩ : Shape).BroadcastsInDim s ![]) (hr : s.ReducesTo axes ⟨0, ![]⟩)
    (hu : 0 < (⟨0, ![]⟩ : Shape).numel) (init : IVec ⟨0, ![]⟩ 1)
    (e : Host.reduce IntOp.andi
          (cmpf .olt (Host.absf x)
            (broadcastInDim s ![] hb (constant (F := Ideal) ⟨0, ![]⟩ .f32 0x7F800000#32)))
          init hr hu ix0 = 1#1) :
    AllReal x := by
  intro i
  have hi := Host.reduce_andi_all _ init hr hu ix0 e i
  rw [cmpf_apply, broadcastInDim_scalar_apply, constant_apply, ofBits_pos_inf_f32] at hi
  exact isRealE_of_abs_lt_top hi

/-- From the precondition (every float argument has all its entries of absolute value below
    `+∞`): every float argument is an array of real numbers. -/
theorem allReal_of_pre (x : FVec Ideal S50000x128 .f32) (ei : IVec S2x800000 32)
    (w1l w1r : FVec Ideal S128x256 .f32) (b1 g1 be1 : FVec Ideal S256 .f32)
    (w2l w2r : FVec Ideal S256x256 .f32) (b2 g2 be2 : FVec Ideal S256 .f32)
    (w3l w3r : FVec Ideal S256x47 .f32) (b3 : FVec Ideal S47 .f32)
    (h : Cert.Pre_finite_inputs.fn (F := Ideal) x ei w1l w1r b1 g1 be1 w2l w2r b2 g2 be2 w3l w3r b3
          = fun _ => 1#1) :
    AllReal x ∧ AllReal w1l ∧ AllReal w1r ∧ AllReal b1 ∧ AllReal g1 ∧ AllReal be1
      ∧ AllReal w2l ∧ AllReal w2r ∧ AllReal b2 ∧ AllReal g2 ∧ AllReal be2
      ∧ AllReal w3l ∧ AllReal w3r ∧ AllReal b3 := by
  have h0 := congrFun h ix0
  dsimp only [fn, fn_part1, fn_part2, fn_part3, fn_part4] at h0
  simp only [andi_apply, IntOp.andi_eq_one] at h0
  obtain ⟨⟨⟨⟨⟨⟨⟨⟨⟨⟨⟨⟨⟨e0, e2⟩, e3⟩, e4⟩, e5⟩, e6⟩, e7⟩, e8⟩, e9⟩, e10⟩, e11⟩, e12⟩, e13⟩, e14⟩ := h0
  exact ⟨allReal_of_all x _ _ _ _ e0, allReal_of_all w1l _ _ _ _ e2, allReal_of_all w1r _ _ _ _ e3,
    allReal_of_all b1 _ _ _ _ e4, allReal_of_all g1 _ _ _ _ e5, allReal_of_all be1 _ _ _ _ e6,
    allReal_of_all w2l _ _ _ _ e7, allReal_of_all w2r _ _ _ _ e8, allReal_of_all b2 _ _ _ _ e9,
    allReal_of_all g2 _ _ _ _ e10, allReal_of_all be2 _ _ _ _ e11, allReal_of_all w3l _ _ _ _ e12,
    allReal_of_all w3r _ _ _ _ e13, allReal_of_all b3 _ _ _ _ e14⟩

end Cert.PreReal
-- ==== Proof.RefSoft.lean ====
/-
The reference's last stage, read straight from the run of its operations.

The stage computes, from one input buffer, the row maximum (folded from `-∞`), the rows shifted
by it, their exponentials, the row sums, their logarithms, and the shifted rows minus those
logarithms: the row-wise log-softmax.  Running the operations in order from any buffer contents
leaves the output buffer at exactly that array term of the input buffer, every intermediate
value being written to and read back from its own buffer unchanged.  Read at node `i`, class
`j`, the output is the log-softmax of row `i` of the input at `j`.
-/
import Idealize.ShloMosaic.Lib.KernelVsHost
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws
import proofs.«165127_j7773890805925_2_alg».proof.Proof.RefTerms
import proofs.«165127_j7773890805925_2_alg».proof.Proof.Spec
import proofs.«165127_j7773890805925_2_alg».proof.Proof.LibColumn
import proofs.«165127_j7773890805925_2_alg».proof.Proof.Consts

set_option maxRecDepth 16384

noncomputable section

namespace Cert.ReferenceIdeal.RefSoft

open Cert.ReferenceIdeal Cert.ReferenceIdeal.Gen Cert.ReferenceIdeal.RefRun Cert.ReferenceIdeal.RefTerms Idealize.ShloMosaic
  Idealize.ShloMosaic.TcCoe Idealize.SL.Sem Idealize.ShloMosaic.StableHlo Idealize.ShloMosaic.ValueIdx
open scoped BigOperators

/-- Reading back through a typed reference what was written through it is the identity. -/
theorem ofBuf_toBuf {T : BufTy} (x : TRef sig T) (v : T.Contents (Elt Ideal)) :
    x.ofBuf (x.toBuf v) = v := by
  unfold TRef.ofBuf TRef.toBuf
  rw [cast_cast, cast_eq]

/-- The stage's input buffer read at its own type is the buffer's contents. -/
theorem ofBuf_v108 (w : (main_v108 : Ref sig .tc).ty.Contents (Elt Ideal)) :
    (TRef.of main_v108 : TRef sig ⟨S50000x47, .f32⟩).ofBuf w = w := rfl

/-- Contents written to the stage's output buffer at its own type are the buffer's contents. -/
theorem toBuf_v109 (v : BufTy.Contents (Elt Ideal) ⟨S50000x47, .f32⟩) :
    (TRef.of main_v109 : TRef sig ⟨S50000x47, .f32⟩).toBuf (Val := Elt Ideal) v
      = (show (main_v109 : Ref sig .tc).ty.Contents (Elt Ideal) from v) := rfl

/-- The reference's last stage, as a whole array: from any buffer contents it leaves in its
    output buffer the row-wise log-softmax of its input buffer. -/
theorem sF_lsmT (X : Valuation τ sig (Elt Ideal)) :
    after (sF (F := Ideal)) X (Proc.devRef .tc main_v109) = lsmT (X (Proc.devRef .tc main_v108)) := by
  conv_lhs =>
    simp (disch := decide) only [after_cons, after_nil,
      nullary_result', unary_result', binary_result', nullary_result_ne', unary_result_ne', binary_result_ne']
  repeat rw [ofBuf_toBuf]
  rw [toBuf_v109, ofBuf_v108]
  unfold lsmT lsmShiftT lsmMaxT
  rfl

/-! ### The log-softmax term read at one entry -/

/-- Reducing a matrix along each row: the index of column `k` above the reduced index `p` is
    `(p, k)`. -/
private theorem lift_cols {m n : ℕ} (h : (⟨2, ![m, n]⟩ : Shape).Reduces [1] ⟨1, ![m]⟩) (p : Fin m) (k : Fin n) :
    h.lift (ix1 p) k = ix2 p k := by
  funext ax; apply Fin.ext
  match ax with
  | ⟨0, _⟩ => rfl
  | ⟨1, _⟩ => rfl

/-- The host's sum of a matrix along each row, read at row `i`: the initial value plus the sum
    over `k` of the entries `(i, k)`. -/
private theorem hostRowSum_apply {m n : ℕ} (x : FVec Ideal ⟨2, ![m, n]⟩ .f32) (init : FVec Ideal ⟨0, ![]⟩ .f32)
    (h' : (⟨2, ![m, n]⟩ : Shape).ReducesTo [1] ⟨1, ![m]⟩) (hu : 0 < (⟨0, ![]⟩ : Shape).numel) (i : Fin m) :
    Host.reduceAdd (F := Ideal) x init h' hu (ix1 i) = init ix0 + ∑ k : Fin n, x (ix2 i k) := by
  have h : (⟨2, ![m, n]⟩ : Shape).Reduces [1] ⟨1, ![m]⟩ := ⟨h'.1, Nat.one_pos, h'.2⟩
  rw [hostReduceAdd_apply, Ideal.hostReduceAdd_single h' h]
  refine congrArg₂ (· + ·) (congrArg init (eq_ix0 _)) ?_
  exact Finset.sum_congr rfl fun k _ => congrArg x (lift_cols h i k)

/-- The host's maximum of a matrix along each row, read at row `i`: the maximum, folded from
    the initial value, of the entries `(i, k)`. -/
private theorem hostRowMax_apply {m n : ℕ} (x : FVec Ideal ⟨2, ![m, n]⟩ .f32) (init : FVec Ideal ⟨0, ![]⟩ .f32)
    (h' : (⟨2, ![m, n]⟩ : Shape).ReducesTo [1] ⟨1, ![m]⟩) (hu : 0 < (⟨0, ![]⟩ : Shape).numel) (i : Fin m) :
    Host.reduce FloatOps.maximumf x init h' hu (ix1 i)
      = (Finset.univ : Finset (Fin n)).fold max (init ix0) (fun k => x (ix2 i k)) := by
  have h : (⟨2, ![m, n]⟩ : Shape).Reduces [1] ⟨1, ![m]⟩ := ⟨h'.1, Nat.one_pos, h'.2⟩
  rw [Host.reduce_eq_fold_single FloatOps.maximumf x init h' h hu]
  have hf : (x ∘ h.lift (ix1 i)) = fun k : Fin n => x (ix2 i k) :=
    funext fun k => congrArg x (lift_cols h i k)
  rw [hf, show Shape.Idx.first hu = ix0 from eq_ix0 _]
  rfl

/-- The host's exponential reads entrywise. -/
private theorem hostExp_apply {s : Shape} (v : FVec Ideal s .f32) (i : s.Idx) :
    Host.exp (F := Ideal) v i = Ideal.exp (v i) := rfl

/-- The host's logarithm reads entrywise. -/
private theorem hostLog_apply {s : Shape} (v : FVec Ideal s .f32) (i : s.Idx) :
    Host.log (F := Ideal) v i = Ideal.log (v i) := rfl

/-- The row maximum of the log-softmax at node `i`. -/
private theorem lsmMaxT_apply (x : FVec Ideal S50000x47 .f32) (i : Fin 50000) :
    lsmMaxT x (ix1 i) = (Finset.univ : Finset (Fin 47)).fold max ⊥ (fun k => x (ix2 i k)) := by
  unfold lsmMaxT
  rw [maximumf_apply, broadcastInDim_scalar_apply, hostRowMax_apply]
  simp only [constant_apply]
  rw [Cert.Consts.ofBits_neg_inf]
  exact max_eq_right bot_le

/-- The row shifted by its maximum, at node `i`, class `k`. -/
private theorem lsmShiftT_apply (x : FVec Ideal S50000x47 .f32) (i : Fin 50000) (k : Fin 47) :
    lsmShiftT x (ix2 i k)
      = x (ix2 i k) - (Finset.univ : Finset (Fin 47)).fold max ⊥ (fun k => x (ix2 i k)) := by
  unfold lsmShiftT
  rw [subf_apply, Cert.LibColumn.broadcastInDim_a1_ab_apply, Cert.LibColumn.broadcastInDim_a_a1_apply,
    lsmMaxT_apply]

/-- The row-wise log-softmax at node `i`, class `j`. -/
private theorem lsmT_apply (x : FVec Ideal S50000x47 .f32) (i : Fin 50000) (j : Fin 47) :
    lsmT x (ix2 i j) = Cert.Spec.logSoftmax (fun k : Fin 47 => x (ix2 i k)) j := by
  unfold lsmT Cert.Spec.logSoftmax
  rw [subf_apply, lsmShiftT_apply, Cert.LibColumn.broadcastInDim_a1_ab_apply, hostLog_apply,
    Cert.LibColumn.broadcastInDim_a_a1_apply, hostRowSum_apply, constant_apply, Cert.Consts.ofBits_zero,
    zero_add]
  refine congrArg₂ (· - ·) rfl (congrArg Ideal.log (Finset.sum_congr rfl fun k _ => ?_))
  rw [hostExp_apply, lsmShiftT_apply]

/-- The reference's last stage read at node `i`, class `j`: the log-softmax of row `i` of its
    input buffer, at `j`. -/
theorem sF_apply (X : Valuation τ sig (Elt Ideal)) (i : Fin 50000) (j : Fin 47) :
    after (sF (F := Ideal)) X (Proc.devRef .tc main_v109) (ix2 i j)
      = Cert.Spec.logSoftmax (fun k : Fin 47 => X (Proc.devRef .tc main_v108) (ix2 i k)) j := by
  rw [sF_lsmT X]
  exact lsmT_apply _ i j

end Cert.ReferenceIdeal.RefSoft
-- ==== Proof.Norm2.lean ====
/-
  The second normalise-and-rectify region (after the second layer's linear map): the same body on other arrays, so
  again its output array is, after the region, the one function of the arrays it found: at (i, j),
      max (scale_j (x_ij - mean_j) rsqrt(var_j + eps) + shift_j, 0).
-/
import proofs.«165127_j7773890805925_2_alg».proof.Proof.Gen.KernelIdeal.Frame
import proofs.«165127_j7773890805925_2_alg».proof.Proof.Spec
import proofs.«165127_j7773890805925_2_alg».proof.Proof.Norm
import Idealize.ShloMosaic.Lib.ValueIdx
import Idealize.ShloMosaic.PureOps.Ideal.Laws
import Idealize.ShloMosaic.Lib.ValueLayout
import Idealize.ShloMosaic.Lib.Pipeline.Value

set_option maxRecDepth 16384
set_option maxHeartbeats 1600000

noncomputable section

namespace Cert.KernelIdeal.Norm2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.KernelIdeal.Norm (eps col G hz)

/-- The body's arithmetic at an entry of the block: the normalised, rectified entry of the loaded blocks. -/
theorem pay_apply (x0 : Vec Ideal S2000x256 .f32) (var g mean be : Vec Ideal S1x256 .f32) (p : Fin 2000) (q : Fin 256) :
    k3_pay1 x0 var g mean be (ix2 p q)
      = Cert.Spec.bnrelu eps (col g q) (x0 (ix2 p q)) (col mean q) (col var q) (col be q) := by
  unfold k3_pay1
  simp only [shapeCast_self]
  rw [maximumf_apply, addf_apply, mulf_apply, mulf_apply, subf_apply,
    broadcastTo_1b_ab_apply g, broadcastTo_1b_ab_apply mean, broadcastTo_1b_ab_apply be, broadcastTo_1b_ab_apply (rsqrt _)]
  unfold Cert.Spec.bnrelu
  show max (g (ix2 0 q) * (x0 (ix2 p q) - mean (ix2 0 q)) * Ideal.rsqrt (var (ix2 0 q) + Ideal.ofBits .f32 0x3727C5AC#32)
      + be (ix2 0 q)) (Ideal.ofBits .f32 0x00000000#32) = _
  rw [Ideal.ofBits_zero_f32]

variable (V : (c : Dev nD) → (b : Ref sig .tc) → Buf (Elt Ideal) ((c : Thread nD τ).loc b))

/-- The printed index maps, decided over the grid: the input rows move with the output rows, the parameter rows stay. -/
theorem idx_facts : ∀ t : Fin cfg3.N, win3_0.index t (0 : Fin 2) = win3_5.index t (0 : Fin 2)
    ∧ win3_0.index t (1 : Fin 2) = 0 ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val :=
  (by decide +kernel : ∀ t : Fin grid3.N, _)

/-- What point `t` writes back is block `t` of `G` of the arrays as the region finds them. -/
theorem flushed_eq (c : Dev nD) (t : Fin cfg3.N) :
    (dat3 V c).flushed 5 t = ((cfg3.win 5).blk t).view.read (Elt Ideal)
      (G (V c main_v59_0) (V c main_v65) (V c main_v79) (V c main_v80) (V c main_v81)) := by
  show (cfg3.win 5).cut (grid3.coords t) ((dat3 V c).after 5 t) = _
  rw [after3_5]
  unfold out3_5
  rw [View.canon_unit_zero hz]
  simp only [View.ld_unit_zero (S := S2000x256) hz, View.ld_unit_zero (S := S1x256) hz]
  obtain ⟨e0, e1, e2, e3, e4, e5, e6, e7, e8, e9, e10, e11⟩ := idx_facts t
  funext j
  obtain ⟨p, q, rfl⟩ : ∃ (p : Fin 2000) (q : Fin 256), j = ix2 p q := ⟨j 0, j 1, eq_ix2 j⟩
  show k3_pay1 (iblk3 V c 0 t) (iblk3 V c 2 t) (iblk3 V c 3 t) (iblk3 V c 1 t) (iblk3 V c 4 t) (ix2 p q)
    = G (V c main_v59_0) (V c main_v65) (V c main_v79) (V c main_v80) (V c main_v81) (((cfg3.win 5).blk t).view.emb (ix2 p q))
  refine (pay_apply _ _ _ _ _ p q).trans ?_
  have hq : ((((cfg3.win 5).blk t).view.emb (ix2 p q)) 1).val = q.val := by
    show win3_5.index t (1 : Fin 2) * 256 + 1 * q.val = q.val
    omega
  have hx : iblk3 V c 0 t (ix2 p q) = V c main_v59_0 (((cfg3.win 5).blk t).view.emb (ix2 p q)) := by
    show V c main_v59_0 (((cfg3.win 0).blk t).view.emb (ix2 p q)) = _
    refine congrArg _ (funext fun a => Fin.ext ?_)
    match a with
    | ⟨0, _⟩ => show win3_0.index t (0 : Fin 2) * 2000 + 1 * p.val = win3_5.index t (0 : Fin 2) * 2000 + 1 * p.val; omega
    | ⟨1, _⟩ => show win3_0.index t (1 : Fin 2) * 256 + 1 * q.val = win3_5.index t (1 : Fin 2) * 256 + 1 * q.val; omega
  have hm : col (iblk3 V c 1 t) q = col (V c main_v65) ⟨((((cfg3.win 5).blk t).view.emb (ix2 p q)) 1).val, idx2_lt1 _⟩ := by
    show V c main_v65 (((cfg3.win 1).blk t).view.emb (ix2 (0 : Fin 1) q)) = V c main_v65 (ix2 (0 : Fin 1) _)
    refine congrArg _ (funext fun a => Fin.ext ?_)
    match a with
    | ⟨0, _⟩ => show win3_1.index t (0 : Fin 2) * 1 + 1 * 0 = 0; omega
    | ⟨1, _⟩ => show win3_1.index t (1 : Fin 2) * 256 + 1 * q.val = _; rw [hq]; omega
  have hv : col (iblk3 V c 2 t) q = col (V c main_v79) ⟨((((cfg3.win 5).blk t).view.emb (ix2 p q)) 1).val, idx2_lt1 _⟩ := by
    show V c main_v79 (((cfg3.win 2).blk t).view.emb (ix2 (0 : Fin 1) q)) = V c main_v79 (ix2 (0 : Fin 1) _)
    refine congrArg _ (funext fun a => Fin.ext ?_)
    match a with
    | ⟨0, _⟩ => show win3_2.index t (0 : Fin 2) * 1 + 1 * 0 = 0; omega
    | ⟨1, _⟩ => show win3_2.index t (1 : Fin 2) * 256 + 1 * q.val = _; rw [hq]; omega
  have hg : col (iblk3 V c 3 t) q = col (V c main_v80) ⟨((((cfg3.win 5).blk t).view.emb (ix2 p q)) 1).val, idx2_lt1 _⟩ := by
    show V c main_v80 (((cfg3.win 3).blk t).view.emb (ix2 (0 : Fin 1) q)) = V c main_v80 (ix2 (0 : Fin 1) _)
    refine congrArg _ (funext fun a => Fin.ext ?_)
    match a with
    | ⟨0, _⟩ => show win3_3.index t (0 : Fin 2) * 1 + 1 * 0 = 0; omega
    | ⟨1, _⟩ => show win3_3.index t (1 : Fin 2) * 256 + 1 * q.val = _; rw [hq]; omega
  have hb : col (iblk3 V c 4 t) q = col (V c main_v81) ⟨((((cfg3.win 5).blk t).view.emb (ix2 p q)) 1).val, idx2_lt1 _⟩ := by
    show V c main_v81 (((cfg3.win 4).blk t).view.emb (ix2 (0 : Fin 1) q)) = V c main_v81 (ix2 (0 : Fin 1) _)
    refine congrArg _ (funext fun a => Fin.ext ?_)
    match a with
    | ⟨0, _⟩ => show win3_4.index t (0 : Fin 2) * 1 + 1 * 0 = 0; omega
    | ⟨1, _⟩ => show win3_4.index t (1 : Fin 2) * 256 + 1 * q.val = _; rw [hq]; omega
  rw [hx, hm, hv, hg, hb]
  rfl

/-- An index of the output array is in point `t`'s block iff each coordinate is in the block's range on its axis. -/
theorem mem_blk (t : Fin cfg3.N) (i : S50000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v82).slice (win3_5.rect t)).set ↔ _
  rw [View.set_slice_whole, Rect.mem_set_unit]
  exact Iff.rfl

/-- Every entry of the output array lies in the block of the point its row's tile names. -/
theorem cover (i : S50000x256.Idx) : ∃ t : Fin cfg3.N, (cfg3.win 5).flush t = true ∧ i ∈ ((cfg3.win 5).blk t).view.set := by
  have hi0 : (i 0).val < 50000 := idx2_lt0 i
  have hi1 : (i 1).val < 256 := idx2_lt1 i
  have hN : cfg3.N = 25 := N_3
  refine ⟨⟨(i 0).val / 2000, by rw [hN]; omega⟩, flush3_5 _, ?_⟩
  rw [mem_blk]
  obtain ⟨e0, e1, e2, e3, e4, e5, e6, e7, e8, e9, e10, e11⟩ := idx_facts ⟨(i 0).val / 2000, by rw [hN]; omega⟩
  intro a
  match a with
  | ⟨0, _⟩ =>
    show win3_5.index _ (0 : Fin 2) * 2000 ≤ (i 0).val ∧ (i 0).val < win3_5.index _ (0 : Fin 2) * 2000 + 2000
    rw [e11]; show (i 0).val / 2000 * 2000 ≤ (i 0).val ∧ (i 0).val < (i 0).val / 2000 * 2000 + 2000; omega
  | ⟨1, _⟩ =>
    show win3_5.index _ (1 : Fin 2) * 256 ≤ (i 1).val ∧ (i 1).val < win3_5.index _ (1 : Fin 2) * 256 + 256
    rw [e2]; omega

/-- After the region its output array is `G` of the arrays the region found. -/
theorem final (c : Dev nD) : (dat3 V c).arrAt 5 cfg3.N
    = G (V c main_v59_0) (V c main_v65) (V c main_v79) (V c main_v80) (V c main_v81) :=
  (dat3 V c).arrAt_eq_of_cover 5 _ (fun t _ => flushed_eq V c t) cover

end Cert.KernelIdeal.Norm2

end
-- ==== Proof.ValueEq.lean ====
/-
  The two programs end with the same result.

  Both programs are walked in step.  After each step of the network the kernel program's buffer (the last contents of
  its chain of segments so far) and the reference's buffer (the fold of its stages so far) hold the same array, and
  along the way both keep the argument arrays, the edge endpoints and the inverse degrees (the kernel as a column).
  The aggregations are the same host operations on equal inputs.  A linear step is the same sums on both sides.  A
  normalisation step agrees because the linear output is an array of real numbers, so that the mean of the tile means
  is the column mean and the clamped combination of the tile statistics the column variance; its output is again an
  array of real numbers.  The last step agrees because the padded lanes hold minus infinity and the padding columns
  of the weights never meet a real lane.
-/
import proofs.«165127_j7773890805925_2_alg».proof.Defs
import proofs.«165127_j7773890805925_2_alg».proof.Proof.Gen.Pre_finite_inputs
import proofs.«165127_j7773890805925_2_alg».proof.Proof.KernelRun
import proofs.«165127_j7773890805925_2_alg».proof.Proof.RefRun
import proofs.«165127_j7773890805925_2_alg».proof.Proof.KTerms
import proofs.«165127_j7773890805925_2_alg».proof.Proof.RefTerms
import proofs.«165127_j7773890805925_2_alg».proof.Proof.Bridge
import proofs.«165127_j7773890805925_2_alg».proof.Proof.Finite
import proofs.«165127_j7773890805925_2_alg».proof.Proof.PreReal
import proofs.«165127_j7773890805925_2_alg».proof.Proof.RefSoft
import proofs.«165127_j7773890805925_2_alg».proof.Proof.RefRead
import proofs.«165127_j7773890805925_2_alg».proof.Proof.Norm2

set_option maxRecDepth 16384
set_option maxHeartbeats 3200000

noncomputable section

namespace Cert.ValueEq

open Cert.KernelIdeal Cert.KernelIdeal.Gen Cert.KernelIdeal.KTerms
open Idealize.ShloMosaic Idealize.ShloMosaic.TcCoe Idealize.SL.Sem Idealize.ShloMosaic.StableHlo Idealize.ShloMosaic.ValueIdx
open Cert.LibFinite

/-- The two programs' buffer contents agree on the fifteen argument arrays. -/
def Agree (W : Valuation τ sig (Elt Ideal)) (X : Valuation Cert.ReferenceIdeal.τ Cert.ReferenceIdeal.sig (Elt Ideal)) : Prop :=
  X (Proc.devRef .tc Cert.ReferenceIdeal.main_arg0) = W (Proc.devRef .tc main_arg0)
    ∧ X (Proc.devRef .tc Cert.ReferenceIdeal.main_arg1) = W (Proc.devRef .tc main_arg1)
    ∧ X (Proc.devRef .tc Cert.ReferenceIdeal.main_arg2) = W (Proc.devRef .tc main_arg2)
    ∧ X (Proc.devRef .tc Cert.ReferenceIdeal.main_arg3) = W (Proc.devRef .tc main_arg3)
    ∧ X (Proc.devRef .tc Cert.ReferenceIdeal.main_arg4) = W (Proc.devRef .tc main_arg4)
    ∧ X (Proc.devRef .tc Cert.ReferenceIdeal.main_arg5) = W (Proc.devRef .tc main_arg5)
    ∧ X (Proc.devRef .tc Cert.ReferenceIdeal.main_arg6) = W (Proc.devRef .tc main_arg6)
    ∧ X (Proc.devRef .tc Cert.ReferenceIdeal.main_arg7) = W (Proc.devRef .tc main_arg7)
    ∧ X (Proc.devRef .tc Cert.ReferenceIdeal.main_arg8) = W (Proc.devRef .tc main_arg8)
    ∧ X (Proc.devRef .tc Cert.ReferenceIdeal.main_arg9) = W (Proc.devRef .tc main_arg9)
    ∧ X (Proc.devRef .tc Cert.ReferenceIdeal.main_arg10) = W (Proc.devRef .tc main_arg10)
    ∧ X (Proc.devRef .tc Cert.ReferenceIdeal.main_arg11) = W (Proc.devRef .tc main_arg11)
    ∧ X (Proc.devRef .tc Cert.ReferenceIdeal.main_arg12) = W (Proc.devRef .tc main_arg12)
    ∧ X (Proc.devRef .tc Cert.ReferenceIdeal.main_arg13) = W (Proc.devRef .tc main_arg13)
    ∧ X (Proc.devRef .tc Cert.ReferenceIdeal.main_arg14) = W (Proc.devRef .tc main_arg14)

/-- Every float argument array holds real numbers. -/
def ArgsReal (W : Valuation τ sig (Elt Ideal)) : Prop :=
  AllReal (W (Proc.devRef .tc main_arg0)) ∧ AllReal (W (Proc.devRef .tc main_arg2)) ∧ AllReal (W (Proc.devRef .tc main_arg3)) ∧ AllReal (W (Proc.devRef .tc main_arg4)) ∧ AllReal (W (Proc.devRef .tc main_arg5)) ∧ AllReal (W (Proc.devRef .tc main_arg6)) ∧ AllReal (W (Proc.devRef .tc main_arg7)) ∧ AllReal (W (Proc.devRef .tc main_arg8)) ∧ AllReal (W (Proc.devRef .tc main_arg9)) ∧ AllReal (W (Proc.devRef .tc main_arg10)) ∧ AllReal (W (Proc.devRef .tc main_arg11)) ∧ AllReal (W (Proc.devRef .tc main_arg12)) ∧ AllReal (W (Proc.devRef .tc main_arg13)) ∧ AllReal (W (Proc.devRef .tc main_arg14))

/-- What both programs carry from step to step: the arguments (equal, and real), the edge endpoints, and the inverse
    degrees (the kernel program's as a column). -/
def Carry (W : Valuation τ sig (Elt Ideal)) (X : Valuation Cert.ReferenceIdeal.τ Cert.ReferenceIdeal.sig (Elt Ideal)) : Prop :=
  Agree W X ∧ ArgsReal W ∧ X (Proc.devRef .tc Cert.ReferenceIdeal.main_v1) = W (Proc.devRef .tc main_v1) ∧ X (Proc.devRef .tc Cert.ReferenceIdeal.main_v3) = W (Proc.devRef .tc main_v3)
    ∧ W (Proc.devRef .tc main_v12) = shapeCast S50000x1 (X (Proc.devRef .tc Cert.ReferenceIdeal.main_v11)) shapeCasts_S50000_S50000x1
    ∧ AllReal (W (Proc.devRef .tc main_v12))

/-- The kernel program's buffers a step must not disturb. -/
abbrev ksafe : List (Ref sig .tc) := [main_arg0, main_arg1, main_arg2, main_arg3, main_arg4, main_arg5, main_arg6, main_arg7, main_arg8, main_arg9, main_arg10, main_arg11, main_arg12, main_arg13, main_arg14, main_v1, main_v3, main_v12]

/-- A step of the kernel program that leaves those buffers alone keeps what is carried. -/
theorem Carry.kstep {W W' : Valuation τ sig (Elt Ideal)} {X : Valuation Cert.ReferenceIdeal.τ Cert.ReferenceIdeal.sig (Elt Ideal)} (h : Carry W X)
    (hW : ∀ r ∈ ksafe, W' (Proc.devRef .tc r) = W (Proc.devRef .tc r)) : Carry W' X := by
  obtain ⟨⟨a0, a1, a2, a3, a4, a5, a6, a7, a8, a9, a10, a11, a12, a13, a14⟩, ⟨r0, r2, r3, r4, r5, r6, r7, r8, r9, r10, r11, r12, r13, r14⟩, h1, h3, h12, hr12⟩ := h
  refine ⟨⟨a0.trans (hW _ (by decide)).symm, a1.trans (hW _ (by decide)).symm, a2.trans (hW _ (by decide)).symm, a3.trans (hW _ (by decide)).symm, a4.trans (hW _ (by decide)).symm, a5.trans (hW _ (by decide)).symm, a6.trans (hW _ (by decide)).symm, a7.trans (hW _ (by decide)).symm, a8.trans (hW _ (by decide)).symm, a9.trans (hW _ (by decide)).symm, a10.trans (hW _ (by decide)).symm, a11.trans (hW _ (by decide)).symm, a12.trans (hW _ (by decide)).symm, a13.trans (hW _ (by decide)).symm, a14.trans (hW _ (by decide)).symm⟩,
    ⟨by rw [hW _ (by decide)]; exact r0, by rw [hW _ (by decide)]; exact r2, by rw [hW _ (by decide)]; exact r3, by rw [hW _ (by decide)]; exact r4, by rw [hW _ (by decide)]; exact r5, by rw [hW _ (by decide)]; exact r6, by rw [hW _ (by decide)]; exact r7, by rw [hW _ (by decide)]; exact r8, by rw [hW _ (by decide)]; exact r9, by rw [hW _ (by decide)]; exact r10, by rw [hW _ (by decide)]; exact r11, by rw [hW _ (by decide)]; exact r12, by rw [hW _ (by decide)]; exact r13, by rw [hW _ (by decide)]; exact r14⟩,
    h1.trans (hW _ (by decide)).symm, h3.trans (hW _ (by decide)).symm, (hW _ (by decide)).trans h12, by rw [hW _ (by decide)]; exact hr12⟩

/-- A stage of the reference that leaves the arguments, the edge endpoints and the inverse degrees alone keeps what
    is carried. -/
theorem Carry.rstep {W : Valuation τ sig (Elt Ideal)} {X X' : Valuation Cert.ReferenceIdeal.τ Cert.ReferenceIdeal.sig (Elt Ideal)} (h : Carry W X)
    (hX : ∀ r ∈ Cert.ReferenceIdeal.RefRun.safe, X' (Proc.devRef .tc r) = X (Proc.devRef .tc r)) : Carry W X' := by
  obtain ⟨⟨a0, a1, a2, a3, a4, a5, a6, a7, a8, a9, a10, a11, a12, a13, a14⟩, hr, h1, h3, h12, hr12⟩ := h
  refine ⟨⟨(hX _ (by decide)).trans a0, (hX _ (by decide)).trans a1, (hX _ (by decide)).trans a2, (hX _ (by decide)).trans a3, (hX _ (by decide)).trans a4, (hX _ (by decide)).trans a5, (hX _ (by decide)).trans a6, (hX _ (by decide)).trans a7, (hX _ (by decide)).trans a8, (hX _ (by decide)).trans a9, (hX _ (by decide)).trans a10, (hX _ (by decide)).trans a11, (hX _ (by decide)).trans a12, (hX _ (by decide)).trans a13, (hX _ (by decide)).trans a14⟩, hr,
    (hX _ (by decide)).trans h1, (hX _ (by decide)).trans h3, ?_, hr12⟩
  rw [hX _ (by decide)]; exact h12

variable (m : (ℓ : Loc nD τ sig) → Buf (Elt Ideal) ℓ) (g : Dev nD → PrngReg) (c : Dev nD)

/-- Region 0 leaves the arguments, the edge endpoints and the inverse-degree column as it found them. -/
theorem reg0_keep (r : Ref sig .tc) (hr : r ∈ ksafe) : W2 m g c (Proc.devRef .tc r) = W1 m g c (Proc.devRef .tc r) := by
  simp only [ksafe, List.mem_cons, List.not_mem_nil, or_false] at hr
  rcases hr with rfl | rfl | rfl | rfl | rfl | rfl | rfl | rfl | rfl | rfl | rfl | rfl | rfl | rfl | rfl | rfl | rfl | rfl
  · exact (W2_arr m g c 1).trans (((dat0 (V1 m g) c).arrAt_in 1 rfl _).trans (A_eq0 (V1 m g) c 1))
  · exact W2_of_ne m g c _ (by decide)
  · exact (W2_arr m g c 3).trans (((dat0 (V1 m g) c).arrAt_in 3 rfl _).trans (A_eq0 (V1 m g) c 3))
  · exact (W2_arr m g c 4).trans (((dat0 (V1 m g) c).arrAt_in 4 rfl _).trans (A_eq0 (V1 m g) c 4))
  · exact W2_of_ne m g c _ (by decide)
  · exact W2_of_ne m g c _ (by decide)
  · exact W2_of_ne m g c _ (by decide)
  · exact W2_of_ne m g c _ (by decide)
  · exact W2_of_ne m g c _ (by decide)
  · exact W2_of_ne m g c _ (by decide)
  · exact W2_of_ne m g c _ (by decide)
  · exact W2_of_ne m g c _ (by decide)
  · exact W2_of_ne m g c _ (by decide)
  · exact W2_of_ne m g c _ (by decide)
  · exact W2_of_ne m g c _ (by decide)
  · exact W2_of_ne m g c _ (by decide)
  · exact W2_of_ne m g c _ (by decide)
  · exact (W2_arr m g c 2).trans (((dat0 (V1 m g) c).arrAt_in 2 rfl _).trans (A_eq0 (V1 m g) c 2))

/-- Region 1 leaves the arguments, the edge endpoints and the inverse-degree column as it found them. -/
theorem reg1_keep (r : Ref sig .tc) (hr : r ∈ ksafe) : W4 m g c (Proc.devRef .tc r) = W3 m g c (Proc.devRef .tc r) := by
  simp only [ksafe, List.mem_cons, List.not_mem_nil, or_false] at hr
  rcases hr with rfl | rfl | rfl | rfl | rfl | rfl | rfl | rfl | rfl | rfl | rfl | rfl | rfl | rfl | rfl | rfl | rfl | rfl
  · exact W4_of_ne m g c _ (by decide)
  · exact W4_of_ne m g c _ (by decide)
  · exact W4_of_ne m g c _ (by decide)
  · exact W4_of_ne m g c _ (by decide)
  · exact W4_of_ne m g c _ (by decide)
  · exact W4_of_ne m g c _ (by decide)
  · exact W4_of_ne m g c _ (by decide)
  · exact W4_of_ne m g c _ (by decide)
  · exact W4_of_ne m g c _ (by decide)
  · exact W4_of_ne m g c _ (by decide)
  · exact W4_of_ne m g c _ (by decide)
  · exact W4_of_ne m g c _ (by decide)
  · exact W4_of_ne m g c _ (by decide)
  · exact W4_of_ne m g c _ (by decide)
  · exact W4_of_ne m g c _ (by decide)
  · exact W4_of_ne m g c _ (by decide)
  · exact W4_of_ne m g c _ (by decide)
  · exact W4_of_ne m g c _ (by decide)

/-- Region 2 leaves the arguments, the edge endpoints and the inverse-degree column as it found them. -/
theorem reg2_keep (r : Ref sig .tc) (hr : r ∈ ksafe) : W6 m g c (Proc.devRef .tc r) = W5 m g c (Proc.devRef .tc r) := by
  simp only [ksafe, List.mem_cons, List.not_mem_nil, or_false] at hr
  rcases hr with rfl | rfl | rfl | rfl | rfl | rfl | rfl | rfl | rfl | rfl | rfl | rfl | rfl | rfl | rfl | rfl | rfl | rfl
  · exact W6_of_ne m g c _ (by decide)
  · exact W6_of_ne m g c _ (by decide)
  · exact W6_of_ne m g c _ (by decide)
  · exact W6_of_ne m g c _ (by decide)
  · exact W6_of_ne m g c _ (by decide)
  · exact W6_of_ne m g c _ (by decide)
  · exact W6_of_ne m g c _ (by decide)
  · exact (W6_arr m g c 3).trans (((dat2 (V5 m g) c).arrAt_in 3 rfl _).trans (A_eq2 (V5 m g) c 3))
  · exact (W6_arr m g c 4).trans (((dat2 (V5 m g) c).arrAt_in 4 rfl _).trans (A_eq2 (V5 m g) c 4))
  · exact W6_of_ne m g c _ (by decide)
  · exact W6_of_ne m g c _ (by decide)
  · exact W6_of_ne m g c _ (by decide)
  · exact W6_of_ne m g c _ (by decide)
  · exact W6_of_ne m g c _ (by decide)
  · exact W6_of_ne m g c _ (by decide)
  · exact W6_of_ne m g c _ (by decide)
  · exact W6_of_ne m g c _ (by decide)
  · exact (W6_arr m g c 2).trans (((dat2 (V5 m g) c).arrAt_in 2 rfl _).trans (A_eq2 (V5 m g) c 2))

/-- Region 3 leaves the arguments, the edge endpoints and the inverse-degree column as it found them. -/
theorem reg3_keep (r : Ref sig .tc) (hr : r ∈ ksafe) : W8 m g c (Proc.devRef .tc r) = W7 m g c (Proc.devRef .tc r) := by
  simp only [ksafe, List.mem_cons, List.not_mem_nil, or_false] at hr
  rcases hr with rfl | rfl | rfl | rfl | rfl | rfl | rfl | rfl | rfl | rfl | rfl | rfl | rfl | rfl | rfl | rfl | rfl | rfl
  · exact W8_of_ne m g c _ (by decide)
  · exact W8_of_ne m g c _ (by decide)
  · exact W8_of_ne m g c _ (by decide)
  · exact W8_of_ne m g c _ (by decide)
  · exact W8_of_ne m g c _ (by decide)
  · exact W8_of_ne m g c _ (by decide)
  · exact W8_of_ne m g c _ (by decide)
  · exact W8_of_ne m g c _ (by decide)
  · exact W8_of_ne m g c _ (by decide)
  · exact W8_of_ne m g c _ (by decide)
  · exact W8_of_ne m g c _ (by decide)
  · exact W8_of_ne m g c _ (by decide)
  · exact W8_of_ne m g c _ (by decide)
  · exact W8_of_ne m g c _ (by decide)
  · exact W8_of_ne m g c _ (by decide)
  · exact W8_of_ne m g c _ (by decide)
  · exact W8_of_ne m g c _ (by decide)
  · exact W8_of_ne m g c _ (by decide)

/-- Region 4 leaves the arguments, the edge endpoints and the inverse-degree column as it found them. -/
theorem reg4_keep (r : Ref sig .tc) (hr : r ∈ ksafe) : W16 m g c (Proc.devRef .tc r) = W15 m g c (Proc.devRef .tc r) := by
  simp only [ksafe, List.mem_cons, List.not_mem_nil, or_false] at hr
  rcases hr with rfl | rfl | rfl | rfl | rfl | rfl | rfl | rfl | rfl | rfl | rfl | rfl | rfl | rfl | rfl | rfl | rfl | rfl
  · exact W16_of_ne m g c _ (by decide)
  · exact W16_of_ne m g c _ (by decide)
  · exact W16_of_ne m g c _ (by decide)
  · exact W16_of_ne m g c _ (by decide)
  · exact W16_of_ne m g c _ (by decide)
  · exact W16_of_ne m g c _ (by decide)
  · exact W16_of_ne m g c _ (by decide)
  · exact W16_of_ne m g c _ (by decide)
  · exact W16_of_ne m g c _ (by decide)
  · exact W16_of_ne m g c _ (by decide)
  · exact W16_of_ne m g c _ (by decide)
  · exact W16_of_ne m g c _ (by decide)
  · exact W16_of_ne m g c _ (by decide)
  · exact W16_of_ne m g c _ (by decide)
  · exact W16_of_ne m g c _ (by decide)
  · exact W16_of_ne m g c _ (by decide)
  · exact W16_of_ne m g c _ (by decide)
  · exact (W16_arr m g c 2).trans (((dat4 (V15 m g) c).arrAt_in 2 rfl _).trans (A_eq4 (V15 m g) c 2))

/-- The tile statistics a statistics region leaves: row t holds the mean, and the sum of squared deviations, of tile
    t of each column of the linear output. -/
def Stats (lin : S50000x256.Idx → EReal) (meanp m2p : S25x1x256.Idx → EReal) : Prop :=
  (∀ (t : Fin 25) (j : Fin 256), meanp (ix3 t (0 : Fin 1) j) = Cert.Spec.tileMean (fun r => lin (ix2 r j)) t)
  ∧ (∀ (t : Fin 25) (j : Fin 256), m2p (ix3 t (0 : Fin 1) j) = Cert.Spec.tileM2 (fun r => lin (ix2 r j)) t)

variable (X : Valuation Cert.ReferenceIdeal.τ Cert.ReferenceIdeal.sig (Elt Ideal))

/-- The first step: degrees, aggregation and linear map.  From equal, real arguments both programs reach the same
    linear output, an array of real numbers, with its tile statistics, and what is carried. -/
theorem stageA (hA : Agree (W0 m g c) X) (hR : ArgsReal (W0 m g c)) :
    Carry (W2 m g c) (after (Cert.ReferenceIdeal.RefRun.sA (F := Ideal)) X)
    ∧ after (Cert.ReferenceIdeal.RefRun.sA (F := Ideal)) X (Proc.devRef .tc Cert.ReferenceIdeal.main_v30) = W2 m g c (Proc.devRef .tc main_v24_0)
    ∧ Stats (W2 m g c (Proc.devRef .tc main_v24_0)) (W2 m g c (Proc.devRef .tc main_v24_1)) (W2 m g c (Proc.devRef .tc main_v24_2))
    ∧ AllReal (W2 m g c (Proc.devRef .tc main_v24_0)) := by
  obtain ⟨a0, a1, a2, a3, a4, a5, a6, a7, a8, a9, a10, a11, a12, a13, a14⟩ := hA
  obtain ⟨r0, r2, r3, r4, r5, r6, r7, r8, r9, r10, r11, r12, r13, r14⟩ := hR
  obtain ⟨l1, l3, l11, l21⟩ := lock0 (W0 m g c) X a0 a1
  have k0 : ∀ r ∈ kept0_safe, W1 m g c (Proc.devRef .tc r) = W0 m g c (Proc.devRef .tc r) := fun r hr => kept0 (W0 m g c) r hr
  have KL : W2 m g c (Proc.devRef .tc main_v24_0) = _ := (W2_arr m g c 6).trans (Cert.KernelIdeal.Lin0.final6 (V1 m g) c)
  have KP : W2 m g c (Proc.devRef .tc main_v24_1) = _ := (W2_arr m g c 7).trans (Cert.KernelIdeal.Lin0.final7 (V1 m g) c)
  have KM : W2 m g c (Proc.devRef .tc main_v24_2) = _ := (W2_arr m g c 8).trans (Cert.KernelIdeal.Lin0.final8 (V1 m g) c)
  have e22 : V1 m g c main_v22 = after (Cert.ReferenceIdeal.RefRun.sA (F := Ideal)) X (Proc.devRef .tc Cert.ReferenceIdeal.main_v21) := l21.symm
  have e12 : V1 m g c main_v12 = shapeCast S50000x1 (after (Cert.ReferenceIdeal.RefRun.sA (F := Ideal)) X (Proc.devRef .tc Cert.ReferenceIdeal.main_v11)) shapeCasts_S50000_S50000x1 :=
    (h0_inv (W0 m g c)).trans (by rw [← l11])
  have e23 : V1 m g c main_v23 = shapeCast S1x256 (X (Proc.devRef .tc Cert.ReferenceIdeal.main_arg4)) shapeCasts_S256_S1x256 := (h0_b (W0 m g c)).trans (by rw [← a4])
  have ea0 : V1 m g c main_arg0 = X (Proc.devRef .tc Cert.ReferenceIdeal.main_arg0) := (k0 _ (by decide)).trans a0.symm
  have ea2 : V1 m g c main_arg2 = X (Proc.devRef .tc Cert.ReferenceIdeal.main_arg2) := (k0 _ (by decide)).trans a2.symm
  have ea3 : V1 m g c main_arg3 = X (Proc.devRef .tc Cert.ReferenceIdeal.main_arg3) := (k0 _ (by decide)).trans a3.symm
  have hkeep : ∀ r ∈ kept0_safe, W2 m g c (Proc.devRef .tc r) = W0 m g c (Proc.devRef .tc r) := fun r hr =>
    (reg0_keep m g c r (show r ∈ kept0_safe ++ [main_v1, main_v3, main_v12] from List.mem_append_left _ hr)).trans (k0 r hr)
  refine ⟨⟨⟨?_, ?_, ?_, ?_, ?_, ?_, ?_, ?_, ?_, ?_, ?_, ?_, ?_, ?_, ?_⟩, ⟨?_, ?_, ?_, ?_, ?_, ?_, ?_, ?_, ?_, ?_, ?_, ?_, ?_, ?_⟩, ?_, ?_, ?_, ?_⟩, ?_, ⟨?_, ?_⟩, ?_⟩
  · exact (Cert.ReferenceIdeal.RefRun.kept_sA X _ (by decide)).trans (a0.trans (hkeep _ (by decide)).symm)
  · exact (Cert.ReferenceIdeal.RefRun.kept_sA X _ (by decide)).trans (a1.trans (hkeep _ (by decide)).symm)
  · exact (Cert.ReferenceIdeal.RefRun.kept_sA X _ (by decide)).trans (a2.trans (hkeep _ (by decide)).symm)
  · exact (Cert.ReferenceIdeal.RefRun.kept_sA X _ (by decide)).trans (a3.trans (hkeep _ (by decide)).symm)
  · exact (Cert.ReferenceIdeal.RefRun.kept_sA X _ (by decide)).trans (a4.trans (hkeep _ (by decide)).symm)
  · exact (Cert.ReferenceIdeal.RefRun.kept_sA X _ (by decide)).trans (a5.trans (hkeep _ (by decide)).symm)
  · exact (Cert.ReferenceIdeal.RefRun.kept_sA X _ (by decide)).trans (a6.trans (hkeep _ (by decide)).symm)
  · exact (Cert.ReferenceIdeal.RefRun.kept_sA X _ (by decide)).trans (a7.trans (hkeep _ (by decide)).symm)
  · exact (Cert.ReferenceIdeal.RefRun.kept_sA X _ (by decide)).trans (a8.trans (hkeep _ (by decide)).symm)
  · exact (Cert.ReferenceIdeal.RefRun.kept_sA X _ (by decide)).trans (a9.trans (hkeep _ (by decide)).symm)
  · exact (Cert.ReferenceIdeal.RefRun.kept_sA X _ (by decide)).trans (a10.trans (hkeep _ (by decide)).symm)
  · exact (Cert.ReferenceIdeal.RefRun.kept_sA X _ (by decide)).trans (a11.trans (hkeep _ (by decide)).symm)
  · exact (Cert.ReferenceIdeal.RefRun.kept_sA X _ (by decide)).trans (a12.trans (hkeep _ (by decide)).symm)
  · exact (Cert.ReferenceIdeal.RefRun.kept_sA X _ (by decide)).trans (a13.trans (hkeep _ (by decide)).symm)
  · exact (Cert.ReferenceIdeal.RefRun.kept_sA X _ (by decide)).trans (a14.trans (hkeep _ (by decide)).symm)
  · rw [hkeep _ (by decide)]; exact r0
  · rw [hkeep _ (by decide)]; exact r2
  · rw [hkeep _ (by decide)]; exact r3
  · rw [hkeep _ (by decide)]; exact r4
  · rw [hkeep _ (by decide)]; exact r5
  · rw [hkeep _ (by decide)]; exact r6
  · rw [hkeep _ (by decide)]; exact r7
  · rw [hkeep _ (by decide)]; exact r8
  · rw [hkeep _ (by decide)]; exact r9
  · rw [hkeep _ (by decide)]; exact r10
  · rw [hkeep _ (by decide)]; exact r11
  · rw [hkeep _ (by decide)]; exact r12
  · rw [hkeep _ (by decide)]; exact r13
  · rw [hkeep _ (by decide)]; exact r14
  · exact l1.trans (reg0_keep m g c _ (by decide)).symm
  · exact l3.trans (reg0_keep m g c _ (by decide)).symm
  · exact (reg0_keep m g c _ (by decide)).trans e12
  · rw [reg0_keep m g c _ (by decide), show W1 m g c (Proc.devRef .tc main_v12) = _ from h0_inv (W0 m g c)]
    exact Cert.Finite.shapeCast_real _ _ (Cert.Finite.inv_real (W0 m g c))
  · rw [KL, e22, ea0, e12, ea2, ea3, e23, Cert.Bridge.lin128, Cert.ReferenceIdeal.RefTerms.sA_lin]
  · intro t j
    rw [KP, KL]
    exact Cert.KernelIdeal.Lin0.G7_apply _ _ _ _ _ _ t j _ rfl rfl
  · intro t j
    rw [KM, KL]
    exact Cert.KernelIdeal.Lin0.G8_apply _ _ _ _ _ _ t j _ rfl rfl
  · rw [KL]
    refine Cert.Finite.lin0_real _ _ _ _ _ _ (Cert.Finite.agg1_real (W0 m g c) r0) ?_ ?_ ?_ ?_ ?_
    · rw [show V1 m g c main_arg0 = W0 m g c (Proc.devRef .tc main_arg0) from k0 _ (by decide)]; exact r0
    · rw [show V1 m g c main_v12 = _ from h0_inv (W0 m g c)]; exact Cert.Finite.shapeCast_real _ _ (Cert.Finite.inv_real (W0 m g c))
    · rw [show V1 m g c main_arg2 = W0 m g c (Proc.devRef .tc main_arg2) from k0 _ (by decide)]; exact r2
    · rw [show V1 m g c main_arg3 = W0 m g c (Proc.devRef .tc main_arg3) from k0 _ (by decide)]; exact r3
    · rw [show V1 m g c main_v23 = _ from h0_b (W0 m g c)]; exact Cert.Finite.shapeCast_real _ _ r4

/-- stageB -/
theorem stageB (hC : Carry (W2 m g c) X) (hl : X (Proc.devRef .tc Cert.ReferenceIdeal.main_v30) = W2 m g c (Proc.devRef .tc main_v24_0))
    (hs : Stats (W2 m g c (Proc.devRef .tc main_v24_0)) (W2 m g c (Proc.devRef .tc main_v24_1)) (W2 m g c (Proc.devRef .tc main_v24_2)))
    (hreal : AllReal (W2 m g c (Proc.devRef .tc main_v24_0))) :
    Carry (W4 m g c) (after (Cert.ReferenceIdeal.RefRun.sB1 (F := Ideal)) (after (Cert.ReferenceIdeal.RefRun.sB0 (F := Ideal)) X)) ∧ (after (Cert.ReferenceIdeal.RefRun.sB1 (F := Ideal)) (after (Cert.ReferenceIdeal.RefRun.sB0 (F := Ideal)) X)) (Proc.devRef .tc Cert.ReferenceIdeal.main_v50) = W4 m g c (Proc.devRef .tc main_v47)
      ∧ AllReal (W4 m g c (Proc.devRef .tc main_v47)) := by
  have hC' := hC
  obtain ⟨⟨a0, a1, a2, a3, a4, a5, a6, a7, a8, a9, a10, a11, a12, a13, a14⟩, ⟨r0, r2, r3, r4, r5, r6, r7, r8, r9, r10, r11, r12, r13, r14⟩, h1, h3, h12, hr12⟩ := hC
  have k1 : ∀ r ∈ kept1_safe, W3 m g c (Proc.devRef .tc r) = W2 m g c (Proc.devRef .tc r) := fun r hr => kept1 (W2 m g c) r hr
  have KH : W4 m g c (Proc.devRef .tc main_v47) = _ := (W4_arr m g c 5).trans (Cert.KernelIdeal.Norm.final (V3 m g) c)
  have e0 : V3 m g c main_v24_0 = W2 m g c (Proc.devRef .tc main_v24_0) := k1 _ (by decide)
  have em : V3 m g c main_v30 = glueMeanT (W2 m g c (Proc.devRef .tc main_v24_1)) := h1_mean (W2 m g c)
  have ev : V3 m g c main_v44 = glueVarT (W2 m g c (Proc.devRef .tc main_v24_1)) (W2 m g c (Proc.devRef .tc main_v24_2)) := h1_var (W2 m g c)
  have eg : V3 m g c main_v45 = shapeCast S1x256 (W2 m g c (Proc.devRef .tc main_arg5)) shapeCasts_S256_S1x256 := h1_g (W2 m g c)
  have eb : V3 m g c main_v46 = shapeCast S1x256 (W2 m g c (Proc.devRef .tc main_arg6)) shapeCasts_S256_S1x256 := h1_be (W2 m g c)
  have HB : (after (Cert.ReferenceIdeal.RefRun.sB1 (F := Ideal)) (after (Cert.ReferenceIdeal.RefRun.sB0 (F := Ideal)) X)) (Proc.devRef .tc Cert.ReferenceIdeal.main_v50) = W4 m g c (Proc.devRef .tc main_v47) := by
    rw [KH, e0, em, ev, eg, eb, Cert.Bridge.norm _ _ _ _ _ _ _ hs.1 hs.2 hreal, Cert.ReferenceIdeal.RefTerms.sB_h, hl, a5, a6]
  refine ⟨?_, HB, ?_⟩
  · exact (hC'.kstep (fun r hr => (reg1_keep m g c r hr).trans (k1 r (show r ∈ ksafe ++ [main_v24_0] from List.mem_append_left _ hr)))).rstep
      (fun r hr => (Cert.ReferenceIdeal.RefRun.kept_sB1 _ r hr).trans (Cert.ReferenceIdeal.RefRun.kept_sB0 X r hr))
  · rw [← HB, Cert.ReferenceIdeal.RefTerms.sB_h, hl, a5, a6]
    exact Cert.Finite.bnT_real _ _ _ hreal r5 r6

/-- The second aggregation and linear map. -/
theorem stageC (hC : Carry (W4 m g c) X) (hh : X (Proc.devRef .tc Cert.ReferenceIdeal.main_v50) = W4 m g c (Proc.devRef .tc main_v47)) (hreal : AllReal (W4 m g c (Proc.devRef .tc main_v47))) :
    Carry (W6 m g c) (after (Cert.ReferenceIdeal.RefRun.sC (F := Ideal)) X) ∧ (after (Cert.ReferenceIdeal.RefRun.sC (F := Ideal)) X) (Proc.devRef .tc Cert.ReferenceIdeal.main_v69) = W6 m g c (Proc.devRef .tc main_v59_0)
      ∧ Stats (W6 m g c (Proc.devRef .tc main_v59_0)) (W6 m g c (Proc.devRef .tc main_v59_1)) (W6 m g c (Proc.devRef .tc main_v59_2))
      ∧ AllReal (W6 m g c (Proc.devRef .tc main_v59_0)) := by
  have hC' := hC
  obtain ⟨⟨a0, a1, a2, a3, a4, a5, a6, a7, a8, a9, a10, a11, a12, a13, a14⟩, ⟨r0, r2, r3, r4, r5, r6, r7, r8, r9, r10, r11, r12, r13, r14⟩, h1, h3, h12, hr12⟩ := hC
  have k2 : ∀ r ∈ kept2_safe, W5 m g c (Proc.devRef .tc r) = W4 m g c (Proc.devRef .tc r) := fun r hr => kept2 (W4 m g c) r hr
  have L2 := lock2 (W4 m g c) X hh h1 h3
  have KL : W6 m g c (Proc.devRef .tc main_v59_0) = _ := (W6_arr m g c 6).trans (Cert.KernelIdeal.Lin2.final6 (V5 m g) c)
  have KP : W6 m g c (Proc.devRef .tc main_v59_1) = _ := (W6_arr m g c 7).trans (Cert.KernelIdeal.Lin2.final7 (V5 m g) c)
  have KM : W6 m g c (Proc.devRef .tc main_v59_2) = _ := (W6_arr m g c 8).trans (Cert.KernelIdeal.Lin2.final8 (V5 m g) c)
  have e57 : V5 m g c main_v57 = (after (Cert.ReferenceIdeal.RefRun.sC (F := Ideal)) X) (Proc.devRef .tc Cert.ReferenceIdeal.main_v60) := L2.symm
  have e47 : V5 m g c main_v47 = X (Proc.devRef .tc Cert.ReferenceIdeal.main_v50) := (k2 _ (by decide)).trans hh.symm
  have e12 : V5 m g c main_v12 = shapeCast S50000x1 (X (Proc.devRef .tc Cert.ReferenceIdeal.main_v11)) shapeCasts_S50000_S50000x1 := (k2 _ (by decide)).trans h12
  have ea7 : V5 m g c main_arg7 = X (Proc.devRef .tc Cert.ReferenceIdeal.main_arg7) := (k2 _ (by decide)).trans a7.symm
  have ea8 : V5 m g c main_arg8 = X (Proc.devRef .tc Cert.ReferenceIdeal.main_arg8) := (k2 _ (by decide)).trans a8.symm
  have e58 : V5 m g c main_v58 = shapeCast S1x256 (X (Proc.devRef .tc Cert.ReferenceIdeal.main_arg9)) shapeCasts_S256_S1x256 := (h2_b (W4 m g c)).trans (by rw [← a9])
  refine ⟨?_, ?_, ⟨?_, ?_⟩, ?_⟩
  · exact (hC'.kstep (fun r hr => (reg2_keep m g c r hr).trans (k2 r (show r ∈ ksafe ++ [main_v47] from List.mem_append_left _ hr)))).rstep
      (fun r hr => Cert.ReferenceIdeal.RefRun.kept_sC X r hr)
  · rw [KL, e57, e47, e12, ea7, ea8, e58, Cert.Bridge.lin256, Cert.ReferenceIdeal.RefTerms.sC_lin]
  · intro t j
    rw [KP, KL]
    exact Cert.KernelIdeal.Lin2.G7_apply _ _ _ _ _ _ t j _ rfl rfl
  · intro t j
    rw [KM, KL]
    exact Cert.KernelIdeal.Lin2.G8_apply _ _ _ _ _ _ t j _ rfl rfl
  · rw [KL]
    refine Cert.Finite.lin2_real _ _ _ _ _ _ (Cert.Finite.agg2_real (W4 m g c) hreal) ?_ ?_ ?_ ?_ ?_
    · rw [show V5 m g c main_v47 = W4 m g c (Proc.devRef .tc main_v47) from k2 _ (by decide)]; exact hreal
    · rw [show V5 m g c main_v12 = W4 m g c (Proc.devRef .tc main_v12) from k2 _ (by decide)]; exact hr12
    · rw [show V5 m g c main_arg7 = W4 m g c (Proc.devRef .tc main_arg7) from k2 _ (by decide)]; exact r7
    · rw [show V5 m g c main_arg8 = W4 m g c (Proc.devRef .tc main_arg8) from k2 _ (by decide)]; exact r8
    · rw [show V5 m g c main_v58 = _ from h2_b (W4 m g c)]; exact Cert.Finite.shapeCast_real _ _ r9

/-- stageD -/
theorem stageD (hC : Carry (W6 m g c) X) (hl : X (Proc.devRef .tc Cert.ReferenceIdeal.main_v69) = W6 m g c (Proc.devRef .tc main_v59_0))
    (hs : Stats (W6 m g c (Proc.devRef .tc main_v59_0)) (W6 m g c (Proc.devRef .tc main_v59_1)) (W6 m g c (Proc.devRef .tc main_v59_2)))
    (hreal : AllReal (W6 m g c (Proc.devRef .tc main_v59_0))) :
    Carry (W8 m g c) (after (Cert.ReferenceIdeal.RefRun.sD (F := Ideal)) X) ∧ (after (Cert.ReferenceIdeal.RefRun.sD (F := Ideal)) X) (Proc.devRef .tc Cert.ReferenceIdeal.main_v89) = W8 m g c (Proc.devRef .tc main_v82)
      ∧ AllReal (W8 m g c (Proc.devRef .tc main_v82)) := by
  have hC' := hC
  obtain ⟨⟨a0, a1, a2, a3, a4, a5, a6, a7, a8, a9, a10, a11, a12, a13, a14⟩, ⟨r0, r2, r3, r4, r5, r6, r7, r8, r9, r10, r11, r12, r13, r14⟩, h1, h3, h12, hr12⟩ := hC
  have k1 : ∀ r ∈ kept3_safe, W7 m g c (Proc.devRef .tc r) = W6 m g c (Proc.devRef .tc r) := fun r hr => kept3 (W6 m g c) r hr
  have KH : W8 m g c (Proc.devRef .tc main_v82) = _ := (W8_arr m g c 5).trans (Cert.KernelIdeal.Norm2.final (V7 m g) c)
  have e0 : V7 m g c main_v59_0 = W6 m g c (Proc.devRef .tc main_v59_0) := k1 _ (by decide)
  have em : V7 m g c main_v65 = glueMeanT (W6 m g c (Proc.devRef .tc main_v59_1)) := h3_mean (W6 m g c)
  have ev : V7 m g c main_v79 = glueVarT (W6 m g c (Proc.devRef .tc main_v59_1)) (W6 m g c (Proc.devRef .tc main_v59_2)) := h3_var (W6 m g c)
  have eg : V7 m g c main_v80 = shapeCast S1x256 (W6 m g c (Proc.devRef .tc main_arg10)) shapeCasts_S256_S1x256 := h3_g (W6 m g c)
  have eb : V7 m g c main_v81 = shapeCast S1x256 (W6 m g c (Proc.devRef .tc main_arg11)) shapeCasts_S256_S1x256 := h3_be (W6 m g c)
  have HB : (after (Cert.ReferenceIdeal.RefRun.sD (F := Ideal)) X) (Proc.devRef .tc Cert.ReferenceIdeal.main_v89) = W8 m g c (Proc.devRef .tc main_v82) := by
    rw [KH, e0, em, ev, eg, eb, Cert.Bridge.norm _ _ _ _ _ _ _ hs.1 hs.2 hreal, Cert.ReferenceIdeal.RefTerms.sD_h, hl, a10, a11]
  refine ⟨?_, HB, ?_⟩
  · exact (hC'.kstep (fun r hr => (reg3_keep m g c r hr).trans (k1 r (show r ∈ ksafe ++ [main_v59_0] from List.mem_append_left _ hr)))).rstep
      (fun r hr => Cert.ReferenceIdeal.RefRun.kept_sD X r hr)
  · rw [← HB, Cert.ReferenceIdeal.RefTerms.sD_h, hl, a10, a11]
    exact Cert.Finite.bnT_real _ _ _ hreal r10 r11

/-- The host stretches before the last region are one line from the fourth region's exit. -/
theorem W15_eq : W15 m g c = after hostOps4all (W8 m g c) := by
  simp only [hostOps4all, Cert.Lib.AfterCut.after_append]

/-- The last step: aggregation, linear map and log-softmax. -/
theorem stageE (hC : Carry (W8 m g c) X) (hh : X (Proc.devRef .tc Cert.ReferenceIdeal.main_v89) = W8 m g c (Proc.devRef .tc main_v82)) :
    after (Cert.ReferenceIdeal.RefRun.sF (F := Ideal)) (after (Cert.ReferenceIdeal.RefRun.sE1 (F := Ideal)) (after (Cert.ReferenceIdeal.RefRun.sE0 (F := Ideal)) X)) (Proc.devRef .tc Cert.ReferenceIdeal.main_v109) = W17 m g c (Proc.devRef .tc main_v98) := by
  obtain ⟨⟨a0, a1, a2, a3, a4, a5, a6, a7, a8, a9, a10, a11, a12, a13, a14⟩, ⟨r0, r2, r3, r4, r5, r6, r7, r8, r9, r10, r11, r12, r13, r14⟩, h1, h3, h12, hr12⟩ := hC
  have k4 : ∀ r ∈ kept4_safe, W15 m g c (Proc.devRef .tc r) = W8 m g c (Proc.devRef .tc r) := fun r hr => by
    rw [W15_eq]; exact kept4 (W8 m g c) r hr
  have L4 := lock4 (W8 m g c) X hh h1 h3
  have KS : W16 m g c (Proc.devRef .tc main_v97) = _ := (W16_arr m g c 6).trans (Cert.KernelIdeal.Soft4.final (V15 m g) c)
  have e92 : V15 m g c main_v92 = (after (Cert.ReferenceIdeal.RefRun.sE1 (F := Ideal)) (after (Cert.ReferenceIdeal.RefRun.sE0 (F := Ideal)) X)) (Proc.devRef .tc Cert.ReferenceIdeal.main_v99) := by
    show W15 m g c (Proc.devRef .tc main_v92) = _
    rw [W15_eq]; exact L4.symm
  have e82 : V15 m g c main_v82 = X (Proc.devRef .tc Cert.ReferenceIdeal.main_v89) := (k4 _ (by decide)).trans hh.symm
  have e12 : V15 m g c main_v12 = shapeCast S50000x1 (X (Proc.devRef .tc Cert.ReferenceIdeal.main_v11)) shapeCasts_S50000_S50000x1 := (k4 _ (by decide)).trans h12
  have e93 : V15 m g c main_v93 = pad S256x128 ![0, 0] ![0, 81] ![0, 0] (X (Proc.devRef .tc Cert.ReferenceIdeal.main_arg12)) (sitofp (F := Ideal) .f32 (constantI S_ 32 0#32)) pads_S256x47_S256x128_000_0810 h_S_ := by
    show W15 m g c (Proc.devRef .tc main_v93) = _
    rw [W15_eq, h4_wl (W8 m g c), a12]
  have e94 : V15 m g c main_v94 = pad S256x128 ![0, 0] ![0, 81] ![0, 0] (X (Proc.devRef .tc Cert.ReferenceIdeal.main_arg13)) (sitofp (F := Ideal) .f32 (constantI S_ 32 0#32)) pads_S256x47_S256x128_000_0810 h_S_ := by
    show W15 m g c (Proc.devRef .tc main_v94) = _
    rw [W15_eq, h4_wr (W8 m g c), a13]
  have e96 : V15 m g c main_v96 = shapeCast S1x128 (pad S128 ![0] ![81] ![0] (X (Proc.devRef .tc Cert.ReferenceIdeal.main_arg14)) (sitofp (F := Ideal) .f32 (constantI S_ 32 0#32)) pads_S47_S128_0810 h_S_) shapeCasts_S128_S1x128 := by
    show W15 m g c (Proc.devRef .tc main_v96) = _
    rw [W15_eq, h4_b (W8 m g c), a14]
  have KO : W17 m g c (Proc.devRef .tc main_v98) = extractStridedSlice S50000x47 ![0, 0] (W16 m g c (Proc.devRef .tc main_v97)) slices_S50000x128_S50000x47_0_0 :=
    h5_out (W16 m g c)
  rw [KO, KS, e92, e82, e12, e93, e94, e96, Cert.Bridge.soft]
  funext i
  obtain ⟨p, q, rfl⟩ : ∃ (p : Fin 50000) (q : Fin 47), i = ix2 p q := ⟨i 0, i 1, eq_ix2 i⟩
  rw [Cert.ReferenceIdeal.RefSoft.sF_apply, Cert.ReferenceIdeal.RefRead.lsmT_apply, Cert.ReferenceIdeal.RefTerms.sE_lin]

/-- The reference's fold at its result buffer is the kernel program's last contents at its result buffer. -/
theorem value_eq (m' : (ℓ : Loc Cert.ReferenceIdeal.nD Cert.ReferenceIdeal.τ Cert.ReferenceIdeal.sig) → Buf (Elt Ideal) ℓ)
    (hpre : Cert.Pre_KernelIdeal m)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)) :
    after (Cert.ReferenceIdeal.RefRun.ops (F := Ideal)) (launchContents m' c) (Proc.devRef .tc Cert.ReferenceIdeal.main_v109) = W17 m g c (Proc.devRef .tc main_v98) := by
  have hA : Agree (W0 m g c) (launchContents m' c) := hagree c
  have hR : ArgsReal (W0 m g c) := Cert.PreReal.allReal_of_pre _ _ _ _ _ _ _ _ _ _ _ _ _ _ _ (hpre c)
  obtain ⟨cA, lA, sA', rA⟩ := stageA m g c (launchContents m' c) hA hR
  obtain ⟨cB, lB, rB⟩ := stageB m g c _ cA lA sA' rA
  obtain ⟨cC, lC, sC', rC⟩ := stageC m g c _ cB lB rB
  obtain ⟨cD, lD, -⟩ := stageD m g c _ cC lC sC' rC
  rw [Cert.ReferenceIdeal.RefRun.after_ops]
  exact stageE m g c _ cD lD

end Cert.ValueEq

end
-- ==== Proof.lean ====
/-
  The certificate's five claims.

  Both printed kernel programs run to the end without fault and leave their arguments alone: the generated frame
  proofs of the five-region pipeline.  The reference is one straight line of host operations, none of which writes
  an argument.  The idealised kernel differs from the printed one in three constants read by name: the reciprocal
  of the tile height, 1/2000 exactly, in both statistics kernels, and the fill of the padded softmax lanes, minus
  infinity.  The two idealised programs end with equal results (module ValueEq).
-/
import proofs.«165127_j7773890805925_2_alg».proof.Defs
import proofs.«165127_j7773890805925_2_alg».proof.Proof.Gen.Kernel
import proofs.«165127_j7773890805925_2_alg».proof.Proof.Gen.Kernel.Skeleton
import proofs.«165127_j7773890805925_2_alg».proof.Proof.Gen.Kernel.Launch
import proofs.«165127_j7773890805925_2_alg».proof.Proof.Gen.Kernel.Points
import proofs.«165127_j7773890805925_2_alg».proof.Proof.Gen.Kernel.Frame
import proofs.«165127_j7773890805925_2_alg».proof.Proof.Gen.KernelIdeal
import proofs.«165127_j7773890805925_2_alg».proof.Proof.Gen.KernelIdeal.Skeleton
import proofs.«165127_j7773890805925_2_alg».proof.Proof.Gen.KernelIdeal.Launch
import proofs.«165127_j7773890805925_2_alg».proof.Proof.Gen.KernelIdeal.Points
import proofs.«165127_j7773890805925_2_alg».proof.Proof.Gen.KernelIdeal.Frame
import proofs.«165127_j7773890805925_2_alg».proof.Proof.Gen.ReferenceIdeal
import proofs.«165127_j7773890805925_2_alg».proof.Proof.Gen.Pre_finite_inputs
import proofs.«165127_j7773890805925_2_alg».proof.Proof.KernelRun
import proofs.«165127_j7773890805925_2_alg».proof.Proof.RefRun
import proofs.«165127_j7773890805925_2_alg».proof.Proof.ValueEq
import Idealize.ShloMosaic.Adequacy
import Idealize.ShloMosaic.Init

noncomputable section

namespace Cert.Proof

open Idealize.ShloMosaic Idealize.ShloMosaic.TcCoe Idealize.SL.Sem Idealize.ShloMosaic.StableHlo

/-- The printed kernel program terminates without fault and keeps its arguments. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- The reference terminates without fault, and no operation of it writes an argument. -/
theorem frame_ri : Cert.frame_ReferenceIdeal := fun m ρ _ =>
  (θ_run Cert.ReferenceIdeal.defs _ _).mono (fun r h c =>
      ⟨(h c Cert.ReferenceIdeal.main_arg0).trans (Cert.ReferenceIdeal.RefRun.kept _ Cert.ReferenceIdeal.main_arg0 (by decide)),
       (h c Cert.ReferenceIdeal.main_arg1).trans (Cert.ReferenceIdeal.RefRun.kept _ Cert.ReferenceIdeal.main_arg1 (by decide)),
       (h c Cert.ReferenceIdeal.main_arg2).trans (Cert.ReferenceIdeal.RefRun.kept _ Cert.ReferenceIdeal.main_arg2 (by decide)),
       (h c Cert.ReferenceIdeal.main_arg3).trans (Cert.ReferenceIdeal.RefRun.kept _ Cert.ReferenceIdeal.main_arg3 (by decide)),
       (h c Cert.ReferenceIdeal.main_arg4).trans (Cert.ReferenceIdeal.RefRun.kept _ Cert.ReferenceIdeal.main_arg4 (by decide)),
       (h c Cert.ReferenceIdeal.main_arg5).trans (Cert.ReferenceIdeal.RefRun.kept _ Cert.ReferenceIdeal.main_arg5 (by decide)),
       (h c Cert.ReferenceIdeal.main_arg6).trans (Cert.ReferenceIdeal.RefRun.kept _ Cert.ReferenceIdeal.main_arg6 (by decide)),
       (h c Cert.ReferenceIdeal.main_arg7).trans (Cert.ReferenceIdeal.RefRun.kept _ Cert.ReferenceIdeal.main_arg7 (by decide)),
       (h c Cert.ReferenceIdeal.main_arg8).trans (Cert.ReferenceIdeal.RefRun.kept _ Cert.ReferenceIdeal.main_arg8 (by decide)),
       (h c Cert.ReferenceIdeal.main_arg9).trans (Cert.ReferenceIdeal.RefRun.kept _ Cert.ReferenceIdeal.main_arg9 (by decide)),
       (h c Cert.ReferenceIdeal.main_arg10).trans (Cert.ReferenceIdeal.RefRun.kept _ Cert.ReferenceIdeal.main_arg10 (by decide)),
       (h c Cert.ReferenceIdeal.main_arg11).trans (Cert.ReferenceIdeal.RefRun.kept _ Cert.ReferenceIdeal.main_arg11 (by decide)),
       (h c Cert.ReferenceIdeal.main_arg12).trans (Cert.ReferenceIdeal.RefRun.kept _ Cert.ReferenceIdeal.main_arg12 (by decide)),
       (h c Cert.ReferenceIdeal.main_arg13).trans (Cert.ReferenceIdeal.RefRun.kept _ Cert.ReferenceIdeal.main_arg13 (by decide)),
       (h c Cert.ReferenceIdeal.main_arg14).trans (Cert.ReferenceIdeal.RefRun.kept _ Cert.ReferenceIdeal.main_arg14 (by decide))⟩)
    (Cert.ReferenceIdeal.RefRun.run_main (F := Ideal) m ρ)

/-- The three constants the idealisation reads by name: 1/2000 twice, and minus infinity. -/
theorem preserves : Cert.preserves_Kernel_KernelIdeal :=
  ⟨IdealRules.named_const.statement Cert.KernelIdeal.κ "inv_2000" .f32 0x3A03126F#32 ((1 / 2000 : ℝ) : EReal) rfl,
   IdealRules.named_const.statement Cert.KernelIdeal.κ "inv_2000" .f32 0x3A03126F#32 ((1 / 2000 : ℝ) : EReal) rfl,
   IdealRules.named_const.statement Cert.KernelIdeal.κ "neg_big" .f32 0xFF333332#32 ⊥ rfl⟩

/-- Both idealised programs run, and end with the same result: the kernel program's last contents at its result
    buffer, which the reference's fold at its own result buffer equals. -/
theorem algebraic : Cert.algebraic_KernelIdeal_ReferenceIdeal := by
  intro m g m' g' hpre hagree
  refine ⟨fun c => Cert.KernelIdeal.Gen.W17 m g c (Proc.devRef .tc Cert.KernelIdeal.main_v98),
    Cert.KernelIdeal.RunValue.run_result (F := Ideal) m g, ?_⟩
  refine (θ_run Cert.ReferenceIdeal.defs _ _).mono (fun r h c =>
      ⟨(h c Cert.ReferenceIdeal.main_v109).trans (Cert.ValueEq.value_eq m g c m' hpre hagree),
       (h c Cert.ReferenceIdeal.main_arg0).trans (Cert.ReferenceIdeal.RefRun.kept _ Cert.ReferenceIdeal.main_arg0 (by decide)),
       (h c Cert.ReferenceIdeal.main_arg1).trans (Cert.ReferenceIdeal.RefRun.kept _ Cert.ReferenceIdeal.main_arg1 (by decide)),
       (h c Cert.ReferenceIdeal.main_arg2).trans (Cert.ReferenceIdeal.RefRun.kept _ Cert.ReferenceIdeal.main_arg2 (by decide)),
       (h c Cert.ReferenceIdeal.main_arg3).trans (Cert.ReferenceIdeal.RefRun.kept _ Cert.ReferenceIdeal.main_arg3 (by decide)),
       (h c Cert.ReferenceIdeal.main_arg4).trans (Cert.ReferenceIdeal.RefRun.kept _ Cert.ReferenceIdeal.main_arg4 (by decide)),
       (h c Cert.ReferenceIdeal.main_arg5).trans (Cert.ReferenceIdeal.RefRun.kept _ Cert.ReferenceIdeal.main_arg5 (by decide)),
       (h c Cert.ReferenceIdeal.main_arg6).trans (Cert.ReferenceIdeal.RefRun.kept _ Cert.ReferenceIdeal.main_arg6 (by decide)),
       (h c Cert.ReferenceIdeal.main_arg7).trans (Cert.ReferenceIdeal.RefRun.kept _ Cert.ReferenceIdeal.main_arg7 (by decide)),
       (h c Cert.ReferenceIdeal.main_arg8).trans (Cert.ReferenceIdeal.RefRun.kept _ Cert.ReferenceIdeal.main_arg8 (by decide)),
       (h c Cert.ReferenceIdeal.main_arg9).trans (Cert.ReferenceIdeal.RefRun.kept _ Cert.ReferenceIdeal.main_arg9 (by decide)),
       (h c Cert.ReferenceIdeal.main_arg10).trans (Cert.ReferenceIdeal.RefRun.kept _ Cert.ReferenceIdeal.main_arg10 (by decide)),
       (h c Cert.ReferenceIdeal.main_arg11).trans (Cert.ReferenceIdeal.RefRun.kept _ Cert.ReferenceIdeal.main_arg11 (by decide)),
       (h c Cert.ReferenceIdeal.main_arg12).trans (Cert.ReferenceIdeal.RefRun.kept _ Cert.ReferenceIdeal.main_arg12 (by decide)),
       (h c Cert.ReferenceIdeal.main_arg13).trans (Cert.ReferenceIdeal.RefRun.kept _ Cert.ReferenceIdeal.main_arg13 (by decide)),
       (h c Cert.ReferenceIdeal.main_arg14).trans (Cert.ReferenceIdeal.RefRun.kept _ Cert.ReferenceIdeal.main_arg14 (by decide))⟩)
    (Cert.ReferenceIdeal.RefRun.run_main (F := Ideal) m' g')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
